-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S64x288 : Shape := ⟨2, ![64, 288]⟩
abbrev S64 : Shape := ⟨1, ![64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S64x288 : S_.BroadcastsInDim S64x288 (![] : Fin 0 → Fin S64x288.rank)
  reducesTo_S64x288_S_d0_1 : S64x288.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S64x288 .f32) (main_v50 : FVec F S64x288 .f32) : IVec S_ 1 :=
  let main_v51 : IVec S64x288 1 := cmpf .olt main_v49 main_v50
  let main_c_19 : IVec S_ 1 := constantI S_ 1 1#1
  let main_v52 : IVec S_ 1 := (fun x v => Host.reduce IntOp.andi x v reducesTo_S64x288_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S96x96 .f32) (main_arg9 : FVec F S96 .f32) (main_arg10 : FVec F S96x96 .f32) (main_arg11 : FVec F S64x288 .f32) (main_arg12 : FVec F S64 .f32) (main_v33 : IVec S_ 1) : IVec S_ 1 :=
  let main_v34 : FVec F S96x96 .f32 := Host.absf main_arg8
  let main_cst_12 : FVec F S_ .f32 := constant S_ .f32 0x7F800000#32
  let main_v35 : FVec F S96x96 .f32 := broadcastInDim S96x96 ![] bcast_S_S96x96 main_cst_12
  let main_v36 : IVec S96x96 1 := cmpf .olt main_v34 main_v35
  let main_c_13 : IVec S_ 1 := constantI S_ 1 1#1
  let main_v37 : IVec S_ 1 := (fun x v => Host.reduce IntOp.andi x v reducesTo_S96x96_S_d0_1 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96x96 .f32 := Host.absf main_arg10
  let main_cst_16 : FVec F S_ .f32 := constant S_ .f32 0x7F800000#32
  let main_v45 : FVec F S96x96 .f32 := broadcastInDim S96x96 ![] bcast_S_S96x96 main_cst_16
  let main_v46 : IVec S96x96 1 := cmpf .olt main_v44 main_v45
  let main_c_17 : IVec S_ 1 := constantI S_ 1 1#1
  let main_v47 : IVec S_ 1 := (fun x v => Host.reduce IntOp.andi x v reducesTo_S96x96_S_d0_1 h_S_) main_v46 main_c_17
  let main_v48 : IVec S_ 1 := andi main_v43 main_v47
  let main_v49 : FVec F S64x288 .f32 := Host.absf main_arg11
  let main_cst_18 : FVec F S_ .f32 := constant S_ .f32 0x7F800000#32
  let main_v50 : FVec F S64x288 .f32 := broadcastInDim S64x288 ![] bcast_S_S64x288 main_cst_18
  fn_part3 (F := F) main_arg12 main_v48 main_v49 main_v50

def fn_part1 {F : FTy → Type} [FloatOps F] (main_arg5 : FVec F S96x96 .f32) (main_arg6 : FVec F S96 .f32) (main_arg7 : FVec F S96x96 .f32) (main_arg8 : FVec F S96x96 .f32) (main_arg9 : FVec F S96 .f32) (main_arg10 : FVec F S96x96 .f32) (main_arg11 : FVec F S64x288 .f32) (main_arg12 : FVec F S64 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x96 .f32) (main_arg1 : IVec S2x800000 32) (main_arg2 : FVec F S96x96 .f32) (main_arg3 : FVec F S96 .f32) (main_arg4 : FVec F S96x96 .f32) (main_arg5 : FVec F S96x96 .f32) (main_arg6 : FVec F S96 .f32) (main_arg7 : FVec F S96x96 .f32) (main_arg8 : FVec F S96x96 .f32) (main_arg9 : FVec F S96 .f32) (main_arg10 : FVec F S96x96 .f32) (main_arg11 : FVec F S64x288 .f32) (main_arg12 : FVec F S64 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_arg8 main_arg9 main_arg10 main_arg11 main_arg12 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S64x288 : Shape := ⟨2, ![64, 288]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S5000x96 : Shape := ⟨2, ![5000, 96]⟩
abbrev S64x96 : Shape := ⟨2, ![64, 96]⟩
abbrev S96x64 : Shape := ⟨2, ![96, 64]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 76
  | .vmem => 39
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96x96, .f32⟩
  | .hbm, ⟨9, _⟩ => ⟨S96, .f32⟩
  | .hbm, ⟨10, _⟩ => ⟨S96x96, .f32⟩
  | .hbm, ⟨11, _⟩ => ⟨S64x288, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S96x96, .f32⟩
  | .hbm, ⟨31, _⟩ => ⟨S96x96, .f32⟩
  | .hbm, ⟨32, _⟩ => ⟨S1x96, .f32⟩
  | .hbm, ⟨33, _⟩ => ⟨S50000x96, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x96, .f32⟩
  | .hbm, ⟨43, _⟩ => ⟨S_, .f32⟩
  | .hbm, ⟨44, _⟩ => ⟨S50000x96, .f32⟩
  | .hbm, ⟨45, _⟩ => ⟨S800000x1, .i32⟩
  | .hbm, ⟨46, _⟩ => ⟨S50000x96, .f32⟩
  | .hbm, ⟨47, _⟩ => ⟨S96x96, .f32⟩
  | .hbm, ⟨48, _⟩ => ⟨S96x96, .f32⟩
  | .hbm, ⟨49, _⟩ => ⟨S1x96, .f32⟩
  | .hbm, ⟨50, _⟩ => ⟨S50000x96, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x96, .f32⟩
  | .hbm, ⟨60, _⟩ => ⟨S_, .f32⟩
  | .hbm, ⟨61, _⟩ => ⟨S50000x96, .f32⟩
  | .hbm, ⟨62, _⟩ => ⟨S800000x1, .i32⟩
  | .hbm, ⟨63, _⟩ => ⟨S50000x96, .f32⟩
  | .hbm, ⟨64, _⟩ => ⟨S96x96, .f32⟩
  | .hbm, ⟨65, _⟩ => ⟨S96x96, .f32⟩
  | .hbm, ⟨66, _⟩ => ⟨S1x96, .f32⟩
  | .hbm, ⟨67, _⟩ => ⟨S50000x96, .f32⟩
  | .hbm, ⟨68, _⟩ => ⟨S64x96, .f32⟩
  | .hbm, ⟨69, _⟩ => ⟨S96x64, .f32⟩
  | .hbm, ⟨70, _⟩ => ⟨S64x96, .f32⟩
  | .hbm, ⟨71, _⟩ => ⟨S96x64, .f32⟩
  | .hbm, ⟨72, _⟩ => ⟨S64x96, .f32⟩
  | .hbm, ⟨73, _⟩ => ⟨S96x64, .f32⟩
  | .hbm, ⟨74, _⟩ => ⟨S1x64, .f32⟩
  | .hbm, ⟨75, _⟩ => ⟨S50000x64, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S1x96, .f32⟩
  | .local _ .vmem, ⟨6, _⟩ => ⟨S96x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S96x96, .f32⟩
  | .local _ .vmem, ⟨14, _⟩ => ⟨S1x96, .f32⟩
  | .local _ .vmem, ⟨15, _⟩ => ⟨S96x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S96x96, .f32⟩
  | .local _ .vmem, ⟨23, _⟩ => ⟨S1x96, .f32⟩
  | .local _ .vmem, ⟨24, _⟩ => ⟨S96x96, .f32⟩
  | .local _ .vmem, ⟨25, _⟩ => ⟨S5000x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S5000x96, .f32⟩
  | .local _ .vmem, ⟨33, _⟩ => ⟨S96x64, .f32⟩
  | .local _ .vmem, ⟨34, _⟩ => ⟨S96x64, .f32⟩
  | .local _ .vmem, ⟨35, _⟩ => ⟨S96x64, .f32⟩
  | .local _ .vmem, ⟨36, _⟩ => ⟨S1x64, .f32⟩
  | .local _ .vmem, ⟨37, _⟩ => ⟨S5000x64, .f32⟩
  | .local _ .vmem, ⟨38, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S96x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S96x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  transposes_S96x96_S96x96_1_0 : S96x96.Transposes [1, 0] S96x96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S64x288_S64x96_0_0 : S64x288.Slices ![0, 0] S64x96
  transposes_S64x96_S96x64_1_0 : S64x96.Transposes [1, 0] S96x64
  slices_S64x288_S64x96_0_96 : S64x288.Slices ![0, 96] S64x96
  slices_S64x288_S64x96_0_192 : S64x288.Slices ![0, 192] S64x96
  shapeCasts_S64_S1x64 : S64.ShapeCasts S1x64
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x96.size a ≤ S96x96.size a
  hwx2_2 : ∀ i : grid2.Coords, EltTy.bits .f32 = 32 ∨ (Rect.block (s := S96x96) S96x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x96.size a ≤ S50000x96.size a
  hwx3_1 : ∀ i : grid3.Coords, EltTy.bits .f32 = 32 ∨ (Rect.block (s := S50000x96) S5000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S50000x96.size a
  hwx3_2 : ∀ i : grid3.Coords, EltTy.bits .f32 = 32 ∨ (Rect.block (s := S50000x96) S5000x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96x64.size a ≤ S96x64.size a
  hwx3_3 : ∀ i : grid3.Coords, EltTy.bits .f32 = 32 ∨ (Rect.block (s := S96x64) S96x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96x64.size a ≤ S96x64.size a
  hwx3_4 : ∀ i : grid3.Coords, EltTy.bits .f32 = 32 ∨ (Rect.block (s := S96x64) S96x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S96x64.size a ≤ S96x64.size a
  hwx3_5 : ∀ i : grid3.Coords, EltTy.bits .f32 = 32 ∨ (Rect.block (s := S96x64) S96x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_v13) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S96x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v17) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S5000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v47) S96x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S96x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S96x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v53) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S64x288 : Shape := ⟨2, ![64, 288]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000x288 : Shape := ⟨2, ![50000, 288]⟩
abbrev S288x64 : Shape := ⟨2, ![288, 64]⟩
abbrev S50000x64 : Shape := ⟨2, ![50000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96x96, .f32⟩
  | .hbm, ⟨9, _⟩ => ⟨S96, .f32⟩
  | .hbm, ⟨10, _⟩ => ⟨S96x96, .f32⟩
  | .hbm, ⟨11, _⟩ => ⟨S64x288, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S96x96, .f32⟩
  | .hbm, ⟨31, _⟩ => ⟨S50000x96, .f32⟩
  | .hbm, ⟨32, _⟩ => ⟨S1x96, .f32⟩
  | .hbm, ⟨33, _⟩ => ⟨S50000x96, .f32⟩
  | .hbm, ⟨34, _⟩ => ⟨S50000x96, .f32⟩
  | .hbm, ⟨35, _⟩ => ⟨S96x96, .f32⟩
  | .hbm, ⟨36, _⟩ => ⟨S50000x96, .f32⟩
  | .hbm, ⟨37, _⟩ => ⟨S50000x96, .f32⟩
  | .hbm, ⟨38, _⟩ => ⟨S_, .f32⟩
  | .hbm, ⟨39, _⟩ => ⟨S50000x96, .f32⟩
  | .hbm, ⟨40, _⟩ => ⟨S50000x96, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x96, .f32⟩
  | .hbm, ⟨50, _⟩ => ⟨S_, .f32⟩
  | .hbm, ⟨51, _⟩ => ⟨S50000x96, .f32⟩
  | .hbm, ⟨52, _⟩ => ⟨S800000x1, .i32⟩
  | .hbm, ⟨53, _⟩ => ⟨S50000x96, .f32⟩
  | .hbm, ⟨54, _⟩ => ⟨S96x96, .f32⟩
  | .hbm, ⟨55, _⟩ => ⟨S50000x96, .f32⟩
  | .hbm, ⟨56, _⟩ => ⟨S1x96, .f32⟩
  | .hbm, ⟨57, _⟩ => ⟨S50000x96, .f32⟩
  | .hbm, ⟨58, _⟩ => ⟨S50000x96, .f32⟩
  | .hbm, ⟨59, _⟩ => ⟨S96x96, .f32⟩
  | .hbm, ⟨60, _⟩ => ⟨S50000x96, .f32⟩
  | .hbm, ⟨61, _⟩ => ⟨S50000x96, .f32⟩
  | .hbm, ⟨62, _⟩ => ⟨S_, .f32⟩
  | .hbm, ⟨63, _⟩ => ⟨S50000x96, .f32⟩
  | .hbm, ⟨64, _⟩ => ⟨S50000x96, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x96, .f32⟩
  | .hbm, ⟨74, _⟩ => ⟨S_, .f32⟩
  | .hbm, ⟨75, _⟩ => ⟨S50000x96, .f32⟩
  | .hbm, ⟨76, _⟩ => ⟨S800000x1, .i32⟩
  | .hbm, ⟨77, _⟩ => ⟨S50000x96, .f32⟩
  | .hbm, ⟨78, _⟩ => ⟨S96x96, .f32⟩
  | .hbm, ⟨79, _⟩ => ⟨S50000x96, .f32⟩
  | .hbm, ⟨80, _⟩ => ⟨S1x96, .f32⟩
  | .hbm, ⟨81, _⟩ => ⟨S50000x96, .f32⟩
  | .hbm, ⟨82, _⟩ => ⟨S50000x96, .f32⟩
  | .hbm, ⟨83, _⟩ => ⟨S96x96, .f32⟩
  | .hbm, ⟨84, _⟩ => ⟨S50000x96, .f32⟩
  | .hbm, ⟨85, _⟩ => ⟨S50000x96, .f32⟩
  | .hbm, ⟨86, _⟩ => ⟨S_, .f32⟩
  | .hbm, ⟨87, _⟩ => ⟨S50000x96, .f32⟩
  | .hbm, ⟨88, _⟩ => ⟨S50000x96, .f32⟩
  | .hbm, ⟨89, _⟩ => ⟨S50000x288, .f32⟩
  | .hbm, ⟨90, _⟩ => ⟨S288x64, .f32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .hbm, ⟨95, _⟩ => ⟨S_, .f32⟩
  | .hbm, ⟨96, _⟩ => ⟨S50000, .f32⟩
  | .hbm, ⟨97, _⟩ => ⟨S_, .f32⟩
  | .hbm, ⟨98, _⟩ => ⟨S50000, .f32⟩
  | .hbm, ⟨99, _⟩ => ⟨S50000, .f32⟩
  | .hbm, ⟨100, _⟩ => ⟨S50000x1, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000, .f32⟩
  | .hbm, ⟨106, _⟩ => ⟨S50000x1, .f32⟩
  | .hbm, ⟨107, _⟩ => ⟨S50000x1, .f32⟩
  | .hbm, ⟨108, _⟩ => ⟨S50000x64, .f32⟩
  | .hbm, ⟨109, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_cst : Ref sig .tc := ⟨.hbm, 38, rfl⟩
abbrev main_call0_v0 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_cst : Ref sig .tc := ⟨.hbm, 62, rfl⟩
abbrev main_call1_v0 : Ref sig .tc := ⟨.hbm, 63, rfl⟩
abbrev main_v41 : Ref sig .tc := ⟨.hbm, 64, rfl⟩
abbrev main_c_4 : Ref sig .tc := ⟨.hbm, 65, rfl⟩
abbrev main_v42 : Ref sig .tc := ⟨.hbm, 66, rfl⟩
abbrev main_v43 : Ref sig .tc := ⟨.hbm, 67, rfl⟩
abbrev main_c_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call3_cst : Ref sig .tc := ⟨.hbm, 95, rfl⟩
abbrev main_call3_v0 : Ref sig .tc := ⟨.hbm, 96, rfl⟩
abbrev main_call3_cst_0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_v6 : Ref sig .tc := ⟨.hbm, 103, rfl⟩
abbrev main_call3_cst_1 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_v67 : Ref sig .tc := ⟨.hbm, 109, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  concatenates_S50000x96_S50000x96_S50000x96_S50000x288_d1 : Shape.Concatenates [S50000x96, S50000x96, S50000x96] S50000x288 1
  transposes_S64x288_S288x64_1_0 : S64x288.Transposes [1, 0] S288x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x288_S288x64_S50000x64_1_0_0_1_n_n_wf : DotDims.WF S50000x288 S288x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x288_S288x64_S50000x64_1_0_0_1_n_n : DotDims S50000x288 S288x64 S50000x64 where
  lhsContracting := [1]
  rhsContracting := [0]
  lhsNonContracting := [0]
  rhsNonContracting := [1]
  lhsBatch := []
  rhsBatch := []
  wf := dot_S50000x288_S288x64_S50000x64_1_0_0_1_n_n_wf

class Facts : Prop extends Facts₀ where

variable [Facts]
-- ==== Proof.KIRun.lean ====
/-
  The idealized kernel's run with its result named. From any memory with zero counters every weakly fair execution of
  @main terminates without a fault; at the end the result buffer holds what the last boundary of the fold through @main
  gives it — host stretches applied in order, each region's arrays replaced by what its write-backs leave — and the
  thirteen argument arrays are as launched. The launch is the one the frame is proved by; the last thread state holds
  every unscoped buffer at the last boundary's contents, and the result buffer is read from it beside the arguments.
-/
import proofs.«136992_j74148315398472_1_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the
    arguments as launched. -/
theorem run_value : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Hand

end
-- ==== Proof.Spec.lean ====
/-
  The network this certificate is about, entry by entry on the extended reals. Nothing here depends on a program.

  One graph-convolution layer takes the aggregated neighbour features `agg` and the node features `x` (both 50000 × 96),
  two 96 × 96 weight matrices already transposed (entry (k, j) multiplies input channel k into output channel j) and a
  bias laid out as one row, and returns at node r and channel j
      max ( (Σ_k agg(r,k) · wrelT(k,j) + b(0,j)) + Σ_k x(r,k) · wrootT(k,j) , 0 ).
  The sums are finite sums of extended reals in this grouping; nothing is assumed finite.

  The final stage takes the three hidden states, three 96 × 64 weight matrices (the three column blocks of the 64 × 288
  output weights, transposed) and a bias row, forms for node r the 64 logits
      l(j) = ((Σ_k x1(r,k)·w1(k,j) + Σ_k x2(r,k)·w2(k,j)) + Σ_k x3(r,k)·w3(k,j)) + b(0,j)
  and returns their log-softmax: with M the maximum of the logits (the fold of max from −∞),
      (l(j) − M) − log Σ_q exp(l(q) − M).

  `net` composes three layers and the final stage over any aggregation map on node features.
-/
import Idealize.ShloMosaic.PureOps.Ideal
import Idealize.ShloMosaic.Lib.ValueIdx

noncomputable section

namespace Cert.Spec

open Idealize.ShloMosaic Idealize.ShloMosaic.ValueIdx

/-- Node features: 50000 nodes, 96 channels. -/
abbrev ANodes := FVec Ideal ⟨2, ![50000, 96]⟩ .f32
/-- A transposed layer weight: input channel × output channel. -/
abbrev AW := FVec Ideal ⟨2, ![96, 96]⟩ .f32
/-- A layer's bias as one row. -/
abbrev ARow := FVec Ideal ⟨2, ![1, 96]⟩ .f32
/-- A transposed block of the output weights: hidden channel × class. -/
abbrev AWout := FVec Ideal ⟨2, ![96, 64]⟩ .f32
/-- The output bias as one row. -/
abbrev ARowOut := FVec Ideal ⟨2, ![1, 64]⟩ .f32
/-- The result: 50000 nodes, 64 classes. -/
abbrev AOut := FVec Ideal ⟨2, ![50000, 64]⟩ .f32

/-- One layer at node `r`, channel `j`. -/
def layerAt (agg x : ANodes) (wrelT wrootT : AW) (brow : ARow) (r : Fin 50000) (j : Fin 96) : EReal :=
  max (((∑ k : Fin 96, agg (ix2 r k) * wrelT (ix2 k j)) + brow (ix2 (0 : Fin 1) j))
        + ∑ k : Fin 96, x (ix2 r k) * wrootT (ix2 k j))
      (Ideal.ofBits .f32 0x00000000#32)

/-- One layer as a whole array. -/
def layerF (agg x : ANodes) (wrelT wrootT : AW) (brow : ARow) : ANodes :=
  fun i => layerAt agg x wrelT wrootT brow (i 0) (i 1)

theorem layerF_apply (agg x : ANodes) (wrelT wrootT : AW) (brow : ARow) (r : Fin 50000) (j : Fin 96) :
    layerF agg x wrelT wrootT brow (ix2 r j) = layerAt agg x wrelT wrootT brow r j := rfl

/-- The logit of node `r` for class `j`. -/
def logitAt (x1 x2 x3 : ANodes) (w1 w2 w3 : AWout) (brow : ARowOut) (r : Fin 50000) (j : Fin 64) : EReal :=
  (((∑ k : Fin 96, x1 (ix2 r k) * w1 (ix2 k j)) + ∑ k : Fin 96, x2 (ix2 r k) * w2 (ix2 k j))
      + ∑ k : Fin 96, x3 (ix2 r k) * w3 (ix2 k j))
    + brow (ix2 (0 : Fin 1) j)

/-- The maximum of 64 logits: the fold of max from −∞ (the f32 word 0xFF800000). -/
def rowTop (l : Fin 64 → EReal) : EReal :=
  (Finset.univ : Finset (Fin 64)).fold max (Ideal.ofBits .f32 0xFF800000#32) l

/-- Log-softmax of 64 logits at class `j`. -/
def lsmAt (l : Fin 64 → EReal) (j : Fin 64) : EReal :=
  (l j - rowTop l) - Ideal.log (∑ q : Fin 64, Ideal.exp (l q - rowTop l))

/-- The final stage as a whole array. -/
def finalF (x1 x2 x3 : ANodes) (w1 w2 w3 : AWout) (brow : ARowOut) : AOut :=
  fun i => lsmAt (logitAt x1 x2 x3 w1 w2 w3 brow (i 0)) (i 1)

theorem finalF_apply (x1 x2 x3 : ANodes) (w1 w2 w3 : AWout) (brow : ARowOut) (r : Fin 50000) (j : Fin 64) :
    finalF x1 x2 x3 w1 w2 w3 brow (ix2 r j) = lsmAt (logitAt x1 x2 x3 w1 w2 w3 brow r) j := rfl

/-- The 64 × 288 output weights. -/
abbrev AWlin := FVec Ideal ⟨2, ![64, 288]⟩ .f32

/-- Columns `o … o + 95` of the output weights, transposed: entry (k, j) is the weight of hidden channel `o + k`
    for class `j`. -/
def wBlock (o : Nat) (ho : o + 96 ≤ 288) (wl : AWlin) : AWout :=
  fun i => wl (ix2 (i 1) ⟨o + (i 0).val, by have := (i 0).isLt; have h : (i 0).val < 96 := this; omega⟩)

theorem wBlock_apply (o : Nat) (ho : o + 96 ≤ 288) (wl : AWlin) (k : Fin 96) (j : Fin 64) :
    wBlock o ho wl (ix2 k j) = wl (ix2 j ⟨o + k.val, by have := k.isLt; omega⟩) := rfl

/-- Three layers and the final stage, over any aggregation map on node features. -/
def net (aggr : ANodes → ANodes) (x0 : ANodes) (w1r w1o : AW) (b1 : ARow) (w2r w2o : AW) (b2 : ARow)
    (w3r w3o : AW) (b3 : ARow) (l1 l2 l3 : AWout) (bl : ARowOut) : AOut :=
  finalF (layerF (aggr x0) x0 w1r w1o b1)
    (layerF (aggr (layerF (aggr x0) x0 w1r w1o b1)) (layerF (aggr x0) x0 w1r w1o b1) w2r w2o b2)
    (layerF (aggr (layerF (aggr (layerF (aggr x0) x0 w1r w1o b1)) (layerF (aggr x0) x0 w1r w1o b1) w2r w2o b2))
      (layerF (aggr (layerF (aggr x0) x0 w1r w1o b1)) (layerF (aggr x0) x0 w1r w1o b1) w2r w2o b2) w3r w3o b3)
    l1 l2 l3 bl

end Cert.Spec

end
-- ==== Proof.KIFold.lean ====
/-
  The fold through the idealized kernel's @main, read back. @main is four host stretches, each followed by a kernel
  region. A host stretch rewrites the buffers its operations write, as functions of what it finds; a region replaces
  its output array by what its write-backs leave and keeps everything else. Reading the result buffer at the last
  boundary back through the eight steps gives the network of the specification: each hidden state is one layer of the
  neighbourhood sum of the previous one, and the result is the final stage of the three hidden states.

  `aggrOf src dst x` is the neighbourhood sum as the host computes it: the rows of x gathered at the source nodes
  (a negative index wrapped by 50000) and added into the target nodes' rows, from zero. The source and target rows are
  cut from the edge list once, in the first stretch, and read again by the second and third.
-/
import proofs.«136992_j74148315398472_1_alg».proof.Proof.KernelIdealFrame
import proofs.«136992_j74148315398472_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

/-! ## The host's functions -/

/-- The edges' source nodes as a vector: row 0 of the edge list. -/
def srcRow (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The edges' target nodes as a vector: row 1 of the edge list. -/
def dstRow (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The neighbourhood sum from the source and target rows. -/
def aggrOf (src dst : (⟨S800000, .i32⟩ : BufTy).Contents (Elt Ideal)) (x : FVec Ideal S50000x96 .f32) : FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (Host.gather gather_S50000x96_S800000x1_S800000x96_1_0_n_n_0_1_196 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

/-- The neighbourhood sum over an edge list. -/
def aggr (ei : (⟨S2x800000, .i32⟩ : BufTy).Contents (Elt Ideal)) (x : FVec Ideal S50000x96 .f32) : FVec Ideal S50000x96 .f32 :=
  aggrOf (srcRow ei) (dstRow ei) x

/-- Columns o … o + 95 of the output weights, transposed, as the host cuts them. -/
def wCut0 (wl : FVec Ideal S64x288 .f32) : FVec Ideal S96x64 .f32 :=
  transpose S96x64 [1, 0] (extractStridedSlice S64x96 ![0, 0] wl slices_S64x288_S64x96_0_0) transposes_S64x96_S96x64_1_0
def wCut1 (wl : FVec Ideal S64x288 .f32) : FVec Ideal S96x64 .f32 :=
  transpose S96x64 [1, 0] (extractStridedSlice S64x96 ![0, 96] wl slices_S64x288_S64x96_0_96) transposes_S64x96_S96x64_1_0
def wCut2 (wl : FVec Ideal S64x288 .f32) : FVec Ideal S96x64 .f32 :=
  transpose S96x64 [1, 0] (extractStridedSlice S64x96 ![0, 192] wl slices_S64x288_S64x96_0_192) transposes_S64x96_S96x64_1_0

/-! ## The host stretches, from any contents -/

section Stretches

variable (W : Valuation τ sig (Elt Ideal))

theorem ops0_v1 : after hostOps0 W (Proc.devRef .tc main_v1) = srcRow (W (Proc.devRef .tc main_arg1)) := by
  after_results; try rfl
theorem ops0_v3 : after hostOps0 W (Proc.devRef .tc main_v3) = dstRow (W (Proc.devRef .tc main_arg1)) := by
  after_results; try rfl
theorem ops0_v13 : after hostOps0 W (Proc.devRef .tc main_v13)
    = aggr (W (Proc.devRef .tc main_arg1)) (W (Proc.devRef .tc main_arg0)) := by
  after_results; try rfl
theorem ops0_v14 : after hostOps0 W (Proc.devRef .tc main_v14)
    = transpose S96x96 [1, 0] (W (Proc.devRef .tc main_arg2)) transposes_S96x96_S96x96_1_0 := by
  after_results; try rfl
theorem ops0_v15 : after hostOps0 W (Proc.devRef .tc main_v15)
    = transpose S96x96 [1, 0] (W (Proc.devRef .tc main_arg4)) transposes_S96x96_S96x96_1_0 := by
  after_results; try rfl
theorem ops0_v16 : after hostOps0 W (Proc.devRef .tc main_v16)
    = shapeCast S1x96 (W (Proc.devRef .tc main_arg3)) shapeCasts_S96_S1x96 := by
  after_results; try rfl

theorem ops1_v27 : after hostOps1 W (Proc.devRef .tc main_v27)
    = aggrOf (W (Proc.devRef .tc main_v1)) (W (Proc.devRef .tc main_v3)) (W (Proc.devRef .tc main_v17)) := by
  after_results; try rfl
theorem ops1_v28 : after hostOps1 W (Proc.devRef .tc main_v28)
    = transpose S96x96 [1, 0] (W (Proc.devRef .tc main_arg5)) transposes_S96x96_S96x96_1_0 := by
  after_results; try rfl
theorem ops1_v29 : after hostOps1 W (Proc.devRef .tc main_v29)
    = transpose S96x96 [1, 0] (W (Proc.devRef .tc main_arg7)) transposes_S96x96_S96x96_1_0 := by
  after_results; try rfl
theorem ops1_v30 : after hostOps1 W (Proc.devRef .tc main_v30)
    = shapeCast S1x96 (W (Proc.devRef .tc main_arg6)) shapeCasts_S96_S1x96 := by
  after_results; try rfl

theorem ops2_v41 : after hostOps2 W (Proc.devRef .tc main_v41)
    = aggrOf (W (Proc.devRef .tc main_v1)) (W (Proc.devRef .tc main_v3)) (W (Proc.devRef .tc main_v31)) := by
  after_results; try rfl
theorem ops2_v42 : after hostOps2 W (Proc.devRef .tc main_v42)
    = transpose S96x96 [1, 0] (W (Proc.devRef .tc main_arg8)) transposes_S96x96_S96x96_1_0 := by
  after_results; try rfl
theorem ops2_v43 : after hostOps2 W (Proc.devRef .tc main_v43)
    = transpose S96x96 [1, 0] (W (Proc.devRef .tc main_arg10)) transposes_S96x96_S96x96_1_0 := by
  after_results; try rfl
theorem ops2_v44 : after hostOps2 W (Proc.devRef .tc main_v44)
    = shapeCast S1x96 (W (Proc.devRef .tc main_arg9)) shapeCasts_S96_S1x96 := by
  after_results; try rfl

theorem ops3_v47 : after hostOps3 W (Proc.devRef .tc main_v47) = wCut0 (W (Proc.devRef .tc main_arg11)) := by
  after_results; try rfl
theorem ops3_v49 : after hostOps3 W (Proc.devRef .tc main_v49) = wCut1 (W (Proc.devRef .tc main_arg11)) := by
  after_results; try rfl
theorem ops3_v51 : after hostOps3 W (Proc.devRef .tc main_v51) = wCut2 (W (Proc.devRef .tc main_arg11)) := by
  after_results; try rfl
theorem ops3_v52 : after hostOps3 W (Proc.devRef .tc main_v52)
    = shapeCast S1x64 (W (Proc.devRef .tc main_arg12)) shapeCasts_S64_S1x64 := by
  after_results; try rfl

/-! ## What each stretch writes, and what it keeps -/

/-- The buffers stretch 0's operations write. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16]
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 0 does not write keeps its contents. -/
theorem keep0 (r : Ref sig .tc) (h : r ∉ hostOps0_W) : after hostOps0 W (Proc.devRef .tc r) = W (Proc.devRef .tc r) :=
  after_of_writes_sub hostOps0 W hostOps0_writes h

/-- The buffers stretch 1's operations write. -/
abbrev hostOps1_W : List (Ref sig .tc) := [main_c_1, main_v18, main_v19, main_c_2, main_v20, main_v21, main_v22, main_v23, main_v24, main_cst_3, main_v25, main_v26, main_v27, main_v28, main_v29, main_v30]
theorem hostOps1_writes : (hostOps1 : List (HloOp τ sig (Elt Ideal))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 1 does not write keeps its contents. -/
theorem keep1 (r : Ref sig .tc) (h : r ∉ hostOps1_W) : after hostOps1 W (Proc.devRef .tc r) = W (Proc.devRef .tc r) :=
  after_of_writes_sub hostOps1 W hostOps1_writes h

/-- The buffers stretch 2's operations write. -/
abbrev hostOps2_W : List (Ref sig .tc) := [main_c_4, main_v32, main_v33, main_c_5, main_v34, main_v35, main_v36, main_v37, main_v38, main_cst_6, main_v39, main_v40, main_v41, main_v42, main_v43, main_v44]
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 2 does not write keeps its contents. -/
theorem keep2 (r : Ref sig .tc) (h : r ∉ hostOps2_W) : after hostOps2 W (Proc.devRef .tc r) = W (Proc.devRef .tc r) :=
  after_of_writes_sub hostOps2 W hostOps2_writes h

/-- The buffers stretch 3's operations write. -/
abbrev hostOps3_W : List (Ref sig .tc) := [main_v46, main_v47, main_v48, main_v49, main_v50, main_v51, main_v52]
theorem hostOps3_writes : (hostOps3 : List (HloOp τ sig (Elt Ideal))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A buffer stretch 3 does not write keeps its contents. -/
theorem keep3 (r : Ref sig .tc) (h : r ∉ hostOps3_W) : after hostOps3 W (Proc.devRef .tc r) = W (Proc.devRef .tc r) :=
  after_of_writes_sub hostOps3 W hostOps3_writes h

end Stretches

section Fold

variable (m : (ℓ : Loc nD τ sig) → Buf (Elt Ideal) ℓ) (ρ : Dev nD → PrngReg) (c : Dev nD)

/-! ## Buffers nothing writes: the arguments, and the source and target rows after the first stretch -/

theorem W1_keep (r : Ref sig .tc) (h0 : r ∉ hostOps0_W) : W1 m ρ c (Proc.devRef .tc r) = m ((c : Thread nD τ).loc r) :=
  keep0 (W0 m ρ c) r h0
theorem W2_keep (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans (W1_keep m ρ c r h0)
theorem W3_keep (r : Ref sig .tc) (h0 : r ∉ hostOps0_W) (a0 : ∀ w, Pipeline.arrRef spec0 w ≠ r) (h1 : r ∉ hostOps1_W) :
    W3 m ρ c (Proc.devRef .tc r) = m ((c : Thread nD τ).loc r) :=
  (keep1 (W2 m ρ c) r h1).trans (W2_keep m ρ c r h0 a0)
theorem W4_keep (r : Ref sig .tc) (h0 : r ∉ hostOps0_W) (a0 : ∀ w, Pipeline.arrRef spec0 w ≠ r) (h1 : r ∉ hostOps1_W)
    (a1 : ∀ w, Pipeline.arrRef spec1 w ≠ r) : W4 m ρ c (Proc.devRef .tc r) = m ((c : Thread nD τ).loc r) :=
  (W4_of_ne m ρ c r a1).trans (W3_keep m ρ c r h0 a0 h1)
theorem W5_keep (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) : W5 m ρ c (Proc.devRef .tc r) = m ((c : Thread nD τ).loc r) :=
  (keep2 (W4 m ρ c) r h2).trans (W4_keep m ρ c r h0 a0 h1 a1)
theorem W6_keep (r : Ref sig .tc) (h0 : r ∉ hostOps0_W) (a0 : ∀ w, Pipeline.arrRef spec0 w ≠ r) (h1 : r ∉ hostOps1_W)
    (a1 : ∀ w, Pipeline.arrRef spec1 w ≠ r) (h2 : r ∉ hostOps2_W) (a2 : ∀ w, Pipeline.arrRef spec2 w ≠ r) :
    W6 m ρ c (Proc.devRef .tc r) = m ((c : Thread nD τ).loc r) :=
  (W6_of_ne m ρ c r a2).trans (W5_keep m ρ c r h0 a0 h1 a1 h2)

/-- The source row, cut from the edge list by the first stretch, at the later boundaries that read it. -/
theorem W2_v1 : W2 m ρ c (Proc.devRef .tc main_v1) = srcRow (m ((c : Thread nD τ).loc main_arg1)) :=
  (W2_of_ne m ρ c main_v1 (by decide)).trans (ops0_v1 (W0 m ρ c))
theorem W4_v1 : W4 m ρ c (Proc.devRef .tc main_v1) = srcRow (m ((c : Thread nD τ).loc main_arg1)) :=
  (W4_of_ne m ρ c main_v1 (by decide)).trans ((keep1 (W2 m ρ c) main_v1 (by decide)).trans (W2_v1 m ρ c))
/-- The target row likewise. -/
theorem W2_v3 : W2 m ρ c (Proc.devRef .tc main_v3) = dstRow (m ((c : Thread nD τ).loc main_arg1)) :=
  (W2_of_ne m ρ c main_v3 (by decide)).trans (ops0_v3 (W0 m ρ c))
theorem W4_v3 : W4 m ρ c (Proc.devRef .tc main_v3) = dstRow (m ((c : Thread nD τ).loc main_arg1)) :=
  (W4_of_ne m ρ c main_v3 (by decide)).trans ((keep1 (W2 m ρ c) main_v3 (by decide)).trans (W2_v3 m ρ c))

/-! ## The hidden states -/

/-- The first hidden state: one layer of the neighbourhood sum of the input features. -/
def hid1 : Cert.Spec.ANodes :=
  Cert.Spec.layerF (aggr (m ((c : Thread nD τ).loc main_arg1)) (m ((c : Thread nD τ).loc main_arg0))) (m ((c : Thread nD τ).loc main_arg0)) (transpose S96x96 [1, 0] (m ((c : Thread nD τ).loc main_arg2)) transposes_S96x96_S96x96_1_0) (transpose S96x96 [1, 0] (m ((c : Thread nD τ).loc main_arg4)) transposes_S96x96_S96x96_1_0) (shapeCast S1x96 (m ((c : Thread nD τ).loc main_arg3)) shapeCasts_S96_S1x96)
/-- The second: one layer of the neighbourhood sum of the first. -/
def hid2 : Cert.Spec.ANodes :=
  Cert.Spec.layerF (aggr (m ((c : Thread nD τ).loc main_arg1)) (hid1 m c)) (hid1 m c) (transpose S96x96 [1, 0] (m ((c : Thread nD τ).loc main_arg5)) transposes_S96x96_S96x96_1_0) (transpose S96x96 [1, 0] (m ((c : Thread nD τ).loc main_arg7)) transposes_S96x96_S96x96_1_0) (shapeCast S1x96 (m ((c : Thread nD τ).loc main_arg6)) shapeCasts_S96_S1x96)
/-- The third: one layer of the neighbourhood sum of the second. -/
def hid3 : Cert.Spec.ANodes :=
  Cert.Spec.layerF (aggr (m ((c : Thread nD τ).loc main_arg1)) (hid2 m c)) (hid2 m c) (transpose S96x96 [1, 0] (m ((c : Thread nD τ).loc main_arg8)) transposes_S96x96_S96x96_1_0) (transpose S96x96 [1, 0] (m ((c : Thread nD τ).loc main_arg10)) transposes_S96x96_S96x96_1_0) (shapeCast S1x96 (m ((c : Thread nD τ).loc main_arg9)) shapeCasts_S96_S1x96)

variable (hR0 : ∀ (V : (c : Dev nD) → (b : Ref sig .tc) → Buf (Elt Ideal) ((c : Thread nD τ).loc b)) (c : Dev nD),
    (dat0 (F := Ideal) V c).arrAt 5 cfg0.N = Cert.Spec.layerF (V c main_v13) (V c main_arg0) (V c main_v14) (V c main_v15) (V c main_v16))
  (hR1 : ∀ (V : (c : Dev nD) → (b : Ref sig .tc) → Buf (Elt Ideal) ((c : Thread nD τ).loc b)) (c : Dev nD),
    (dat1 (F := Ideal) V c).arrAt 5 cfg1.N = Cert.Spec.layerF (V c main_v27) (V c main_v17) (V c main_v28) (V c main_v29) (V c main_v30))
  (hR2 : ∀ (V : (c : Dev nD) → (b : Ref sig .tc) → Buf (Elt Ideal) ((c : Thread nD τ).loc b)) (c : Dev nD),
    (dat2 (F := Ideal) V c).arrAt 5 cfg2.N = Cert.Spec.layerF (V c main_v41) (V c main_v31) (V c main_v42) (V c main_v43) (V c main_v44))
  (hR3 : ∀ (V : (c : Dev nD) → (b : Ref sig .tc) → Buf (Elt Ideal) ((c : Thread nD τ).loc b)) (c : Dev nD),
    (dat3 (F := Ideal) V c).arrAt 7 cfg3.N = Cert.Spec.finalF (V c main_v17) (V c main_v31) (V c main_v45) (V c main_v47) (V c main_v49) (V c main_v51) (V c main_v52))

include hR0 in
/-- Region 0 leaves the first hidden state in its output array. -/
theorem W2_v17 : W2 m ρ c (Proc.devRef .tc main_v17) = hid1 m c := by
  refine (W2_arr m ρ c 5).trans ((hR0 (V1 m ρ) c).trans ?_)
  show Cert.Spec.layerF (after hostOps0 (W0 m ρ c) (Proc.devRef .tc main_v13)) (after hostOps0 (W0 m ρ c) (Proc.devRef .tc main_arg0))
      (after hostOps0 (W0 m ρ c) (Proc.devRef .tc main_v14)) (after hostOps0 (W0 m ρ c) (Proc.devRef .tc main_v15))
      (after hostOps0 (W0 m ρ c) (Proc.devRef .tc main_v16)) = _
  rw [ops0_v13, ops0_v14, ops0_v15, ops0_v16, keep0 (W0 m ρ c) main_arg0 (by decide)]
  rfl

include hR0 in
/-- It is still there when region 1 starts, and region 1, which only reads it, leaves it there. -/
theorem W4_v17 : W4 m ρ c (Proc.devRef .tc main_v17) = hid1 m c :=
  (W4_arr m ρ c 1).trans (((dat1 (V3 m ρ) c).arrAt_in 1 rfl _).trans ((A_eq1 (V3 m ρ) c 1).trans
    ((keep1 (W2 m ρ c) main_v17 (by decide)).trans (W2_v17 m ρ c hR0))))

include hR0 hR1 in
/-- Region 1 leaves the second hidden state in its output array. -/
theorem W4_v31 : W4 m ρ c (Proc.devRef .tc main_v31) = hid2 m c := by
  refine (W4_arr m ρ c 5).trans ((hR1 (V3 m ρ) c).trans ?_)
  show Cert.Spec.layerF (after hostOps1 (W2 m ρ c) (Proc.devRef .tc main_v27)) (after hostOps1 (W2 m ρ c) (Proc.devRef .tc main_v17))
      (after hostOps1 (W2 m ρ c) (Proc.devRef .tc main_v28)) (after hostOps1 (W2 m ρ c) (Proc.devRef .tc main_v29))
      (after hostOps1 (W2 m ρ c) (Proc.devRef .tc main_v30)) = _
  rw [ops1_v27, ops1_v28, ops1_v29, ops1_v30, keep1 (W2 m ρ c) main_v17 (by decide), W2_v1, W2_v3, W2_v17 m ρ c hR0,
    W2_keep m ρ c main_arg5 (by decide) (by decide), W2_keep m ρ c main_arg6 (by decide) (by decide),
    W2_keep m ρ c main_arg7 (by decide) (by decide)]
  rfl

include hR0 in
theorem W6_v17 : W6 m ρ c (Proc.devRef .tc main_v17) = hid1 m c :=
  (W6_of_ne m ρ c main_v17 (by decide)).trans ((keep2 (W4 m ρ c) main_v17 (by decide)).trans (W4_v17 m ρ c hR0))

include hR0 hR1 in
theorem W6_v31 : W6 m ρ c (Proc.devRef .tc main_v31) = hid2 m c :=
  (W6_arr m ρ c 1).trans (((dat2 (V5 m ρ) c).arrAt_in 1 rfl _).trans ((A_eq2 (V5 m ρ) c 1).trans
    ((keep2 (W4 m ρ c) main_v31 (by decide)).trans (W4_v31 m ρ c hR0 hR1))))

include hR0 hR1 hR2 in
/-- Region 2 leaves the third hidden state in its output array. -/
theorem W6_v45 : W6 m ρ c (Proc.devRef .tc main_v45) = hid3 m c := by
  refine (W6_arr m ρ c 5).trans ((hR2 (V5 m ρ) c).trans ?_)
  show Cert.Spec.layerF (after hostOps2 (W4 m ρ c) (Proc.devRef .tc main_v41)) (after hostOps2 (W4 m ρ c) (Proc.devRef .tc main_v31))
      (after hostOps2 (W4 m ρ c) (Proc.devRef .tc main_v42)) (after hostOps2 (W4 m ρ c) (Proc.devRef .tc main_v43))
      (after hostOps2 (W4 m ρ c) (Proc.devRef .tc main_v44)) = _
  rw [ops2_v41, ops2_v42, ops2_v43, ops2_v44, keep2 (W4 m ρ c) main_v31 (by decide), W4_v1, W4_v3, W4_v31 m ρ c hR0 hR1,
    W4_keep m ρ c main_arg8 (by decide) (by decide) (by decide) (by decide),
    W4_keep m ρ c main_arg9 (by decide) (by decide) (by decide) (by decide),
    W4_keep m ρ c main_arg10 (by decide) (by decide) (by decide) (by decide)]
  rfl

include hR0 hR1 hR2 hR3 in
/-- The result buffer at the last boundary is the final stage of the three hidden states, with the output weights'
    three column blocks transposed and the output bias as one row. -/
theorem result_eq : W8 m ρ c (Proc.devRef .tc main_v53)
    = Cert.Spec.finalF (hid1 m c) (hid2 m c) (hid3 m c) (wCut0 (m ((c : Thread nD τ).loc main_arg11))) (wCut1 (m ((c : Thread nD τ).loc main_arg11))) (wCut2 (m ((c : Thread nD τ).loc main_arg11)))
        (shapeCast S1x64 (m ((c : Thread nD τ).loc main_arg12)) shapeCasts_S64_S1x64) := by
  refine (W8_arr m ρ c 7).trans ((hR3 (V7 m ρ) c).trans ?_)
  show Cert.Spec.finalF (after hostOps3 (W6 m ρ c) (Proc.devRef .tc main_v17)) (after hostOps3 (W6 m ρ c) (Proc.devRef .tc main_v31))
      (after hostOps3 (W6 m ρ c) (Proc.devRef .tc main_v45)) (after hostOps3 (W6 m ρ c) (Proc.devRef .tc main_v47))
      (after hostOps3 (W6 m ρ c) (Proc.devRef .tc main_v49)) (after hostOps3 (W6 m ρ c) (Proc.devRef .tc main_v51))
      (after hostOps3 (W6 m ρ c) (Proc.devRef .tc main_v52)) = _
  rw [ops3_v47, ops3_v49, ops3_v51, ops3_v52, keep3 (W6 m ρ c) main_v17 (by decide), keep3 (W6 m ρ c) main_v31 (by decide),
    keep3 (W6 m ρ c) main_v45 (by decide), W6_v17 m ρ c hR0, W6_v31 m ρ c hR0 hR1, W6_v45 m ρ c hR0 hR1 hR2,
    W6_keep m ρ c main_arg11 (by decide) (by decide) (by decide) (by decide) (by decide) (by decide),
    W6_keep m ρ c main_arg12 (by decide) (by decide) (by decide) (by decide) (by decide) (by decide)]

end Fold

end Cert.KernelIdeal.Hand

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibAffineAt.lean ====
/-
  An affine map x · W + b read at one entry, in the two spellings a tiled kernel and a host program give it, and a bias
  vector recast as a one-row matrix. Nothing here depends on a program.

  A kernel that tiles the rows multiplies its block of M rows by the whole K × N weight matrix into a zero accumulator,
  after a change of float format (the identity at the ideal values), and adds the bias, a one-row matrix broadcast down
  the M rows. A host program takes the matrix product of the whole matrices and adds the same row broadcast down the rows.
  At the ideal values both read at row p and column q as
      Σ_k x(p, k) · w(k, q) + b(0, q),
  one exact sum and one addition, so the two sides meet with no finiteness hypothesis (`block_at`, `host_at`). A vector of
  n entries recast as a one-row matrix is the vector broadcast along axis 1 into one row (`rowCast_eq`): how a kernel's
  wrapper and a jnp reference each lay a bias vector out before adding it.
-/
import proofs.«136992_j74148315398472_1_alg».proof.Proof.LibMatmulAt
import Idealize.ShloMosaic.Lib.Pipeline.Value
import Idealize.ShloMosaic.Lib.ValueIdx
import Idealize.ShloMosaic.Lib.KernelVsHost
import Idealize.ShloMosaic.PureOps.Ideal.Laws

noncomputable section

namespace Cert.LibAffineAt

open Idealize.ShloMosaic Idealize.ShloMosaic.ValueIdx

/-- A one-row matrix broadcast down M rows in the kernel's spelling, read at (p, q), is the row at (0, q). -/
theorem broadcastTo_oneRow_apply {α : Type} {M N : Nat} (b : (⟨2, ![1, N]⟩ : Shape).Idx → α)
    (hb : (⟨2, ![1, N]⟩ : Shape).Broadcasts ⟨2, ![M, N]⟩) (p : Fin M) (q : Fin N) :
    broadcastTo ⟨2, ![M, N]⟩ b hb (ix2 p q) = b (ix2 (0 : Fin 1) q) := by
  refine broadcastTo_apply b hb (ix2 p q) (ix2 (0 : Fin 1) q) ?_
  intro a
  match a with
  | ⟨0, _⟩ => rfl
  | ⟨1, _⟩ =>
    show q.val = if N = 1 then 0 else q.val
    split
    · have := q.isLt; omega
    · rfl

/-- The kernel's arithmetic on a block: the block times the weights into the zero accumulator, plus the bias row laid along
    every row, at (p, q). -/
theorem block_at {M K N : Nat} (d : DotDims ⟨2, ![M, K]⟩ ⟨2, ![K, N]⟩ ⟨2, ![M, N]⟩) (hd : d = DotDims.plain M K N)
    (hb : (⟨2, ![1, N]⟩ : Shape).Broadcasts ⟨2, ![M, N]⟩)
    (x : FVec Ideal ⟨2, ![M, K]⟩ .f32) (w : FVec Ideal ⟨2, ![K, N]⟩ .f32) (b : FVec Ideal ⟨2, ![1, N]⟩ .f32)
    (h1 : FTy.bf16.bits < FTy.f32.bits) (p : Fin M) (q : Fin N) :
    addf (matmul d none (truncf .bf16 x h1) (truncf .bf16 w h1) (constant ⟨2, ![M, N]⟩ .f32 0x00000000#32)) (broadcastTo ⟨2, ![M, N]⟩ b hb) (ix2 p q)
      = (∑ k : Fin K, x (ix2 p k) * w (ix2 k q)) + b (ix2 (0 : Fin 1) q) := by
  refine (addf_apply _ _ _).trans ?_
  refine congrArg₂ (· + ·) ?_ (broadcastTo_oneRow_apply b hb p q)
  exact Cert.KernelIdeal.Hand.matmul_zero_plain_apply d hd none (truncf .bf16 x h1) (truncf .bf16 w h1) (ix2 p q)

/-- The host's affine map at (r, q): the product's exact sum plus the bias row's entry. -/
theorem host_at {M K N : Nat} (d : DotDims ⟨2, ![M, K]⟩ ⟨2, ![K, N]⟩ ⟨2, ![M, N]⟩) (hd : d = DotDims.plain M K N)
    (hbc : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨2, ![1, N]⟩ .f32) (r : Fin M) (q : Fin N) :
    addf (Host.dotGeneral d none x w) (broadcastInDim ⟨2, ![M, N]⟩ ![0, 1] hbc b) (ix2 r q)
      = (∑ k : Fin K, x (ix2 r k) * w (ix2 k q)) + b (ix2 (0 : Fin 1) q) := by
  refine (addf_apply _ _ _).trans ?_
  refine congrArg₂ (· + ·) ?_ (broadcastInDim_oneRow_apply hbc b r q)
  exact Cert.KernelIdeal.Hand.dotGeneral_plain_apply' d hd none x w (ix2 r q)

/-- A vector of n entries recast as a one-row matrix is the vector broadcast along axis 1 into one row: both read the
    vector's entry k at (0, k). Any element type. -/
theorem rowCast_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext j
  have hj0 : (j 0).val = 0 := by have := (j 0).isLt; have e : (j 0).val < 1 := this; omega
  have e1 := shapeCast_apply b h1 j (ix1 (j 1)) (by
    rw [Shape.rowMajor_val_two, Shape.rowMajor_val_one]; show (j 1).val = (j 0).val * n + (j 1).val; rw [hj0]; omega)
  have e2 := broadcastInDim_apply ![1] hd b j (ix1 (j 1)) (by
    intro a
    match a with
    | ⟨0, _⟩ =>
      show (j 1).val = if n = 1 then 0 else (j 1).val
      split
      · have := (j 1).isLt; have e : (j 1).val < n := this; omega
      · rfl)
  exact e1.trans e2.symm

end Cert.LibAffineAt

end
-- ==== Proof.KINet.lean ====
/-
  The idealized kernel's result is the specification's network. The fold through @main gives the result as the final
  stage of three hidden states, each one layer of the neighbourhood sum of the one before, with the operands in the
  host's spelling: a bias vector recast as a one-row matrix, and the output weights' three column blocks cut out and
  transposed. A vector recast as one row is the vector broadcast along axis 1 into one row, and a transposed cut of
  columns o … o + 95 reads at (k, j) the weight of hidden channel o + k for class j: in the specification's spelling
  the result is `net` over the neighbourhood sum.
-/
import proofs.«136992_j74148315398472_1_alg».proof.Proof.KIFold
import proofs.«136992_j74148315398472_1_alg».proof.Proof.LibAffineAt
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-- The host's cut of columns 0 … 95, transposed, is the specification's block at offset 0: entry (k, j) of both
    is the output weight of hidden channel 0 + k for class j. -/
theorem wCut0_eq (wl : FVec Ideal S64x288 .f32) : wCut0 wl = Cert.Spec.wBlock 0 (by decide) wl := by
  funext i
  obtain ⟨k, j, rfl⟩ : ∃ (k : Fin 96) (j : Fin 64), i = ix2 k j := ⟨i 0, i 1, eq_ix2 i⟩
  rw [Cert.Spec.wBlock_apply]
  unfold wCut0
  refine (transpose_apply [1, 0] _ transposes_S64x96_S96x64_1_0 (ix2 k j) (ix2 j k) ?_).trans ?_
  · intro b
    match b with
    | ⟨0, _⟩ => rfl
    | ⟨1, _⟩ => rfl
  · refine extractStridedSlice_apply ![0, 0] wl slices_S64x288_S64x96_0_0 (ix2 j k) (ix2 j ⟨0 + k.val, by have := k.isLt; omega⟩) ?_
    intro a
    match a with
    | ⟨0, _⟩ => show j.val = 0 + j.val; omega
    | ⟨1, _⟩ => rfl

/-- The host's cut of columns 96 … 191, transposed, is the specification's block at offset 96: entry (k, j) of both
    is the output weight of hidden channel 96 + k for class j. -/
theorem wCut1_eq (wl : FVec Ideal S64x288 .f32) : wCut1 wl = Cert.Spec.wBlock 96 (by decide) wl := by
  funext i
  obtain ⟨k, j, rfl⟩ : ∃ (k : Fin 96) (j : Fin 64), i = ix2 k j := ⟨i 0, i 1, eq_ix2 i⟩
  rw [Cert.Spec.wBlock_apply]
  unfold wCut1
  refine (transpose_apply [1, 0] _ transposes_S64x96_S96x64_1_0 (ix2 k j) (ix2 j k) ?_).trans ?_
  · intro b
    match b with
    | ⟨0, _⟩ => rfl
    | ⟨1, _⟩ => rfl
  · refine extractStridedSlice_apply ![0, 96] wl slices_S64x288_S64x96_0_96 (ix2 j k) (ix2 j ⟨96 + k.val, by have := k.isLt; omega⟩) ?_
    intro a
    match a with
    | ⟨0, _⟩ => show j.val = 0 + j.val; omega
    | ⟨1, _⟩ => rfl

/-- The host's cut of columns 192 … 287, transposed, is the specification's block at offset 192: entry (k, j) of both
    is the output weight of hidden channel 192 + k for class j. -/
theorem wCut2_eq (wl : FVec Ideal S64x288 .f32) : wCut2 wl = Cert.Spec.wBlock 192 (by decide) wl := by
  funext i
  obtain ⟨k, j, rfl⟩ : ∃ (k : Fin 96) (j : Fin 64), i = ix2 k j := ⟨i 0, i 1, eq_ix2 i⟩
  rw [Cert.Spec.wBlock_apply]
  unfold wCut2
  refine (transpose_apply [1, 0] _ transposes_S64x96_S96x64_1_0 (ix2 k j) (ix2 j k) ?_).trans ?_
  · intro b
    match b with
    | ⟨0, _⟩ => rfl
    | ⟨1, _⟩ => rfl
  · refine extractStridedSlice_apply ![0, 192] wl slices_S64x288_S64x96_0_192 (ix2 j k) (ix2 j ⟨192 + k.val, by have := k.isLt; omega⟩) ?_
    intro a
    match a with
    | ⟨0, _⟩ => show j.val = 0 + j.val; omega
    | ⟨1, _⟩ => rfl

/-- A layer's bias recast as one row is the bias broadcast along axis 1 into one row. -/
theorem bias96 (b : FVec Ideal S96 .f32) (h96 : S96.BroadcastsInDim S1x96 ![1]) :
    shapeCast S1x96 b shapeCasts_S96_S1x96 = broadcastInDim S1x96 ![1] h96 b :=
  Cert.LibAffineAt.rowCast_eq b shapeCasts_S96_S1x96 h96

/-- The output bias likewise. -/
theorem bias64 (b : FVec Ideal S64 .f32) (h64 : S64.BroadcastsInDim S1x64 ![1]) :
    shapeCast S1x64 b shapeCasts_S64_S1x64 = broadcastInDim S1x64 ![1] h64 b :=
  Cert.LibAffineAt.rowCast_eq b shapeCasts_S64_S1x64 h64

section Net

variable (m : (ℓ : Loc nD τ sig) → Buf (Elt Ideal) ℓ) (ρ : Dev nD → PrngReg) (c : Dev nD)
  (h96 : S96.BroadcastsInDim S1x96 ![1]) (h64 : S64.BroadcastsInDim S1x64 ![1])
  (hR0 : ∀ (V : (c : Dev nD) → (b : Ref sig .tc) → Buf (Elt Ideal) ((c : Thread nD τ).loc b)) (c : Dev nD),
    (dat0 (F := Ideal) V c).arrAt 5 cfg0.N = Cert.Spec.layerF (V c main_v13) (V c main_arg0) (V c main_v14) (V c main_v15) (V c main_v16))
  (hR1 : ∀ (V : (c : Dev nD) → (b : Ref sig .tc) → Buf (Elt Ideal) ((c : Thread nD τ).loc b)) (c : Dev nD),
    (dat1 (F := Ideal) V c).arrAt 5 cfg1.N = Cert.Spec.layerF (V c main_v27) (V c main_v17) (V c main_v28) (V c main_v29) (V c main_v30))
  (hR2 : ∀ (V : (c : Dev nD) → (b : Ref sig .tc) → Buf (Elt Ideal) ((c : Thread nD τ).loc b)) (c : Dev nD),
    (dat2 (F := Ideal) V c).arrAt 5 cfg2.N = Cert.Spec.layerF (V c main_v41) (V c main_v31) (V c main_v42) (V c main_v43) (V c main_v44))
  (hR3 : ∀ (V : (c : Dev nD) → (b : Ref sig .tc) → Buf (Elt Ideal) ((c : Thread nD τ).loc b)) (c : Dev nD),
    (dat3 (F := Ideal) V c).arrAt 7 cfg3.N = Cert.Spec.finalF (V c main_v17) (V c main_v31) (V c main_v45) (V c main_v47) (V c main_v49) (V c main_v51) (V c main_v52))

include hR0 hR1 hR2 hR3 in
/-- The result buffer at the last boundary is the network over the neighbourhood sum, of the launch contents of the
    thirteen arguments. -/
theorem kernel_net : W8 m ρ c (Proc.devRef .tc main_v53)
    = Cert.Spec.net (aggr (m ((c : Thread nD τ).loc main_arg1))) (m ((c : Thread nD τ).loc main_arg0)) (transpose S96x96 [1, 0] (m ((c : Thread nD τ).loc main_arg2)) transposes_S96x96_S96x96_1_0) (transpose S96x96 [1, 0] (m ((c : Thread nD τ).loc main_arg4)) transposes_S96x96_S96x96_1_0) (broadcastInDim S1x96 ![1] h96 (m ((c : Thread nD τ).loc main_arg3))) (transpose S96x96 [1, 0] (m ((c : Thread nD τ).loc main_arg5)) transposes_S96x96_S96x96_1_0) (transpose S96x96 [1, 0] (m ((c : Thread nD τ).loc main_arg7)) transposes_S96x96_S96x96_1_0) (broadcastInDim S1x96 ![1] h96 (m ((c : Thread nD τ).loc main_arg6))) (transpose S96x96 [1, 0] (m ((c : Thread nD τ).loc main_arg8)) transposes_S96x96_S96x96_1_0) (transpose S96x96 [1, 0] (m ((c : Thread nD τ).loc main_arg10)) transposes_S96x96_S96x96_1_0) (broadcastInDim S1x96 ![1] h96 (m ((c : Thread nD τ).loc main_arg9)))
        (Cert.Spec.wBlock 0 (by decide) (m ((c : Thread nD τ).loc main_arg11))) (Cert.Spec.wBlock 96 (by decide) (m ((c : Thread nD τ).loc main_arg11))) (Cert.Spec.wBlock 192 (by decide) (m ((c : Thread nD τ).loc main_arg11)))
        (broadcastInDim S1x64 ![1] h64 (m ((c : Thread nD τ).loc main_arg12))) := by
  rw [result_eq m ρ c hR0 hR1 hR2 hR3, wCut0_eq, wCut1_eq, wCut2_eq, bias64 _ h64]
  unfold hid3 hid2 hid1 Cert.Spec.net
  rw [bias96 (m ((c : Thread nD τ).loc main_arg3)) h96, bias96 (m ((c : Thread nD τ).loc main_arg6)) h96, bias96 (m ((c : Thread nD τ).loc main_arg9)) h96]

end Net

end Cert.KernelIdeal.Hand

end
-- ==== Proof.KILayer0.lean ====
/-
  The first graph-convolution layer of the kernel, as one function of the arrays it finds.

  The layer runs over a grid of ten points. At point t it is handed rows 5000·t … 5000·t + 4999 of the aggregated
  neighbour features and of the node features (all 96 channels), and at every point the two whole 96 × 96 weight matrices
  and the one-row bias. It multiplies each row block by its weight matrix into a zero accumulator (after a change of
  float format, the identity on the extended reals), lays the bias row along every row of the first product, adds the
  second product, and takes the maximum with zero. So entry (p, q) of the block it leaves is
      max ( (Σ_k agg(5000·t + p, k) · wrel(k, q) + b(0, q)) + Σ_k x(5000·t + p, k) · wroot(k, q) , 0 ),
  which depends on row 5000·t + p of the two feature arrays only: the block is rows 5000·t … of one whole-array function,
  the layer of the specification. The ten row blocks tile the 50000 rows (row r lies in block r / 5000), so the array
  the layer leaves is that function.
-/
import proofs.«136992_j74148315398472_1_alg».proof.Proof.KernelIdealFrame
import proofs.«136992_j74148315398472_1_alg».proof.Proof.Spec
import proofs.«136992_j74148315398472_1_alg».proof.Proof.LibAffineAt
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) of a whole-block access, as the constant function. -/
theorem layer0_origin : (![0, 0] : Fin 2 → Nat) = fun _ => 0 := funext fun a => by fin_cases a <;> rfl

/-- The body's arithmetic on one row block, at row p and channel q of the block: the two exact sums over the 96 input
    channels, the bias entry of channel q added to the first, and the maximum with zero. -/
theorem layer0_body_at (a x : Vec Ideal S5000x96 .f32) (w w' : Vec Ideal S96x96 .f32) (b : Vec Ideal S1x96 .f32)
    (p : Fin 5000) (q : Fin 96) :
    k0_pay1 (F := Ideal) a x w w' b (ix2 p q)
      = max (((∑ k : Fin 96, a (ix2 p k) * w (ix2 k q)) + b (ix2 (0 : Fin 1) q))
              + ∑ k : Fin 96, x (ix2 p k) * w' (ix2 k q))
          (Ideal.ofBits .f32 0x00000000#32) := by
  have ea : shapeCast S5000x96 a shapeCasts_S5000x96_S5000x96 = a := shapeCast_self a _
  have ew : shapeCast S96x96 w shapeCasts_S96x96_S96x96 = w := shapeCast_self w _
  have ew' : shapeCast S96x96 w' shapeCasts_S96x96_S96x96 = w' := shapeCast_self w' _
  have eb : shapeCast S1x96 b shapeCasts_S1x96_S1x96 = b := shapeCast_self b _
  unfold k0_pay1
  rw [ea, ew, ew', eb]
  refine (maximumf_apply _ _ _).trans ?_
  refine congrArg₂ max ?_ rfl
  refine (addf_apply _ _ _).trans ?_
  refine congrArg₂ (· + ·) ?_ ?_
  · exact Cert.LibAffineAt.block_at dot_S5000x96_S96x96_S5000x96_1_0_0_1_n_n rfl broadcasts_S1x96_S5000x96 a w b bitsLt_bf16_f32 p q
  · exact matmul_zero_plain_apply dot_S5000x96_S96x96_S5000x96_1_0_0_1_n_n rfl none (truncf .bf16 x bitsLt_bf16_f32) (truncf .bf16 w' bitsLt_bf16_f32) (ix2 p q)

/-- The printed block index maps, decided over the ten grid points: the three row-tiled windows (aggregated features,
    node features, result) sit at block row t and block column 0; the two weight matrices and the bias row are whole
    arrays at every point. -/
theorem layer0_index_maps : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of point t's block of the aggregated features is entry (5000·t + p, k) of the array. -/
theorem layer0_agg_at (t : Fin cfg0.N) (p : Fin 5000) (k : Fin 96) (r : Fin 50000) (hr : r.val = 5000 * t.val + p.val) :
    ((cfg0.win 0).blk t).view.emb (ix2 p k) = (ix2 r k : S50000x96.Idx) := by
  obtain ⟨e0, e1, -⟩ := layer0_index_maps t
  funext a; apply Fin.ext
  match a with
  | ⟨0, _⟩ => show win0_0.index t (0 : Fin 2) * 5000 + 1 * p.val = r.val; omega
  | ⟨1, _⟩ => show win0_0.index t (1 : Fin 2) * 96 + 1 * k.val = k.val; omega

/-- Entry (p, k) of point t's block of the node features is entry (5000·t + p, k) of the array. -/
theorem layer0_x_at (t : Fin cfg0.N) (p : Fin 5000) (k : Fin 96) (r : Fin 50000) (hr : r.val = 5000 * t.val + p.val) :
    ((cfg0.win 1).blk t).view.emb (ix2 p k) = (ix2 r k : S50000x96.Idx) := by
  obtain ⟨-, -, e0, e1, -⟩ := layer0_index_maps t
  funext a; apply Fin.ext
  match a with
  | ⟨0, _⟩ => show win0_1.index t (0 : Fin 2) * 5000 + 1 * p.val = r.val; omega
  | ⟨1, _⟩ => show win0_1.index t (1 : Fin 2) * 96 + 1 * k.val = k.val; omega

/-- Entry (p, q) of point t's block of the result is entry (5000·t + p, q) of the array. -/
theorem layer0_out_at (t : Fin cfg0.N) (p : Fin 5000) (q : Fin 96) (r : Fin 50000) (hr : r.val = 5000 * t.val + p.val) :
    ((cfg0.win 5).blk t).view.emb (ix2 p q) = (ix2 r q : S50000x96.Idx) := by
  obtain ⟨-, -, -, -, -, -, -, -, -, -, e0, e1⟩ := layer0_index_maps t
  funext a; apply Fin.ext
  match a with
  | ⟨0, _⟩ => show win0_5.index t (0 : Fin 2) * 5000 + 1 * p.val = r.val; omega
  | ⟨1, _⟩ => show win0_5.index t (1 : Fin 2) * 96 + 1 * q.val = q.val; omega

/-- The relation weights' block at any point is the whole matrix. -/
theorem layer0_wrel_at (t : Fin cfg0.N) (k q : Fin 96) :
    ((cfg0.win 2).blk t).view.emb (ix2 k q) = (ix2 k q : S96x96.Idx) := by
  obtain ⟨-, -, -, -, e0, e1, -⟩ := layer0_index_maps t
  funext a; apply Fin.ext
  match a with
  | ⟨0, _⟩ => show win0_2.index t (0 : Fin 2) * 96 + 1 * k.val = k.val; omega
  | ⟨1, _⟩ => show win0_2.index t (1 : Fin 2) * 96 + 1 * q.val = q.val; omega

/-- The bias row's block at any point is the whole row. -/
theorem layer0_bias_at (t : Fin cfg0.N) (q : Fin 96) :
    ((cfg0.win 3).blk t).view.emb (ix2 (0 : Fin 1) q) = (ix2 (0 : Fin 1) q : S1x96.Idx) := by
  obtain ⟨-, -, -, -, -, -, e0, e1, -⟩ := layer0_index_maps t
  funext a; apply Fin.ext
  match a with
  | ⟨0, _⟩ => show win0_3.index t (0 : Fin 2) * 1 + 1 * 0 = 0; omega
  | ⟨1, _⟩ => show win0_3.index t (1 : Fin 2) * 96 + 1 * q.val = q.val; omega

/-- The root weights' block at any point is the whole matrix. -/
theorem layer0_wroot_at (t : Fin cfg0.N) (k q : Fin 96) :
    ((cfg0.win 4).blk t).view.emb (ix2 k q) = (ix2 k q : S96x96.Idx) := by
  obtain ⟨-, -, -, -, -, -, -, -, e0, e1, -⟩ := layer0_index_maps t
  funext a; apply Fin.ext
  match a with
  | ⟨0, _⟩ => show win0_4.index t (0 : Fin 2) * 96 + 1 * k.val = k.val; omega
  | ⟨1, _⟩ => show win0_4.index t (1 : Fin 2) * 96 + 1 * q.val = q.val; omega

/-- What point t writes back is rows 5000·t … 5000·t + 4999 of the specification's layer applied to the arrays the
    layer finds: every entry of the block reads its own row of the two feature arrays and the whole weights and bias. -/
theorem layer0_flushed (V : (c : Dev nD) → (b : Ref sig .tc) → Buf (Elt Ideal) ((c : Thread nD τ).loc b)) (c : Dev nD)
    (t : Fin cfg0.N) :
    (dat0 (F := Ideal) V c).flushed 5 t
      = ((cfg0.win 5).blk t).view.read (Elt Ideal)
          (Cert.Spec.layerF (V c main_v13) (V c main_arg0) (V c main_v14) (V c main_v15) (V c main_v16)) := by
  show (cfg0.win 5).cut (grid0.coords t) ((dat0 (F := Ideal) V c).after 5 t) = _
  rw [after0_5]
  unfold out0_5
  rw [View.canon_unit_zero layer0_origin]
  simp only [View.ld_unit_zero (S := S5000x96) layer0_origin, View.ld_unit_zero (S := S96x96) layer0_origin,
    View.ld_unit_zero (S := S1x96) layer0_origin]
  funext j
  obtain ⟨p, q, rfl⟩ : ∃ (p : Fin 5000) (q : Fin 96), j = ix2 p q := ⟨j 0, j 1, eq_ix2 j⟩
  have hN : cfg0.N = 10 := N_0
  have ht : t.val < cfg0.N := t.isLt
  obtain ⟨r, hr⟩ : ∃ r : Fin 50000, r.val = 5000 * t.val + p.val := ⟨⟨5000 * t.val + p.val, by have := p.isLt; omega⟩, rfl⟩
  refine (layer0_body_at (iblk0 V c 0 t) (iblk0 V c 1 t) (iblk0 V c 2 t) (iblk0 V c 4 t) (iblk0 V c 3 t) p q).trans ?_
  show _ = Cert.Spec.layerF (V c main_v13) (V c main_arg0) (V c main_v14) (V c main_v15) (V c main_v16)
      (((cfg0.win 5).blk t).view.emb (ix2 p q))
  rw [layer0_out_at t p q r hr]
  show _ = Cert.Spec.layerAt (V c main_v13) (V c main_arg0) (V c main_v14) (V c main_v15) (V c main_v16) r q
  unfold Cert.Spec.layerAt
  refine congrArg₂ max (congrArg₂ (· + ·) (congrArg₂ (· + ·) (Finset.sum_congr rfl fun k _ => ?_) ?_)
    (Finset.sum_congr rfl fun k _ => ?_)) rfl
  · refine congrArg₂ (· * ·) ?_ ?_
    · show V c main_v13 (((cfg0.win 0).blk t).view.emb (ix2 p k)) = _
      rw [layer0_agg_at t p k r hr]
    · show V c main_v14 (((cfg0.win 2).blk t).view.emb (ix2 k q)) = _
      rw [layer0_wrel_at t k q]
  · show V c main_v16 (((cfg0.win 3).blk t).view.emb (ix2 (0 : Fin 1) q)) = _
    rw [layer0_bias_at t q]
  · refine congrArg₂ (· * ·) ?_ ?_
    · show V c main_arg0 (((cfg0.win 1).blk t).view.emb (ix2 p k)) = _
      rw [layer0_x_at t p k r hr]
    · show V c main_v15 (((cfg0.win 4).blk t).view.emb (ix2 k q)) = _
      rw [layer0_wroot_at t k q]

/-- An index of the result array lies in point t's block iff on each axis its coordinate is in the block's range. -/
theorem layer0_mem_block (t : Fin cfg0.N) (i : S50000x96.Idx) :
    i ∈ ((cfg0.win 5).blk t).view.set
      ↔ ∀ a : Fin 2, win0_5.index t a * S5000x96.size a ≤ (i a).val
          ∧ (i a).val < win0_5.index t a * S5000x96.size a + S5000x96.size a := by
  show i ∈ ((View.whole main_v17).slice (win0_5.rect t)).set ↔ _
  rw [View.set_slice_whole, Rect.mem_set_unit]
  exact Iff.rfl

/-- The ten row blocks tile the array: row r lies in the block of point r / 5000, and every point writes back. -/
theorem layer0_cover (i : S50000x96.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 96 := (i 1).isLt
  obtain ⟨t, ht⟩ : ∃ t : Fin cfg0.N, t.val = (i 0).val / 5000 := ⟨⟨(i 0).val / 5000, by omega⟩, rfl⟩
  obtain ⟨-, -, -, -, -, -, -, -, -, -, e0, e1⟩ := layer0_index_maps t
  refine ⟨t, flush0_5 t, ?_⟩
  rw [layer0_mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 96 ≤ (i 1).val ∧ (i 1).val < win0_5.index t (1 : Fin 2) * 96 + 96
    omega

/-- The array the first layer leaves is the specification's layer of the arrays it finds: aggregated features, node
    features, transposed relation weights, transposed root weights, bias row. -/
theorem region0_value (V : (c : Dev nD) → (b : Ref sig .tc) → Buf (Elt Ideal) ((c : Thread nD τ).loc b)) (c : Dev nD) :
    (dat0 (F := Ideal) V c).arrAt 5 cfg0.N
      = Cert.Spec.layerF (V c main_v13) (V c main_arg0) (V c main_v14) (V c main_v15) (V c main_v16) :=
  (dat0 (F := Ideal) V c).arrAt_eq_of_cover 5
    (Cert.Spec.layerF (V c main_v13) (V c main_arg0) (V c main_v14) (V c main_v15) (V c main_v16))
    (fun t _ => layer0_flushed V c t) layer0_cover

end Cert.KernelIdeal.Hand

end
-- ==== Proof.KILayer1.lean ====
/-
  The second graph-convolution layer of the kernel, as one function of the arrays it finds.

  The layer runs over a grid of ten points. At point t it is handed rows 5000·t … 5000·t + 4999 of the aggregated
  neighbour features and of the node features (all 96 channels), and at every point the two whole 96 × 96 weight matrices
  and the one-row bias. It multiplies each row block by its weight matrix into a zero accumulator (after a change of
  float format, the identity on the extended reals), lays the bias row along every row of the first product, adds the
  second product, and takes the maximum with zero. So entry (p, q) of the block it leaves is
      max ( (Σ_k agg(5000·t + p, k) · wrel(k, q) + b(0, q)) + Σ_k x(5000·t + p, k) · wroot(k, q) , 0 ),
  which depends on row 5000·t + p of the two feature arrays only: the block is rows 5000·t … of one whole-array function,
  the layer of the specification. The ten row blocks tile the 50000 rows (row r lies in block r / 5000), so the array
  the layer leaves is that function.
-/
import proofs.«136992_j74148315398472_1_alg».proof.Proof.KernelIdealFrame
import proofs.«136992_j74148315398472_1_alg».proof.Proof.Spec
import proofs.«136992_j74148315398472_1_alg».proof.Proof.LibAffineAt
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) of a whole-block access, as the constant function. -/
theorem layer1_origin : (![0, 0] : Fin 2 → Nat) = fun _ => 0 := funext fun a => by fin_cases a <;> rfl

/-- The body's arithmetic on one row block, at row p and channel q of the block: the two exact sums over the 96 input
    channels, the bias entry of channel q added to the first, and the maximum with zero. -/
theorem layer1_body_at (a x : Vec Ideal S5000x96 .f32) (w w' : Vec Ideal S96x96 .f32) (b : Vec Ideal S1x96 .f32)
    (p : Fin 5000) (q : Fin 96) :
    k1_pay1 (F := Ideal) a x w w' b (ix2 p q)
      = max (((∑ k : Fin 96, a (ix2 p k) * w (ix2 k q)) + b (ix2 (0 : Fin 1) q))
              + ∑ k : Fin 96, x (ix2 p k) * w' (ix2 k q))
          (Ideal.ofBits .f32 0x00000000#32) := by
  have ea : shapeCast S5000x96 a shapeCasts_S5000x96_S5000x96 = a := shapeCast_self a _
  have ex : shapeCast S5000x96 x shapeCasts_S5000x96_S5000x96 = x := shapeCast_self x _
  have ew : shapeCast S96x96 w shapeCasts_S96x96_S96x96 = w := shapeCast_self w _
  have ew' : shapeCast S96x96 w' shapeCasts_S96x96_S96x96 = w' := shapeCast_self w' _
  have eb : shapeCast S1x96 b shapeCasts_S1x96_S1x96 = b := shapeCast_self b _
  unfold k1_pay1
  rw [ea, ex, ew, ew', eb]
  refine (maximumf_apply _ _ _).trans ?_
  refine congrArg₂ max ?_ rfl
  refine (addf_apply _ _ _).trans ?_
  refine congrArg₂ (· + ·) ?_ ?_
  · exact Cert.LibAffineAt.block_at dot_S5000x96_S96x96_S5000x96_1_0_0_1_n_n rfl broadcasts_S1x96_S5000x96 a w b bitsLt_bf16_f32 p q
  · exact matmul_zero_plain_apply dot_S5000x96_S96x96_S5000x96_1_0_0_1_n_n rfl none (truncf .bf16 x bitsLt_bf16_f32) (truncf .bf16 w' bitsLt_bf16_f32) (ix2 p q)

/-- The printed block index maps, decided over the ten grid points: the three row-tiled windows (aggregated features,
    node features, result) sit at block row t and block column 0; the two weight matrices and the bias row are whole
    arrays at every point. -/
theorem layer1_index_maps : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of point t's block of the aggregated features is entry (5000·t + p, k) of the array. -/
theorem layer1_agg_at (t : Fin cfg1.N) (p : Fin 5000) (k : Fin 96) (r : Fin 50000) (hr : r.val = 5000 * t.val + p.val) :
    ((cfg1.win 0).blk t).view.emb (ix2 p k) = (ix2 r k : S50000x96.Idx) := by
  obtain ⟨e0, e1, -⟩ := layer1_index_maps t
  funext a; apply Fin.ext
  match a with
  | ⟨0, _⟩ => show win1_0.index t (0 : Fin 2) * 5000 + 1 * p.val = r.val; omega
  | ⟨1, _⟩ => show win1_0.index t (1 : Fin 2) * 96 + 1 * k.val = k.val; omega

/-- Entry (p, k) of point t's block of the node features is entry (5000·t + p, k) of the array. -/
theorem layer1_x_at (t : Fin cfg1.N) (p : Fin 5000) (k : Fin 96) (r : Fin 50000) (hr : r.val = 5000 * t.val + p.val) :
    ((cfg1.win 1).blk t).view.emb (ix2 p k) = (ix2 r k : S50000x96.Idx) := by
  obtain ⟨-, -, e0, e1, -⟩ := layer1_index_maps t
  funext a; apply Fin.ext
  match a with
  | ⟨0, _⟩ => show win1_1.index t (0 : Fin 2) * 5000 + 1 * p.val = r.val; omega
  | ⟨1, _⟩ => show win1_1.index t (1 : Fin 2) * 96 + 1 * k.val = k.val; omega

/-- Entry (p, q) of point t's block of the result is entry (5000·t + p, q) of the array. -/
theorem layer1_out_at (t : Fin cfg1.N) (p : Fin 5000) (q : Fin 96) (r : Fin 50000) (hr : r.val = 5000 * t.val + p.val) :
    ((cfg1.win 5).blk t).view.emb (ix2 p q) = (ix2 r q : S50000x96.Idx) := by
  obtain ⟨-, -, -, -, -, -, -, -, -, -, e0, e1⟩ := layer1_index_maps t
  funext a; apply Fin.ext
  match a with
  | ⟨0, _⟩ => show win1_5.index t (0 : Fin 2) * 5000 + 1 * p.val = r.val; omega
  | ⟨1, _⟩ => show win1_5.index t (1 : Fin 2) * 96 + 1 * q.val = q.val; omega

/-- The relation weights' block at any point is the whole matrix. -/
theorem layer1_wrel_at (t : Fin cfg1.N) (k q : Fin 96) :
    ((cfg1.win 2).blk t).view.emb (ix2 k q) = (ix2 k q : S96x96.Idx) := by
  obtain ⟨-, -, -, -, e0, e1, -⟩ := layer1_index_maps t
  funext a; apply Fin.ext
  match a with
  | ⟨0, _⟩ => show win1_2.index t (0 : Fin 2) * 96 + 1 * k.val = k.val; omega
  | ⟨1, _⟩ => show win1_2.index t (1 : Fin 2) * 96 + 1 * q.val = q.val; omega

/-- The bias row's block at any point is the whole row. -/
theorem layer1_bias_at (t : Fin cfg1.N) (q : Fin 96) :
    ((cfg1.win 3).blk t).view.emb (ix2 (0 : Fin 1) q) = (ix2 (0 : Fin 1) q : S1x96.Idx) := by
  obtain ⟨-, -, -, -, -, -, e0, e1, -⟩ := layer1_index_maps t
  funext a; apply Fin.ext
  match a with
  | ⟨0, _⟩ => show win1_3.index t (0 : Fin 2) * 1 + 1 * 0 = 0; omega
  | ⟨1, _⟩ => show win1_3.index t (1 : Fin 2) * 96 + 1 * q.val = q.val; omega

/-- The root weights' block at any point is the whole matrix. -/
theorem layer1_wroot_at (t : Fin cfg1.N) (k q : Fin 96) :
    ((cfg1.win 4).blk t).view.emb (ix2 k q) = (ix2 k q : S96x96.Idx) := by
  obtain ⟨-, -, -, -, -, -, -, -, e0, e1, -⟩ := layer1_index_maps t
  funext a; apply Fin.ext
  match a with
  | ⟨0, _⟩ => show win1_4.index t (0 : Fin 2) * 96 + 1 * k.val = k.val; omega
  | ⟨1, _⟩ => show win1_4.index t (1 : Fin 2) * 96 + 1 * q.val = q.val; omega

/-- What point t writes back is rows 5000·t … 5000·t + 4999 of the specification's layer applied to the arrays the
    layer finds: every entry of the block reads its own row of the two feature arrays and the whole weights and bias. -/
theorem layer1_flushed (V : (c : Dev nD) → (b : Ref sig .tc) → Buf (Elt Ideal) ((c : Thread nD τ).loc b)) (c : Dev nD)
    (t : Fin cfg1.N) :
    (dat1 (F := Ideal) V c).flushed 5 t
      = ((cfg1.win 5).blk t).view.read (Elt Ideal)
          (Cert.Spec.layerF (V c main_v27) (V c main_v17) (V c main_v28) (V c main_v29) (V c main_v30)) := by
  show (cfg1.win 5).cut (grid1.coords t) ((dat1 (F := Ideal) V c).after 5 t) = _
  rw [after1_5]
  unfold out1_5
  rw [View.canon_unit_zero layer1_origin]
  simp only [View.ld_unit_zero (S := S5000x96) layer1_origin, View.ld_unit_zero (S := S96x96) layer1_origin,
    View.ld_unit_zero (S := S1x96) layer1_origin]
  funext j
  obtain ⟨p, q, rfl⟩ : ∃ (p : Fin 5000) (q : Fin 96), j = ix2 p q := ⟨j 0, j 1, eq_ix2 j⟩
  have hN : cfg1.N = 10 := N_1
  have ht : t.val < cfg1.N := t.isLt
  obtain ⟨r, hr⟩ : ∃ r : Fin 50000, r.val = 5000 * t.val + p.val := ⟨⟨5000 * t.val + p.val, by have := p.isLt; omega⟩, rfl⟩
  refine (layer1_body_at (iblk1 V c 0 t) (iblk1 V c 1 t) (iblk1 V c 2 t) (iblk1 V c 4 t) (iblk1 V c 3 t) p q).trans ?_
  show _ = Cert.Spec.layerF (V c main_v27) (V c main_v17) (V c main_v28) (V c main_v29) (V c main_v30)
      (((cfg1.win 5).blk t).view.emb (ix2 p q))
  rw [layer1_out_at t p q r hr]
  show _ = Cert.Spec.layerAt (V c main_v27) (V c main_v17) (V c main_v28) (V c main_v29) (V c main_v30) r q
  unfold Cert.Spec.layerAt
  refine congrArg₂ max (congrArg₂ (· + ·) (congrArg₂ (· + ·) (Finset.sum_congr rfl fun k _ => ?_) ?_)
    (Finset.sum_congr rfl fun k _ => ?_)) rfl
  · refine congrArg₂ (· * ·) ?_ ?_
    · show V c main_v27 (((cfg1.win 0).blk t).view.emb (ix2 p k)) = _
      rw [layer1_agg_at t p k r hr]
    · show V c main_v28 (((cfg1.win 2).blk t).view.emb (ix2 k q)) = _
      rw [layer1_wrel_at t k q]
  · show V c main_v30 (((cfg1.win 3).blk t).view.emb (ix2 (0 : Fin 1) q)) = _
    rw [layer1_bias_at t q]
  · refine congrArg₂ (· * ·) ?_ ?_
    · show V c main_v17 (((cfg1.win 1).blk t).view.emb (ix2 p k)) = _
      rw [layer1_x_at t p k r hr]
    · show V c main_v29 (((cfg1.win 4).blk t).view.emb (ix2 k q)) = _
      rw [layer1_wroot_at t k q]

/-- An index of the result array lies in point t's block iff on each axis its coordinate is in the block's range. -/
theorem layer1_mem_block (t : Fin cfg1.N) (i : S50000x96.Idx) :
    i ∈ ((cfg1.win 5).blk t).view.set
      ↔ ∀ a : Fin 2, win1_5.index t a * S5000x96.size a ≤ (i a).val
          ∧ (i a).val < win1_5.index t a * S5000x96.size a + S5000x96.size a := by
  show i ∈ ((View.whole main_v31).slice (win1_5.rect t)).set ↔ _
  rw [View.set_slice_whole, Rect.mem_set_unit]
  exact Iff.rfl

/-- The ten row blocks tile the array: row r lies in the block of point r / 5000, and every point writes back. -/
theorem layer1_cover (i : S50000x96.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 96 := (i 1).isLt
  obtain ⟨t, ht⟩ : ∃ t : Fin cfg1.N, t.val = (i 0).val / 5000 := ⟨⟨(i 0).val / 5000, by omega⟩, rfl⟩
  obtain ⟨-, -, -, -, -, -, -, -, -, -, e0, e1⟩ := layer1_index_maps t
  refine ⟨t, flush1_5 t, ?_⟩
  rw [layer1_mem_block]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 96 ≤ (i 1).val ∧ (i 1).val < win1_5.index t (1 : Fin 2) * 96 + 96
    omega

/-- The array the second layer leaves is the specification's layer of the arrays it finds: aggregated features, node
    features, transposed relation weights, transposed root weights, bias row. -/
theorem region1_value (V : (c : Dev nD) → (b : Ref sig .tc) → Buf (Elt Ideal) ((c : Thread nD τ).loc b)) (c : Dev nD) :
    (dat1 (F := Ideal) V c).arrAt 5 cfg1.N
      = Cert.Spec.layerF (V c main_v27) (V c main_v17) (V c main_v28) (V c main_v29) (V c main_v30) :=
  (dat1 (F := Ideal) V c).arrAt_eq_of_cover 5
    (Cert.Spec.layerF (V c main_v27) (V c main_v17) (V c main_v28) (V c main_v29) (V c main_v30))
    (fun t _ => layer1_flushed V c t) layer1_cover

end Cert.KernelIdeal.Hand

end
-- ==== Proof.KILayer2.lean ====
/-
  The third graph-convolution layer of the kernel, as one function of the arrays it finds.

  The layer runs over a grid of ten points. At point t it is handed rows 5000·t … 5000·t + 4999 of the aggregated
  neighbour features and of the node features (all 96 channels), and at every point the two whole 96 × 96 weight matrices
  and the one-row bias. It multiplies each row block by its weight matrix into a zero accumulator (after a change of
  float format, the identity on the extended reals), lays the bias row along every row of the first product, adds the
  second product, and takes the maximum with zero. So entry (p, q) of the block it leaves is
      max ( (Σ_k agg(5000·t + p, k) · wrel(k, q) + b(0, q)) + Σ_k x(5000·t + p, k) · wroot(k, q) , 0 ),
  which depends on row 5000·t + p of the two feature arrays only: the block is rows 5000·t … of one whole-array function,
  the layer of the specification. The ten row blocks tile the 50000 rows (row r lies in block r / 5000), so the array
  the layer leaves is that function.
-/
import proofs.«136992_j74148315398472_1_alg».proof.Proof.KernelIdealFrame
import proofs.«136992_j74148315398472_1_alg».proof.Proof.Spec
import proofs.«136992_j74148315398472_1_alg».proof.Proof.LibAffineAt
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-- The offsets (0, 0) of a whole-block access, as the constant function. -/
theorem layer2_origin : (![0, 0] : Fin 2 → Nat) = fun _ => 0 := funext fun a => by fin_cases a <;> rfl

/-- The body's arithmetic on one row block, at row p and channel q of the block: the two exact sums over the 96 input
    channels, the bias entry of channel q added to the first, and the maximum with zero. -/
theorem layer2_body_at (a x : Vec Ideal S5000x96 .f32) (w w' : Vec Ideal S96x96 .f32) (b : Vec Ideal S1x96 .f32)
    (p : Fin 5000) (q : Fin 96) :
    k2_pay1 (F := Ideal) a x w w' b (ix2 p q)
      = max (((∑ k : Fin 96, a (ix2 p k) * w (ix2 k q)) + b (ix2 (0 : Fin 1) q))
              + ∑ k : Fin 96, x (ix2 p k) * w' (ix2 k q))
          (Ideal.ofBits .f32 0x00000000#32) := by
  have ea : shapeCast S5000x96 a shapeCasts_S5000x96_S5000x96 = a := shapeCast_self a _
  have ex : shapeCast S5000x96 x shapeCasts_S5000x96_S5000x96 = x := shapeCast_self x _
  have ew : shapeCast S96x96 w shapeCasts_S96x96_S96x96 = w := shapeCast_self w _
  have ew' : shapeCast S96x96 w' shapeCasts_S96x96_S96x96 = w' := shapeCast_self w' _
  have eb : shapeCast S1x96 b shapeCasts_S1x96_S1x96 = b := shapeCast_self b _
  unfold k2_pay1
  rw [ea, ex, ew, ew', eb]
  refine (maximumf_apply _ _ _).trans ?_
  refine congrArg₂ max ?_ rfl
  refine (addf_apply _ _ _).trans ?_
  refine congrArg₂ (· + ·) ?_ ?_
  · exact Cert.LibAffineAt.block_at dot_S5000x96_S96x96_S5000x96_1_0_0_1_n_n rfl broadcasts_S1x96_S5000x96 a w b bitsLt_bf16_f32 p q
  · exact matmul_zero_plain_apply dot_S5000x96_S96x96_S5000x96_1_0_0_1_n_n rfl none (truncf .bf16 x bitsLt_bf16_f32) (truncf .bf16 w' bitsLt_bf16_f32) (ix2 p q)

/-- The printed block index maps, decided over the ten grid points: the three row-tiled windows (aggregated features,
    node features, result) sit at block row t and block column 0; the two weight matrices and the bias row are whole
    arrays at every point. -/
theorem layer2_index_maps : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, k) of point t's block of the aggregated features is entry (5000·t + p, k) of the array. -/
theorem layer2_agg_at (t : Fin cfg2.N) (p : Fin 5000) (k : Fin 96) (r : Fin 50000) (hr : r.val = 5000 * t.val + p.val) :
    ((cfg2.win 0).blk t).view.emb (ix2 p k) = (ix2 r k : S50000x96.Idx) := by
  obtain ⟨e0, e1, -⟩ := layer2_index_maps t
  funext a; apply Fin.ext
  match a with
  | ⟨0, _⟩ => show win2_0.index t (0 : Fin 2) * 5000 + 1 * p.val = r.val; omega
  | ⟨1, _⟩ => show win2_0.index t (1 : Fin 2) * 96 + 1 * k.val = k.val; omega

/-- Entry (p, k) of point t's block of the node features is entry (5000·t + p, k) of the array. -/
theorem layer2_x_at (t : Fin cfg2.N) (p : Fin 5000) (k : Fin 96) (r : Fin 50000) (hr : r.val = 5000 * t.val + p.val) :
    ((cfg2.win 1).blk t).view.emb (ix2 p k) = (ix2 r k : S50000x96.Idx) := by
  obtain ⟨-, -, e0, e1, -⟩ := layer2_index_maps t
  funext a; apply Fin.ext
  match a with
  | ⟨0, _⟩ => show win2_1.index t (0 : Fin 2) * 5000 + 1 * p.val = r.val; omega
  | ⟨1, _⟩ => show win2_1.index t (1 : Fin 2) * 96 + 1 * k.val = k.val; omega

/-- Entry (p, q) of point t's block of the result is entry (5000·t + p, q) of the array. -/
theorem layer2_out_at (t : Fin cfg2.N) (p : Fin 5000) (q : Fin 96) (r : Fin 50000) (hr : r.val = 5000 * t.val + p.val) :
    ((cfg2.win 5).blk t).view.emb (ix2 p q) = (ix2 r q : S50000x96.Idx) := by
  obtain ⟨-, -, -, -, -, -, -, -, -, -, e0, e1⟩ := layer2_index_maps t
  funext a; apply Fin.ext
  match a with
  | ⟨0, _⟩ => show win2_5.index t (0 : Fin 2) * 5000 + 1 * p.val = r.val; omega
  | ⟨1, _⟩ => show win2_5.index t (1 : Fin 2) * 96 + 1 * q.val = q.val; omega

/-- The relation weights' block at any point is the whole matrix. -/
theorem layer2_wrel_at (t : Fin cfg2.N) (k q : Fin 96) :
    ((cfg2.win 2).blk t).view.emb (ix2 k q) = (ix2 k q : S96x96.Idx) := by
  obtain ⟨-, -, -, -, e0, e1, -⟩ := layer2_index_maps t
  funext a; apply Fin.ext
  match a with
  | ⟨0, _⟩ => show win2_2.index t (0 : Fin 2) * 96 + 1 * k.val = k.val; omega
  | ⟨1, _⟩ => show win2_2.index t (1 : Fin 2) * 96 + 1 * q.val = q.val; omega

/-- The bias row's block at any point is the whole row. -/
theorem layer2_bias_at (t : Fin cfg2.N) (q : Fin 96) :
    ((cfg2.win 3).blk t).view.emb (ix2 (0 : Fin 1) q) = (ix2 (0 : Fin 1) q : S1x96.Idx) := by
  obtain ⟨-, -, -, -, -, -, e0, e1, -⟩ := layer2_index_maps t
  funext a; apply Fin.ext
  match a with
  | ⟨0, _⟩ => show win2_3.index t (0 : Fin 2) * 1 + 1 * 0 = 0; omega
  | ⟨1, _⟩ => show win2_3.index t (1 : Fin 2) * 96 + 1 * q.val = q.val; omega

/-- The root weights' block at any point is the whole matrix. -/
theorem layer2_wroot_at (t : Fin cfg2.N) (k q : Fin 96) :
    ((cfg2.win 4).blk t).view.emb (ix2 k q) = (ix2 k q : S96x96.Idx) := by
  obtain ⟨-, -, -, -, -, -, -, -, e0, e1, -⟩ := layer2_index_maps t
  funext a; apply Fin.ext
  match a with
  | ⟨0, _⟩ => show win2_4.index t (0 : Fin 2) * 96 + 1 * k.val = k.val; omega
  | ⟨1, _⟩ => show win2_4.index t (1 : Fin 2) * 96 + 1 * q.val = q.val; omega

/-- What point t writes back is rows 5000·t … 5000·t + 4999 of the specification's layer applied to the arrays the
    layer finds: every entry of the block reads its own row of the two feature arrays and the whole weights and bias. -/
theorem layer2_flushed (V : (c : Dev nD) → (b : Ref sig .tc) → Buf (Elt Ideal) ((c : Thread nD τ).loc b)) (c : Dev nD)
    (t : Fin cfg2.N) :
    (dat2 (F := Ideal) V c).flushed 5 t
      = ((cfg2.win 5).blk t).view.read (Elt Ideal)
          (Cert.Spec.layerF (V c main_v41) (V c main_v31) (V c main_v42) (V c main_v43) (V c main_v44)) := by
  show (cfg2.win 5).cut (grid2.coords t) ((dat2 (F := Ideal) V c).after 5 t) = _
  rw [after2_5]
  unfold out2_5
  rw [View.canon_unit_zero layer2_origin]
  simp only [View.ld_unit_zero (S := S5000x96) layer2_origin, View.ld_unit_zero (S := S96x96) layer2_origin,
    View.ld_unit_zero (S := S1x96) layer2_origin]
  funext j
  obtain ⟨p, q, rfl⟩ : ∃ (p : Fin 5000) (q : Fin 96), j = ix2 p q := ⟨j 0, j 1, eq_ix2 j⟩
  have hN : cfg2.N = 10 := N_2
  have ht : t.val < cfg2.N := t.isLt
  obtain ⟨r, hr⟩ : ∃ r : Fin 50000, r.val = 5000 * t.val + p.val := ⟨⟨5000 * t.val + p.val, by have := p.isLt; omega⟩, rfl⟩
  refine (layer2_body_at (iblk2 V c 0 t) (iblk2 V c 1 t) (iblk2 V c 2 t) (iblk2 V c 4 t) (iblk2 V c 3 t) p q).trans ?_
  show _ = Cert.Spec.layerF (V c main_v41) (V c main_v31) (V c main_v42) (V c main_v43) (V c main_v44)
      (((cfg2.win 5).blk t).view.emb (ix2 p q))
  rw [layer2_out_at t p q r hr]
  show _ = Cert.Spec.layerAt (V c main_v41) (V c main_v31) (V c main_v42) (V c main_v43) (V c main_v44) r q
  unfold Cert.Spec.layerAt
  refine congrArg₂ max (congrArg₂ (· + ·) (congrArg₂ (· + ·) (Finset.sum_congr rfl fun k _ => ?_) ?_)
    (Finset.sum_congr rfl fun k _ => ?_)) rfl
  · refine congrArg₂ (· * ·) ?_ ?_
    · show V c main_v41 (((cfg2.win 0).blk t).view.emb (ix2 p k)) = _
      rw [layer2_agg_at t p k r hr]
    · show V c main_v42 (((cfg2.win 2).blk t).view.emb (ix2 k q)) = _
      rw [layer2_wrel_at t k q]
  · show V c main_v44 (((cfg2.win 3).blk t).view.emb (ix2 (0 : Fin 1) q)) = _
    rw [layer2_bias_at t q]
  · refine congrArg₂ (· * ·) ?_ ?_
    · show V c main_v31 (((cfg2.win 1).blk t).view.emb (ix2 p k)) = _
      rw [layer2_x_at t p k r hr]
    · show V c main_v43 (((cfg2.win 4).blk t).view.emb (ix2 k q)) = _
      rw [layer2_wroot_at t k q]

/-- An index of the result array lies in point t's block iff on each axis its coordinate is in the block's range. -/
theorem layer2_mem_block (t : Fin cfg2.N) (i : S50000x96.Idx) :
    i ∈ ((cfg2.win 5).blk t).view.set
      ↔ ∀ a : Fin 2, win2_5.index t a * S5000x96.size a ≤ (i a).val
          ∧ (i a).val < win2_5.index t a * S5000x96.size a + S5000x96.size a := by
  show i ∈ ((View.whole main_v45).slice (win2_5.rect t)).set ↔ _
  rw [View.set_slice_whole, Rect.mem_set_unit]
  exact Iff.rfl

/-- The ten row blocks tile the array: row r lies in the block of point r / 5000, and every point writes back. -/
theorem layer2_cover (i : S50000x96.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 96 := (i 1).isLt
  obtain ⟨t, ht⟩ : ∃ t : Fin cfg2.N, t.val = (i 0).val / 5000 := ⟨⟨(i 0).val / 5000, by omega⟩, rfl⟩
  obtain ⟨-, -, -, -, -, -, -, -, -, -, e0, e1⟩ := layer2_index_maps t
  refine ⟨t, flush2_5 t, ?_⟩
  rw [layer2_mem_block]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 96 ≤ (i 1).val ∧ (i 1).val < win2_5.index t (1 : Fin 2) * 96 + 96
    omega

/-- The array the third layer leaves is the specification's layer of the arrays it finds: aggregated features, node
    features, transposed relation weights, transposed root weights, bias row. -/
theorem region2_value (V : (c : Dev nD) → (b : Ref sig .tc) → Buf (Elt Ideal) ((c : Thread nD τ).loc b)) (c : Dev nD) :
    (dat2 (F := Ideal) V c).arrAt 5 cfg2.N
      = Cert.Spec.layerF (V c main_v41) (V c main_v31) (V c main_v42) (V c main_v43) (V c main_v44) :=
  (dat2 (F := Ideal) V c).arrAt_eq_of_cover 5
    (Cert.Spec.layerF (V c main_v41) (V c main_v31) (V c main_v42) (V c main_v43) (V c main_v44))
    (fun t _ => layer2_flushed V c t) layer2_cover

end Cert.KernelIdeal.Hand

end
-- ==== Proof.LibKeepdims.lean ====
/-
  A row reduction kept as a column, read at an index. A matrix [a, b] reduced over its second axis gives a vector [a];
  cast to a column [a, 1] and broadcast back to [a, b], entry (i, j) reads the reduction of row i. At the ideal values a
  row's maximum is the fold of max over the row from the accumulator's value, and a row's sum is the sum over the row.
  Nothing here depends on a program.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (i, j), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- The source index over row i of a matrix reduced along its second axis, with column k inserted, is (i, k). -/
theorem lift_row {a b : ℕ} (h : (⟨2, ![a, b]⟩ : Shape).Reduces [1] ⟨1, ![a]⟩) (i : Fin a) (k : Fin b) :
    h.lift (ix1 i) k = ix2 i k :=
  funext fun ax => Fin.ext (by match ax with | ⟨0, _⟩ => rfl | ⟨1, _⟩ => rfl)

/-- A row maximum at the ideal values: the fold of max over the row, from the accumulator's value. -/
theorem rowMaximum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  exact Finset.fold_congr fun (k : Fin b) _ => congrArg src (lift_row h i k)

/-- A row sum at the ideal values: the sum over the row. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun (k : Fin b) _ => congrArg src (lift_row h i k)

end Cert.Lib.Keepdims
-- ==== Proof.LsmRows.lean ====
/-
  Log-softmax along the rows of a matrix with 64 columns, as a vector unit spells it, read at one entry.

  The unit takes each row's maximum (a reduction over the columns from the accumulator −∞), keeps it as a column, lays
  the column back along the row and subtracts; exponentiates; takes each row's sum (a reduction from 0), keeps it as a
  column, takes the logarithm, lays it back along the row and subtracts again. At row p and column q this is
      (z(p,q) − M) − log Σ_j exp(z(p,j) − M),   M = the fold of max over row p from −∞,
  the specification's log-softmax of row p. Every step reads one entry of its operand or one row of it; no algebraic
  law is used and nothing is assumed finite. Nothing here depends on a program.
-/
import proofs.«136992_j74148315398472_1_alg».proof.Proof.Spec
import proofs.«136992_j74148315398472_1_alg».proof.Proof.LibKeepdims
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx

section Rows

variable {a : ℕ} (z : FVec Ideal ⟨2, ![a, 64]⟩ .f32)
  (hr : (⟨2, ![a, 64]⟩ : Shape).Reduces [1] ⟨1, ![a]⟩)
  (hc : (⟨1, ![a]⟩ : Shape).ShapeCasts ⟨2, ![a, 1]⟩)
  (hb : (⟨2, ![a, 1]⟩ : Shape).Broadcasts ⟨2, ![a, 64]⟩)
  (hφ : FKind.Formats .f32)
  (hmax : (0xFF800000#32 : BitVec FTy.f32.bits) = FKind.maximumf.neutral .f32 hφ)
  (hadd : (0x00000000#32 : BitVec FTy.f32.bits) = FKind.add.neutral .f32 hφ)

/-- The row maximum, kept as a column and laid back along the row: at (p, q) the fold of max over row p from −∞. -/
theorem rowTopBack_apply (p : Fin a) (q : Fin 64) :
    broadcastTo ⟨2, ![a, 64]⟩
        (shapeCast ⟨2, ![a, 1]⟩ (multiReduction .maximumf [1] ⟨1, ![a]⟩ z 0xFF800000#32 hr hφ hmax) hc) hb (ix2 p q)
      = Cert.Spec.rowTop (fun j => z (ix2 p j)) :=
  (Cert.Lib.Keepdims.broadcastTo_a1_ab_apply _ hb p q).trans
    ((Cert.Lib.Keepdims.shapeCast_a_a1_apply _ hc p (0 : Fin 1)).trans
      (Cert.Lib.Keepdims.rowMaximum_apply z _ hr hφ hmax p))

/-- The matrix with each row's maximum subtracted, at (p, q). -/
theorem centered_apply (p : Fin a) (q : Fin 64) :
    subf z (broadcastTo ⟨2, ![a, 64]⟩
        (shapeCast ⟨2, ![a, 1]⟩ (multiReduction .maximumf [1] ⟨1, ![a]⟩ z 0xFF800000#32 hr hφ hmax) hc) hb) (ix2 p q)
      = z (ix2 p q) - Cert.Spec.rowTop (fun j => z (ix2 p j)) :=
  (subf_apply _ _ _).trans (congrArg (fun m => z (ix2 p q) - m) (rowTopBack_apply z hr hc hb hφ hmax p q))

/-- The logarithm of each row's sum of exponentials, kept as a column and laid back along the row. -/
theorem logSumBack_apply (y : FVec Ideal ⟨2, ![a, 64]⟩ .f32) (p : Fin a) (q : Fin 64) :
    broadcastTo ⟨2, ![a, 64]⟩
        (log (shapeCast ⟨2, ![a, 1]⟩ (multiReduction .add [1] ⟨1, ![a]⟩ (exp y) 0x00000000#32 hr hφ hadd) hc)) hb (ix2 p q)
      = Ideal.log (∑ k : Fin 64, Ideal.exp (y (ix2 p k))) :=
  (Cert.Lib.Keepdims.broadcastTo_a1_ab_apply _ hb p q).trans
    (congrArg Ideal.log
      ((Cert.Lib.Keepdims.shapeCast_a_a1_apply _ hc p (0 : Fin 1)).trans
        (Cert.Lib.Keepdims.rowSum_apply (exp y) _ hr hφ hadd p)))

/-- The whole chain at (p, q): the specification's log-softmax of row p at class q. -/
theorem lsmRows_apply (p : Fin a) (q : Fin 64) :
    subf
        (subf z (broadcastTo ⟨2, ![a, 64]⟩
          (shapeCast ⟨2, ![a, 1]⟩ (multiReduction .maximumf [1] ⟨1, ![a]⟩ z 0xFF800000#32 hr hφ hmax) hc) hb))
        (broadcastTo ⟨2, ![a, 64]⟩
          (log (shapeCast ⟨2, ![a, 1]⟩
            (multiReduction .add [1] ⟨1, ![a]⟩
              (exp (subf z (broadcastTo ⟨2, ![a, 64]⟩
                (shapeCast ⟨2, ![a, 1]⟩ (multiReduction .maximumf [1] ⟨1, ![a]⟩ z 0xFF800000#32 hr hφ hmax) hc) hb)))
              0x00000000#32 hr hφ hadd) hc)) hb)
        (ix2 p q)
      = Cert.Spec.lsmAt (fun j => z (ix2 p j)) q :=
  (subf_apply _ _ _).trans
    (congrArg₂ (fun u v => u - v) (centered_apply z hr hc hb hφ hmax p q)
      ((logSumBack_apply hr hc hb hφ hadd _ p q).trans
        (congrArg Ideal.log
          (Finset.sum_congr rfl fun k _ => congrArg Ideal.exp (centered_apply z hr hc hb hφ hmax p k)))))

end Rows

end Cert.KernelIdeal.Hand

end
-- ==== Proof.KIFinalPay.lean ====
/-
  The arithmetic of the last kernel's body on one block of 5000 nodes, read at one entry.

  The body multiplies each of the three hidden-state blocks (5000 × 96) by its 96 × 64 weight block into a zero
  accumulator, after a change of float format that is the identity on the extended reals, adds the three products left
  to right, adds the bias row laid down the 5000 rows, and takes the log-softmax of every row. At node p of the block and
  class q the result is the specification's log-softmax of the 64 logits
      l(j) = ((Σ_k a1(p,k)·w1(k,j) + Σ_k a2(p,k)·w2(k,j)) + Σ_k a3(p,k)·w3(k,j)) + b(0,j).
  Entry (p, q) depends on row p of the three blocks, on all of the three weight blocks and on the bias row. Each product
  is the exact sum over the 96 contracted channels, in the grouping above; no algebraic law is used.
-/
import proofs.«136992_j74148315398472_1_alg».proof.Proof.Gen.KernelIdeal.Skeleton
import proofs.«136992_j74148315398472_1_alg».proof.Proof.Spec
import proofs.«136992_j74148315398472_1_alg».proof.Proof.LsmRows
import proofs.«136992_j74148315398472_1_alg».proof.Proof.LibMatmulAt
import proofs.«136992_j74148315398472_1_alg».proof.Proof.LibAffineAt
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- One of the three products at (p, j): the block's row p against the weight block's column j, summed over the 96
    hidden channels. The casts to the same shape and the changes of format read through. -/
theorem prod_at (x : Vec Ideal S5000x96 .f32) (w : Vec Ideal S96x64 .f32)
    (hx : S5000x96.ShapeCasts S5000x96) (hw : S96x64.ShapeCasts S96x64) (h1 : FTy.bits .bf16 < FTy.bits .f32)
    (p : Fin 5000) (j : Fin 64) :
    matmul dot_S5000x96_S96x64_S5000x64_1_0_0_1_n_n none
        (truncf .bf16 (shapeCast S5000x96 x hx) h1) (truncf .bf16 (shapeCast S96x64 w hw) h1)
        (constant (F := Ideal) S5000x64 .f32 0x00000000#32) (ix2 p j)
      = ∑ k : Fin 96, x (ix2 p k) * w (ix2 k j) := by
  rw [shapeCast_self, shapeCast_self]
  exact matmul_zero_plain_apply dot_S5000x96_S96x64_S5000x64_1_0_0_1_n_n rfl none
    (truncf .bf16 x h1) (truncf .bf16 w h1) (ix2 p j)

/-- The body's stored value at node p of the block and class q. -/
theorem pay_at (a1 a2 a3 : Vec Ideal S5000x96 .f32) (w1 w2 w3 : Vec Ideal S96x64 .f32) (b : Vec Ideal S1x64 .f32)
    (p : Fin 5000) (q : Fin 64) :
    k3_pay1 (F := Ideal) a1 a2 a3 w1 w2 w3 b (ix2 p q)
      = Cert.Spec.lsmAt (fun j => (((∑ k : Fin 96, a1 (ix2 p k) * w1 (ix2 k j)) + ∑ k : Fin 96, a2 (ix2 p k) * w2 (ix2 k j))
          + ∑ k : Fin 96, a3 (ix2 p k) * w3 (ix2 k j)) + b (ix2 (0 : Fin 1) j)) q := by
  unfold k3_pay1
  refine (lsmRows_apply _ _ _ _ _ _ _ p q).trans ?_
  refine congrArg (fun l => Cert.Spec.lsmAt l q) (funext fun j => ?_)
  refine (addf_apply _ _ _).trans (congrArg₂ (fun u v => u + v) ?_ ?_)
  · refine (addf_apply _ _ _).trans (congrArg₂ (fun u v => u + v) ?_ (prod_at a3 w3 _ _ _ p j))
    exact (addf_apply _ _ _).trans (congrArg₂ (fun u v => u + v) (prod_at a1 w1 _ _ _ p j) (prod_at a2 w2 _ _ _ p j))
  · rw [shapeCast_self]
    exact Cert.LibAffineAt.broadcastTo_oneRow_apply b _ p j

end Cert.KernelIdeal.Hand

end
-- ==== Proof.KIFinal.lean ====
/-
  The last region of the program as one function of what it finds: after its ten grid points the output array
  (50000 nodes × 64 classes) holds the specification's final stage of the three hidden-state arrays, the three weight
  blocks and the bias row as the region finds them.

  Point t of the grid works on nodes 5000·t … 5000·t + 4999: its block of each hidden-state window and of the output
  window is those rows (all columns), while the weight and bias windows hold their whole arrays at every point. So what
  point t writes back is block t of the final stage: entry (p, q) of the block is node 5000·t + p, class q, and reads row
  5000·t + p of the three hidden states through the blocks. Node r lies in the block of point r / 5000, so the ten blocks
  cover the array and the array ends holding the final stage everywhere.
-/
import proofs.«136992_j74148315398472_1_alg».proof.Proof.KernelIdealFrame
import proofs.«136992_j74148315398472_1_alg».proof.Proof.Spec
import proofs.«136992_j74148315398472_1_alg».proof.Proof.KIFinalPay
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off : (![0, 0] : Fin 2 → Nat) = fun _ => 0 := funext fun a => by fin_cases a <;> rfl

/-- The block indices of the region's windows over its ten points: the hidden-state windows and the output window are
    at block row t, column block 0; the weight and bias windows are at block (0, 0). -/
theorem blockIndex3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-! ## The input blocks as rows of their arrays -/

/-- Row p of the first hidden state's block at point t is row 5000·t + p of the array. -/
theorem hidden1_at (c : Dev nD) (t : Fin cfg3.N) (p : Fin 5000) (k : Fin 96) (r : Fin 50000) (hr : r.val = t.val * 5000 + p.val) :
    (iblk3 V c 0 t : Vec Ideal S5000x96 .f32) (ix2 p k) = (V c main_v17 : Cert.Spec.ANodes) (ix2 r k) := by
  obtain ⟨⟨e0, e1⟩, -⟩ := blockIndex3 t
  show (V c main_v17 : Cert.Spec.ANodes) (((cfg3.win 0).blk t).view.emb (ix2 p k)) = (V c main_v17 : Cert.Spec.ANodes) (ix2 r k)
  refine congrArg (V c main_v17 : Cert.Spec.ANodes) (funext fun a => Fin.ext ?_)
  match a with
  | ⟨0, _⟩ => show win3_0.index t (0 : Fin 2) * 5000 + 1 * p.val = r.val; omega
  | ⟨1, _⟩ => show win3_0.index t (1 : Fin 2) * 96 + 1 * k.val = k.val; omega

/-- The same for the second hidden state. -/
theorem hidden2_at (c : Dev nD) (t : Fin cfg3.N) (p : Fin 5000) (k : Fin 96) (r : Fin 50000) (hr : r.val = t.val * 5000 + p.val) :
    (iblk3 V c 1 t : Vec Ideal S5000x96 .f32) (ix2 p k) = (V c main_v31 : Cert.Spec.ANodes) (ix2 r k) := by
  obtain ⟨-, ⟨e0, e1⟩, -⟩ := blockIndex3 t
  show (V c main_v31 : Cert.Spec.ANodes) (((cfg3.win 1).blk t).view.emb (ix2 p k)) = (V c main_v31 : Cert.Spec.ANodes) (ix2 r k)
  refine congrArg (V c main_v31 : Cert.Spec.ANodes) (funext fun a => Fin.ext ?_)
  match a with
  | ⟨0, _⟩ => show win3_1.index t (0 : Fin 2) * 5000 + 1 * p.val = r.val; omega
  | ⟨1, _⟩ => show win3_1.index t (1 : Fin 2) * 96 + 1 * k.val = k.val; omega

/-- The same for the third hidden state. -/
theorem hidden3_at (c : Dev nD) (t : Fin cfg3.N) (p : Fin 5000) (k : Fin 96) (r : Fin 50000) (hr : r.val = t.val * 5000 + p.val) :
    (iblk3 V c 2 t : Vec Ideal S5000x96 .f32) (ix2 p k) = (V c main_v45 : Cert.Spec.ANodes) (ix2 r k) := by
  obtain ⟨-, -, ⟨e0, e1⟩, -⟩ := blockIndex3 t
  show (V c main_v45 : Cert.Spec.ANodes) (((cfg3.win 2).blk t).view.emb (ix2 p k)) = (V c main_v45 : Cert.Spec.ANodes) (ix2 r k)
  refine congrArg (V c main_v45 : Cert.Spec.ANodes) (funext fun a => Fin.ext ?_)
  match a with
  | ⟨0, _⟩ => show win3_2.index t (0 : Fin 2) * 5000 + 1 * p.val = r.val; omega
  | ⟨1, _⟩ => show win3_2.index t (1 : Fin 2) * 96 + 1 * k.val = k.val; omega

/-- The first weight window's block is the whole weight block at every point. -/
theorem weight1_eq (c : Dev nD) (t : Fin cfg3.N) :
    (iblk3 V c 3 t : Vec Ideal S96x64 .f32) = (V c main_v47 : Cert.Spec.AWout) := by
  obtain ⟨-, -, -, ⟨e0, e1⟩, -⟩ := blockIndex3 t
  funext y
  show (V c main_v47 : Cert.Spec.AWout) (((cfg3.win 3).blk t).view.emb y) = (V c main_v47 : Cert.Spec.AWout) y
  refine congrArg (V c main_v47 : Cert.Spec.AWout) (funext fun a => Fin.ext ?_)
  match a with
  | ⟨0, _⟩ => show win3_3.index t (0 : Fin 2) * 96 + 1 * (y 0).val = (y 0).val; omega
  | ⟨1, _⟩ => show win3_3.index t (1 : Fin 2) * 64 + 1 * (y 1).val = (y 1).val; omega

/-- The same for the second weight block. -/
theorem weight2_eq (c : Dev nD) (t : Fin cfg3.N) :
    (iblk3 V c 4 t : Vec Ideal S96x64 .f32) = (V c main_v49 : Cert.Spec.AWout) := by
  obtain ⟨-, -, -, -, ⟨e0, e1⟩, -⟩ := blockIndex3 t
  funext y
  show (V c main_v49 : Cert.Spec.AWout) (((cfg3.win 4).blk t).view.emb y) = (V c main_v49 : Cert.Spec.AWout) y
  refine congrArg (V c main_v49 : Cert.Spec.AWout) (funext fun a => Fin.ext ?_)
  match a with
  | ⟨0, _⟩ => show win3_4.index t (0 : Fin 2) * 96 + 1 * (y 0).val = (y 0).val; omega
  | ⟨1, _⟩ => show win3_4.index t (1 : Fin 2) * 64 + 1 * (y 1).val = (y 1).val; omega

/-- The same for the third weight block. -/
theorem weight3_eq (c : Dev nD) (t : Fin cfg3.N) :
    (iblk3 V c 5 t : Vec Ideal S96x64 .f32) = (V c main_v51 : Cert.Spec.AWout) := by
  obtain ⟨-, -, -, -, -, ⟨e0, e1⟩, -⟩ := blockIndex3 t
  funext y
  show (V c main_v51 : Cert.Spec.AWout) (((cfg3.win 5).blk t).view.emb y) = (V c main_v51 : Cert.Spec.AWout) y
  refine congrArg (V c main_v51 : Cert.Spec.AWout) (funext fun a => Fin.ext ?_)
  match a with
  | ⟨0, _⟩ => show win3_5.index t (0 : Fin 2) * 96 + 1 * (y 0).val = (y 0).val; omega
  | ⟨1, _⟩ => show win3_5.index t (1 : Fin 2) * 64 + 1 * (y 1).val = (y 1).val; omega

/-- The bias window's block is the whole bias row at every point. -/
theorem bias_eq (c : Dev nD) (t : Fin cfg3.N) :
    (iblk3 V c 6 t : Vec Ideal S1x64 .f32) = (V c main_v52 : Cert.Spec.ARowOut) := by
  obtain ⟨-, -, -, -, -, -, ⟨e0, e1⟩, -⟩ := blockIndex3 t
  funext y
  show (V c main_v52 : Cert.Spec.ARowOut) (((cfg3.win 6).blk t).view.emb y) = (V c main_v52 : Cert.Spec.ARowOut) y
  refine congrArg (V c main_v52 : Cert.Spec.ARowOut) (funext fun a => Fin.ext ?_)
  match a with
  | ⟨0, _⟩ => show win3_6.index t (0 : Fin 2) * 1 + 1 * (y 0).val = (y 0).val; omega
  | ⟨1, _⟩ => show win3_6.index t (1 : Fin 2) * 64 + 1 * (y 1).val = (y 1).val; omega

/-! ## One entry of the body's result against the final stage -/

/-- The body's result on blocks whose rows are rows of whole arrays: entry (p, q), with row p of each hidden-state block
    being row r of its array and the weight and bias blocks the whole arrays, is the final stage at node r, class q. The
    entry `y` of the block and the entry `i` of the array are given by their coordinates. -/
theorem entry_at (x0 x1 x2 : Vec Ideal S5000x96 .f32) (x3 x4 x5 : Vec Ideal S96x64 .f32) (x6 : Vec Ideal S1x64 .f32)
    (X1 X2 X3 : Cert.Spec.ANodes) (W1 W2 W3 : Cert.Spec.AWout) (B : Cert.Spec.ARowOut)
    (y : S5000x64.Idx) (i : S50000x64.Idx) (p : Fin 5000) (q : Fin 64) (r : Fin 50000)
    (hy0 : (y 0).val = p.val) (hy1 : (y 1).val = q.val) (hi0 : (i 0).val = r.val) (hi1 : (i 1).val = q.val)
    (h0 : ∀ k : Fin 96, x0 (ix2 p k) = X1 (ix2 r k)) (h1 : ∀ k : Fin 96, x1 (ix2 p k) = X2 (ix2 r k))
    (h2 : ∀ k : Fin 96, x2 (ix2 p k) = X3 (ix2 r k)) (h3 : x3 = W1) (h4 : x4 = W2) (h5 : x5 = W3) (h6 : x6 = B) :
    k3_pay1 (F := Ideal) x0 x1 x2 x3 x4 x5 x6 y = Cert.Spec.finalF X1 X2 X3 W1 W2 W3 B i := by
  obtain rfl : y = ix2 p q := funext fun a => Fin.ext (by match a with | ⟨0, _⟩ => exact hy0 | ⟨1, _⟩ => exact hy1)
  obtain rfl : i = ix2 r q := funext fun a => Fin.ext (by match a with | ⟨0, _⟩ => exact hi0 | ⟨1, _⟩ => exact hi1)
  subst h3 h4 h5 h6
  refine (pay_at x0 x1 x2 x3 x4 x5 x6 p q).trans ?_
  rw [Cert.Spec.finalF_apply]
  unfold Cert.Spec.logitAt
  simp only [h0, h1, h2]

/-! ## What each point writes back, the cover, the array -/

/-- What point t writes back is block t of the final stage of the arrays as the region finds them. -/
theorem writeBack_eq (c : Dev nD) (t : Fin cfg3.N) :
    (dat3 (F := Ideal) V c).flushed 7 t
      = ((cfg3.win 7).blk t).view.read (Elt Ideal)
          (Cert.Spec.finalF (V c main_v17) (V c main_v31) (V c main_v45) (V c main_v47) (V c main_v49) (V c main_v51) (V c main_v52)) := by
  show (cfg3.win 7).cut (grid3.coords t) ((dat3 (F := Ideal) V c).after 7 t) = _
  rw [after3_7]
  unfold out3_7
  rw [View.canon_unit_zero zero_off]
  simp only [View.ld_unit_zero (S := S5000x96) zero_off, View.ld_unit_zero (S := S96x64) zero_off, View.ld_unit_zero (S := S1x64) zero_off]
  obtain ⟨-, -, -, -, -, -, -, ⟨e0, e1⟩⟩ := blockIndex3 t
  have ht : t.val < 10 := lt_of_lt_of_eq t.isLt (show cfg3.N = 10 from N_3)
  funext y
  have hy0 : (y 0).val < 5000 := (y 0).isLt
  have hy1 : (y 1).val < 64 := (y 1).isLt
  show k3_pay1 (F := Ideal) (iblk3 V c 0 t) (iblk3 V c 1 t) (iblk3 V c 2 t) (iblk3 V c 3 t) (iblk3 V c 4 t) (iblk3 V c 5 t) (iblk3 V c 6 t) y
    = Cert.Spec.finalF (V c main_v17) (V c main_v31) (V c main_v45) (V c main_v47) (V c main_v49) (V c main_v51) (V c main_v52)
        (((cfg3.win 7).blk t).view.emb y)
  refine entry_at (iblk3 V c 0 t) (iblk3 V c 1 t) (iblk3 V c 2 t) (iblk3 V c 3 t) (iblk3 V c 4 t) (iblk3 V c 5 t) (iblk3 V c 6 t)
    (V c main_v17) (V c main_v31) (V c main_v45) (V c main_v47) (V c main_v49) (V c main_v51) (V c main_v52)
    y (((cfg3.win 7).blk t).view.emb y) ⟨(y 0).val, hy0⟩ ⟨(y 1).val, hy1⟩ ⟨t.val * 5000 + (y 0).val, by omega⟩
    rfl rfl ?_ ?_
    (fun k => hidden1_at V c t _ k _ rfl) (fun k => hidden2_at V c t _ k _ rfl) (fun k => hidden3_at V c t _ k _ rfl)
    (weight1_eq V c t) (weight2_eq V c t) (weight3_eq V c t) (bias_eq V c t)
  · show win3_7.index t (0 : Fin 2) * 5000 + 1 * (y 0).val = t.val * 5000 + (y 0).val; omega
  · show win3_7.index t (1 : Fin 2) * 64 + 1 * (y 1).val = (y 1).val; omega

/-- An entry of the output array is in point t's block iff each coordinate is in the block's range on its axis. -/
theorem mem_block (t : Fin cfg3.N) (i : S50000x64.Idx) :
    i ∈ ((cfg3.win 7).blk t).view.set
      ↔ ∀ a : Fin 2, win3_7.index t a * S5000x64.size a ≤ (i a).val ∧ (i a).val < win3_7.index t a * S5000x64.size a + S5000x64.size a := by
  show i ∈ ((View.whole main_v53).slice (win3_7.rect t)).set ↔ _
  rw [View.set_slice_whole, Rect.mem_set_unit]
  exact Iff.rfl

/-- Every entry of the output array is in the block of some point that writes back: node r in that of point r / 5000. -/
theorem covered (i : S50000x64.Idx) :
    ∃ t : Fin cfg3.N, (cfg3.win 7).flush t = true ∧ i ∈ ((cfg3.win 7).blk t).view.set := by
  have hi0 : (i 0).val < 50000 := (i 0).isLt
  have hi1 : (i 1).val < 64 := (i 1).isLt
  have hN : cfg3.N = 10 := N_3
  refine ⟨⟨(i 0).val / 5000, by rw [hN]; omega⟩, flush3_7 _, ?_⟩
  obtain ⟨-, -, -, -, -, -, -, ⟨e0, e1⟩⟩ := blockIndex3 ⟨(i 0).val / 5000, by rw [hN]; omega⟩
  rw [mem_block]
  intro a
  match a with
  | ⟨0, _⟩ =>
    show win3_7.index _ (0 : Fin 2) * 5000 ≤ (i 0).val ∧ (i 0).val < win3_7.index _ (0 : Fin 2) * 5000 + 5000
    rw [e0]; show (i 0).val / 5000 * 5000 ≤ (i 0).val ∧ (i 0).val < (i 0).val / 5000 * 5000 + 5000; omega
  | ⟨1, _⟩ =>
    show win3_7.index _ (1 : Fin 2) * 64 ≤ (i 1).val ∧ (i 1).val < win3_7.index _ (1 : Fin 2) * 64 + 64
    rw [e1]; omega

/-- The output array after the region: the final stage of the three hidden states, the three weight blocks and the bias
    row as the region finds them. -/
theorem region3_value (V : (c : Dev nD) → (b : Ref sig .tc) → Buf (Elt Ideal) ((c : Thread nD τ).loc b)) (c : Dev nD) :
    (dat3 (F := Ideal) V c).arrAt 7 cfg3.N
      = Cert.Spec.finalF (V c main_v17) (V c main_v31) (V c main_v45) (V c main_v47) (V c main_v49) (V c main_v51) (V c main_v52) :=
  (dat3 (F := Ideal) V c).arrAt_eq_of_cover 7
    (Cert.Spec.finalF (V c main_v17) (V c main_v31) (V c main_v45) (V c main_v47) (V c main_v49) (V c main_v51) (V c main_v52))
    (fun t _ => writeBack_eq V c t) covered

end Cert.KernelIdeal.Hand

end
-- ==== Proof.RefTerms.lean ====
/-
  The reference program's stages as named functions of their operands, each spelt with the host operations the program
  itself uses, at the ideal values.

  `aggr ei x` is the neighbourhood sum of node features x over the edge list ei: rows of x gathered at the edges' source
  nodes (a negative index wrapped by the number of nodes) and added into the rows named by the edges' target nodes,
  starting from zero. `refLayer` is one layer: the aggregated features times the transposed relation weights, plus the
  bias laid along every row, plus the node features times the transposed root weights, and the maximum with zero.
  `refLogits` joins the three hidden states side by side, multiplies by the transposed output weights and adds the
  output bias; `refShift` subtracts from every logit its row's maximum and `refLsm` then subtracts the logarithm of the
  row's sum of exponentials: the log-softmax.
-/
import proofs.«136992_j74148315398472_1_alg».proof.Proof.Gen.ReferenceIdeal
import Idealize.ShloMosaic.PureOps.Ideal

noncomputable section

namespace Cert.ReferenceIdeal.Hand

open Cert.ReferenceIdeal Cert.ReferenceIdeal.Gen Idealize.ShloMosaic Idealize.ShloMosaic.TcCoe

/-- The edges' source nodes as a vector: row 0 of the edge list. -/
def srcRow (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000

/-- The edges' target nodes as a vector: row 1 of the edge list. -/
def dstRow (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The neighbourhood sum: rows gathered at the source nodes (a negative index wrapped by 50000), added into the
    target nodes' rows from zero. -/
def aggr (ei : (⟨S2x800000, .i32⟩ : BufTy).Contents (Elt Ideal)) (x : FVec Ideal S50000x96 .f32) :
    FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 (dstRow ei))
    (Host.gather gather_S50000x96_S800000x1_S800000x96_1_0_n_n_0_1_196 x
      (broadcastInDim S800000x1 ![0] bcast_S800000_S800000x1_0
        (select (cmpi .slt (srcRow ei) (broadcastInDim S800000 ![] bcast_S_S800000 (constantI S_ 32 0#32)))
          (addi (srcRow ei) (broadcastInDim S800000 ![] bcast_S_S800000 (constantI S_ 32 50000#32)))
          (srcRow ei))))

/-- One layer: aggregated features through the relation weights, plus the bias along every row, plus the node
    features through the root weights; then the maximum with zero. -/
def refLayer (agg x : FVec Ideal S50000x96 .f32) (wrel : FVec Ideal S96x96 .f32)
    (b : FVec Ideal S96 .f32) (wroot : FVec Ideal S96x96 .f32) :
    FVec Ideal S50000x96 .f32 :=
  maximumf
    (addf
      (addf (Host.dotGeneral dot_S50000x96_S96x96_S50000x96_1_0_0_1_n_n none agg (transpose S96x96 [1, 0] wrel transposes_S96x96_S96x96_1_0))
        (broadcastInDim S50000x96 ![0, 1] bcast_S1x96_S50000x96_0_1 (broadcastInDim S1x96 ![1] bcast_S96_S1x96_1 b)))
      (Host.dotGeneral dot_S50000x96_S96x96_S50000x96_1_0_0_1_n_n none x (transpose S96x96 [1, 0] wroot transposes_S96x96_S96x96_1_0)))
    (broadcastInDim S50000x96 ![] bcast_S_S50000x96 (constant S_ .f32 0x00000000#32))

/-- The logits: the three hidden states side by side through the transposed output weights, plus the output bias. -/
def refLogits (x1 x2 x3 : FVec Ideal S50000x96 .f32) (wl : FVec Ideal S64x288 .f32)
    (bl : FVec Ideal S64 .f32) : FVec Ideal S50000x64 .f32 :=
  addf
    (Host.dotGeneral dot_S50000x288_S288x64_S50000x64_1_0_0_1_n_n none
      (concatenate S50000x288 1 [⟨S50000x96, x1⟩, ⟨S50000x96, x2⟩, ⟨S50000x96, x3⟩] concatenates_S50000x96_S50000x96_S50000x96_S50000x288_d1)
      (transpose S288x64 [1, 0] wl transposes_S64x288_S288x64_1_0))
    (broadcastInDim S50000x64 ![0, 1] bcast_S1x64_S50000x64_0_1 (broadcastInDim S1x64 ![1] bcast_S64_S1x64_1 bl))

/-- Every logit minus its row's maximum (the maximum taken from −∞, and once more against −∞). -/
def refShift (l : FVec Ideal S50000x64 .f32) : FVec Ideal S50000x64 .f32 :=
  subf l
    (broadcastInDim S50000x64 ![0, 1] bcast_S50000x1_S50000x64_0_1
      (broadcastInDim S50000x1 ![0] bcast_S50000_S50000x1_0
        (maximumf (broadcastInDim S50000 ![] bcast_S_S50000 (constant S_ .f32 0xFF800000#32))
          (Host.reduce FloatOps.maximumf l (constant S_ .f32 0xFF800000#32) reducesTo_S50000x64_S50000_d1 h_S_))))

/-- The log-softmax of the logits along each row. -/
def refLsm (l : FVec Ideal S50000x64 .f32) : FVec Ideal S50000x64 .f32 :=
  subf (refShift l)
    (broadcastInDim S50000x64 ![0, 1] bcast_S50000x1_S50000x64_0_1
      (Host.log
        (broadcastInDim S50000x1 ![0] bcast_S50000_S50000x1_0
          (Host.reduceAdd (Host.exp (refShift l)) (constant S_ .f32 0x00000000#32) reducesTo_S50000x64_S50000_d1 h_S_))))

end Cert.ReferenceIdeal.Hand

end
-- ==== Proof.RefSpecLayer.lean ====
/-
  One layer of the reference program is the specification's layer.

  At node r and channel j the program's layer is the maximum with zero of: the aggregated features times the transposed
  relation weights, plus the bias row laid along every node, plus the node features times the transposed root weights.
  Each matrix product read at (r, j) is the exact sum over the 96 input channels of the products of entries; the bias
  row laid down the 50000 nodes reads its entry (0, j); the zero splat reads the zero word. These are, in the same
  grouping, the terms of the specification's layer at (r, j). The transposed weights and the bias row stay whole arrays
  on both sides; no algebraic law is used and nothing is assumed finite.
-/
import proofs.«136992_j74148315398472_1_alg».proof.Proof.RefTerms
import proofs.«136992_j74148315398472_1_alg».proof.Proof.Spec
import proofs.«136992_j74148315398472_1_alg».proof.Proof.LibAffineAt

noncomputable section

namespace Cert.ReferenceIdeal.Hand

open Cert.ReferenceIdeal Cert.ReferenceIdeal.Gen Idealize.ShloMosaic Idealize.ShloMosaic.TcCoe Idealize.ShloMosaic.ValueIdx

/-- The zero splat over the node features reads the zero word at every entry. -/
theorem zeroSplat_apply (i : S50000x96.Idx) :
    (broadcastInDim S50000x96 ![] bcast_S_S50000x96 (constant S_ .f32 0x00000000#32) : FVec Ideal S50000x96 .f32) i
      = Ideal.ofBits .f32 0x00000000#32 :=
  broadcastInDim_apply _ bcast_S_S50000x96 (constant (F := Ideal) S_ .f32 0x00000000#32) i ix0 (fun a => a.elim0)

/-- The reference's layer at node r and channel j. -/
theorem refLayer_apply (agg x : FVec Ideal S50000x96 .f32) (wrel : FVec Ideal S96x96 .f32) (b : FVec Ideal S96 .f32)
    (wroot : FVec Ideal S96x96 .f32) (r : Fin 50000) (j : Fin 96) :
    refLayer agg x wrel b wroot (ix2 r j)
      = Cert.Spec.layerAt agg x (transpose S96x96 [1, 0] wrel transposes_S96x96_S96x96_1_0)
          (transpose S96x96 [1, 0] wroot transposes_S96x96_S96x96_1_0)
          (broadcastInDim S1x96 ![1] bcast_S96_S1x96_1 b) r j := by
  unfold refLayer Cert.Spec.layerAt
  refine (maximumf_apply _ _ _).trans ?_
  refine congrArg₂ max ?_ (zeroSplat_apply (ix2 r j))
  refine (addf_apply _ _ _).trans ?_
  refine congrArg₂ (· + ·) ?_ ?_
  · exact Cert.LibAffineAt.host_at dot_S50000x96_S96x96_S50000x96_1_0_0_1_n_n rfl bcast_S1x96_S50000x96_0_1 agg
      (transpose S96x96 [1, 0] wrel transposes_S96x96_S96x96_1_0) (broadcastInDim S1x96 ![1] bcast_S96_S1x96_1 b) r j
  · exact Cert.KernelIdeal.Hand.dotGeneral_plain_apply' dot_S50000x96_S96x96_S50000x96_1_0_0_1_n_n rfl none x
      (transpose S96x96 [1, 0] wroot transposes_S96x96_S96x96_1_0) (ix2 r j)

/-- The reference's layer is the specification's layer of the transposed weights and the bias row. -/
theorem refLayer_eq (agg x : FVec Ideal S50000x96 .f32) (wrel : FVec Ideal S96x96 .f32) (b : FVec Ideal S96 .f32)
    (wroot : FVec Ideal S96x96 .f32) :
    refLayer agg x wrel b wroot
      = Cert.Spec.layerF agg x (transpose S96x96 [1, 0] wrel transposes_S96x96_S96x96_1_0)
          (transpose S96x96 [1, 0] wroot transposes_S96x96_S96x96_1_0)
          (broadcastInDim S1x96 ![1] bcast_S96_S1x96_1 b) := by
  funext i
  obtain ⟨r, j, rfl⟩ : ∃ (r : Fin 50000) (j : Fin 96), i = ix2 r j := ⟨i 0, i 1, eq_ix2 i⟩
  rw [Cert.Spec.layerF_apply]
  exact refLayer_apply agg x wrel b wroot r j

end Cert.ReferenceIdeal.Hand

end
-- ==== Proof.LibSplitSum.lean ====
/-
  A finite sum over `a + b` consecutive positions is the sum over the first `a` of them plus the sum over the
  last `b`, in any commutative monoid. On the extended reals this is the law by which a contraction against two
  matrices laid side by side (one joined row of `a + b` entries) is the sum of the two separate contractions: it
  uses only that addition is commutative and associative, so it holds at the infinities too, with no finiteness
  hypothesis. Nothing here depends on a program.
-/
import Mathlib.Algebra.BigOperators.Fin

namespace Cert.SplitSum

/-- The sum over `Fin n`, `n = a + b`, splits at position `a`: the first `a` positions keep their numbers, the
    last `b` are numbered from `a` on. -/
theorem sum_fin_split {M : Type*} [AddCommMonoid M] {a b n : ℕ} (hn : a + b = n) (f : Fin n → M) :
    ∑ k : Fin n, f k
      = ∑ k : Fin a, f ⟨k.val, by have := k.isLt; omega⟩ + ∑ k : Fin b, f ⟨a + k.val, by have := k.isLt; omega⟩ := by
  subst hn
  exact Fin.sum_univ_add f

/-- The same with each half's summand named: whatever the summand is known to be on the first `a` positions
    (`h₁`) and on the last `b` (`h₂`), the whole sum is the two named sums added. -/
theorem sum_fin_split_of_eq {M : Type*} [AddCommMonoid M] {a b n : ℕ} (hn : a + b = n) (f : Fin n → M)
    (g₁ : Fin a → M) (g₂ : Fin b → M)
    (h₁ : ∀ k : Fin a, f ⟨k.val, by have := k.isLt; omega⟩ = g₁ k)
    (h₂ : ∀ k : Fin b, f ⟨a + k.val, by have := k.isLt; omega⟩ = g₂ k) :
    ∑ k : Fin n, f k = ∑ k : Fin a, g₁ k + ∑ k : Fin b, g₂ k := by
  rw [sum_fin_split hn f]
  exact congrArg₂ (· + ·) (Finset.sum_congr rfl fun k _ => h₁ k) (Finset.sum_congr rfl fun k _ => h₂ k)

end Cert.SplitSum
-- ==== Proof.LibConcat3At.lean ====
/-
  Three matrices with the same number of rows laid side by side along the columns, read at an entry: the entry at
  (r, k) is the first matrix's at (r, k) when k falls among its n₀ columns, the second's at (r, k − n₀) when k falls
  among the next n₁ columns, and the third's at (r, k − (n₀ + n₁)) otherwise. Nothing here depends on a program.
-/
import Idealize.ShloMosaic.Lib.Pipeline.Value
import Idealize.ShloMosaic.Lib.ValueIdx

noncomputable section

namespace Cert.LibConcat3At

open Idealize.ShloMosaic Idealize.ShloMosaic.ValueIdx

variable {α : Type}

/-- Three rows laid end to end: position k reads the first row when k < n₀, the second when n₀ ≤ k < n₀ + n₁, and the
    third from n₀ + n₁ on. -/
def join3 {n0 n1 n2 N : ℕ} (hN : N = n0 + n1 + n2) (a0 : Fin n0 → α) (a1 : Fin n1 → α) (a2 : Fin n2 → α)
    (k : Fin N) : α :=
  if h0 : k.val < n0 then a0 ⟨k.val, h0⟩
  else if h1 : k.val < n0 + n1 then a1 ⟨k.val - n0, by omega⟩
  else a2 ⟨k.val - (n0 + n1), by have := k.isLt; omega⟩

/-- The join of three matrices [R, n₀], [R, n₁], [R, n₂] along the columns, read at (r, k), is the join of their
    rows r read at k. -/
theorem concatenate_cols3_apply {R n0 n1 n2 N : ℕ} (hN : N = n0 + n1 + n2)
    (x0 : (⟨2, ![R, n0]⟩ : Shape).Idx → α) (x1 : (⟨2, ![R, n1]⟩ : Shape).Idx → α)
    (x2 : (⟨2, ![R, n2]⟩ : Shape).Idx → α)
    (h : Shape.Concatenates [⟨2, ![R, n0]⟩, ⟨2, ![R, n1]⟩, ⟨2, ![R, n2]⟩] ⟨2, ![R, N]⟩ 1) (r : Fin R) (k : Fin N) :
    concatenate ⟨2, ![R, N]⟩ 1 [⟨⟨2, ![R, n0]⟩, x0⟩, ⟨⟨2, ![R, n1]⟩, x1⟩, ⟨⟨2, ![R, n2]⟩, x2⟩] h (ix2 r k)
      = join3 hN (fun c => x0 (ix2 r c)) (fun c => x1 (ix2 r c)) (fun c => x2 (ix2 r c)) k := by
  unfold join3
  split
  · rename_i h0
    refine concatenate_apply_piece (t := ⟨2, ![R, N]⟩) (1 : Fin 2)
        [⟨⟨2, ![R, n0]⟩, x0⟩, ⟨⟨2, ![R, n1]⟩, x1⟩, ⟨⟨2, ![R, n2]⟩, x2⟩] h (ix2 r k) 0 (by simp) _ x0 rfl rfl 0 rfl
      (ix2 r ⟨k.val, h0⟩) ?_ ?_
    · intro b hb
      match b with
      | ⟨0, _⟩ => rfl
      | ⟨1, _⟩ => exact absurd rfl hb
    · show 0 + k.val = k.val
      omega
  · rename_i h0
    split
    · rename_i h1
      refine concatenate_apply_piece (t := ⟨2, ![R, N]⟩) (1 : Fin 2)
        [⟨⟨2, ![R, n0]⟩, x0⟩, ⟨⟨2, ![R, n1]⟩, x1⟩, ⟨⟨2, ![R, n2]⟩, x2⟩] h (ix2 r k) 1 (by simp) _ x1 rfl rfl n0 (by simp)
        (ix2 r ⟨k.val - n0, by omega⟩) ?_ ?_
      · intro b hb
        match b with
        | ⟨0, _⟩ => rfl
        | ⟨1, _⟩ => exact absurd rfl hb
      · show n0 + (k.val - n0) = k.val
        omega
    · rename_i h1
      refine concatenate_apply_piece (t := ⟨2, ![R, N]⟩) (1 : Fin 2)
        [⟨⟨2, ![R, n0]⟩, x0⟩, ⟨⟨2, ![R, n1]⟩, x1⟩, ⟨⟨2, ![R, n2]⟩, x2⟩] h (ix2 r k) 2 (by simp) _ x2 rfl rfl (n0 + n1) (by simp)
        (ix2 r ⟨k.val - (n0 + n1), by have := k.isLt; omega⟩) ?_ ?_
      · intro b hb
        match b with
        | ⟨0, _⟩ => rfl
        | ⟨1, _⟩ => exact absurd rfl hb
      · show n0 + n1 + (k.val - (n0 + n1)) = k.val
        omega

end Cert.LibConcat3At

end
-- ==== Proof.LibColumn.lean ====
/-
  A vector laid out as a column, read at an entry. A host program turns a vector of a entries into an a × 1 matrix by a
  broadcast that sends the vector's axis to the matrix's first axis; the entry at (p, u) is the vector's entry p.
  Stated for any extent and any element type; nothing here depends on a program.
-/
import Idealize.ShloMosaic.Lib.Pipeline.Value
import Idealize.ShloMosaic.Lib.ValueIdx

namespace Cert.LibColumn

open Idealize.ShloMosaic Idealize.ShloMosaic.ValueIdx

variable {α : Type}

/-- A vector [a] broadcast along axis 0 into a column [a, 1] reads, at (p, u), the vector at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) ?_
  intro ax
  match ax with
  | ⟨0, _⟩ =>
    show p.val = if a = 1 then 0 else p.val
    split
    · have := p.isLt; omega
    · rfl

end Cert.LibColumn
-- ==== Proof.LibHostColumn.lean ====
/-
  A column laid across the columns of a matrix, read at an entry. A host program turns an a × 1 matrix into an a × b
  one by a broadcast that keeps both axes; the entry at (p, q) is the column's entry of row p. Stated for any extents and
  any element type; nothing here depends on a program.
-/
import Idealize.ShloMosaic.Lib.Pipeline.Value
import Idealize.ShloMosaic.Lib.ValueIdx

namespace Cert.LibHostColumn

open Idealize.ShloMosaic Idealize.ShloMosaic.ValueIdx

variable {α : Type}

/-- A column [a, 1] broadcast along both axes into [a, b] reads, at (p, q), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) ?_
  intro ax
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Cert.LibHostColumn
-- ==== Proof.RefSpecFinal.lean ====
/-
  The reference program's last stage is the specification's: the logits, then the log-softmax along each row.

  The logits. The three hidden states are laid side by side into one 50000 × 288 matrix and multiplied by the
  transposed 64 × 288 output weights; the bias row is laid along every node. Read at node r and class j the product is
  the exact sum over the 288 joined columns; a sum over 288 consecutive positions is the sum over the first 96, plus
  the next 96, plus the last 96 (addition of extended reals is commutative and associative, so this holds at the
  infinities too), and on each third the joined row is one hidden state's row and the transposed weights are one
  column block of the output weights: the specification's three sums, in its grouping.

  The log-softmax. A host reduction of an a × b matrix over its columns from a scalar start value is, at row r, the fold
  of max over the row from that value (maximum body) or that value plus the row's exact sum (sum body). The program takes
  the row maximum from −∞ and the maximum with −∞ once more, which changes nothing: the start value is below the fold
  that starts from it. Kept as a column and laid back along the row, it is subtracted from every logit; the row's sum
  of exponentials starts from the zero word, which is 0; its logarithm, laid back the same way, is subtracted again.
  Entry by entry these are the specification's terms. Nothing is assumed finite.
-/
import proofs.«136992_j74148315398472_1_alg».proof.Proof.RefTerms
import proofs.«136992_j74148315398472_1_alg».proof.Proof.Spec
import proofs.«136992_j74148315398472_1_alg».proof.Proof.LibAffineAt
import proofs.«136992_j74148315398472_1_alg».proof.Proof.LibSplitSum
import proofs.«136992_j74148315398472_1_alg».proof.Proof.LibConcat3At
import proofs.«136992_j74148315398472_1_alg».proof.Proof.LibColumn
import proofs.«136992_j74148315398472_1_alg».proof.Proof.LibHostColumn
import Idealize.ShloMosaic.Lib.ValueLayout
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.ShloMosaic.ValueIdx

/-! ## Three rows of 96 entries laid end to end, against a row of 288 -/

section Joined
variable {α : Type}

/-- The first 96 positions of the joined row are the first row. -/
theorem join3_first (a0 a1 a2 : Fin 96 → α) (k : Fin 96) :
    Cert.LibConcat3At.join3 (N := 288) rfl a0 a1 a2 ⟨k.val, by have := k.isLt; omega⟩ = a0 k := by
  unfold Cert.LibConcat3At.join3
  exact dif_pos k.isLt

/-- Positions 96 … 191 are the second row. -/
theorem join3_second (a0 a1 a2 : Fin 96 → α) (k : Fin 96) :
    Cert.LibConcat3At.join3 (N := 288) rfl a0 a1 a2 ⟨96 + k.val, by have := k.isLt; omega⟩ = a1 k := by
  unfold Cert.LibConcat3At.join3
  have h0 : ¬ (96 + k.val < 96) := by omega
  have h1 : 96 + k.val < 96 + 96 := by have := k.isLt; omega
  refine (dif_neg h0).trans ((dif_pos h1).trans ?_)
  exact congrArg a1 (Fin.ext (by show 96 + k.val - 96 = k.val; omega))

/-- Positions 192 … 287 are the third row. -/
theorem join3_third (a0 a1 a2 : Fin 96 → α) (k : Fin 96) :
    Cert.LibConcat3At.join3 (N := 288) rfl a0 a1 a2 ⟨192 + k.val, by have := k.isLt; omega⟩ = a2 k := by
  unfold Cert.LibConcat3At.join3
  have h0 : ¬ (192 + k.val < 96) := by omega
  have h1 : ¬ (192 + k.val < 96 + 96) := by omega
  refine (dif_neg h0).trans ((dif_neg h1).trans ?_)
  exact congrArg a2 (Fin.ext (by show 192 + k.val - (96 + 96) = k.val; omega))

/-- The joined row against a row of 288 weights: the sum over the 288 positions is the first row against the first 96
    weights, plus the second against the next 96, plus the third against the last 96. Only commutativity and
    associativity of addition are used. -/
theorem sum_join3_mul (a0 a1 a2 : Fin 96 → EReal) (w : Fin 288 → EReal) :
    ∑ k : Fin 288, Cert.LibConcat3At.join3 (N := 288) rfl a0 a1 a2 k * w k
      = ((∑ k : Fin 96, a0 k * w ⟨k.val, by have := k.isLt; omega⟩)
          + ∑ k : Fin 96, a1 k * w ⟨96 + k.val, by have := k.isLt; omega⟩)
        + ∑ k : Fin 96, a2 k * w ⟨192 + k.val, by have := k.isLt; omega⟩ := by
  have inner : ∑ k : Fin 192, Cert.LibConcat3At.join3 (N := 288) rfl a0 a1 a2 ⟨k.val, by have := k.isLt; omega⟩
        * w ⟨k.val, by have := k.isLt; omega⟩
      = (∑ k : Fin 96, a0 k * w ⟨k.val, by have := k.isLt; omega⟩)
          + ∑ k : Fin 96, a1 k * w ⟨96 + k.val, by have := k.isLt; omega⟩ :=
    Cert.SplitSum.sum_fin_split_of_eq (a := 96) (b := 96) (n := 192) rfl
      (fun k : Fin 192 => Cert.LibConcat3At.join3 (N := 288) rfl a0 a1 a2 ⟨k.val, by have := k.isLt; omega⟩
        * w ⟨k.val, by have := k.isLt; omega⟩)
      (fun k => a0 k * w ⟨k.val, by have := k.isLt; omega⟩)
      (fun k => a1 k * w ⟨96 + k.val, by have := k.isLt; omega⟩)
      (fun k => congrArg (fun t => t * w ⟨k.val, by have := k.isLt; omega⟩) (join3_first a0 a1 a2 k))
      (fun k => congrArg (fun t => t * w ⟨96 + k.val, by have := k.isLt; omega⟩) (join3_second a0 a1 a2 k))
  refine (Cert.SplitSum.sum_fin_split_of_eq (a := 192) (b := 96) (n := 288) rfl
      (fun k : Fin 288 => Cert.LibConcat3At.join3 (N := 288) rfl a0 a1 a2 k * w k)
      (fun k : Fin 192 => Cert.LibConcat3At.join3 (N := 288) rfl a0 a1 a2 ⟨k.val, by have := k.isLt; omega⟩
        * w ⟨k.val, by have := k.isLt; omega⟩)
      (fun k => a2 k * w ⟨192 + k.val, by have := k.isLt; omega⟩)
      (fun _ => rfl)
      (fun k => congrArg (fun t => t * w ⟨192 + k.val, by have := k.isLt; omega⟩) (join3_third a0 a1 a2 k))).trans ?_
  exact congrArg (fun t => t + ∑ k : Fin 96, a2 k * w ⟨192 + k.val, by have := k.isLt; omega⟩) inner

end Joined

/-! ## Host reductions along the rows of a matrix, and a scalar laid out over a shape -/

section Rows

/-- The host's exponential acts entry by entry. -/
theorem hostExp_apply {s : Shape} {φ : FTy} (x : FVec Ideal s φ) (i : s.Idx) : Host.exp x i = Ideal.exp (x i) := rfl

/-- The host's logarithm acts entry by entry. -/
theorem hostLog_apply {s : Shape} {φ : FTy} (x : FVec Ideal s φ) (i : s.Idx) : Host.log x i = Ideal.log (x i) := rfl

/-- A scalar broadcast to any shape reads the scalar. -/
theorem scalar_splat_apply {α : Type} {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

variable {a b : ℕ}

/-- Over entry r of the reduced vector, the source index with column q put back is (r, q). -/
theorem lift_row (h : (⟨2, ![a, b]⟩ : Shape).Reduces [1] ⟨1, ![a]⟩) (r : Fin a) (q : Fin b) :
    h.lift (ix1 r) q = ix2 r q :=
  funext fun ax => Fin.ext (by match ax with | ⟨0, _⟩ => rfl | ⟨1, _⟩ => rfl)

/-- The maximum along each row, folded from a start value: entry r is the fold of max over row r from that value. -/
theorem rowsMax_apply (x : (⟨2, ![a, b]⟩ : Shape).Idx → EReal) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduce (FloatOps.maximumf (F := Ideal) (φ := .f32)) x init h' hu (ix1 r)
      = (Finset.univ : Finset (Fin b)).fold max (init (Shape.Idx.first hu)) (fun q => x (ix2 r q)) := by
  have h : (⟨2, ![a, b]⟩ : Shape).Reduces [1] ⟨1, ![a]⟩ := ⟨h'.1, Nat.one_pos, h'.2⟩
  rw [Host.reduce_eq_fold_single (FloatOps.maximumf (F := Ideal) (φ := .f32)) x init h' h hu]
  show (Finset.univ : Finset (Fin b)).fold max (init (Shape.Idx.first hu)) (fun q => x (h.lift (ix1 r) q)) = _
  exact Finset.fold_congr fun (q : Fin b) _ => congrArg x (lift_row h r q)

/-- The sum along each row from a start value: entry r is that value plus the exact sum of row r. -/
theorem rowsSum_apply (x : FVec Ideal ⟨2, ![a, b]⟩ .f32) (init : (⟨0, ![]⟩ : Shape).Idx → EReal)
    (h' : (⟨2, ![a, b]⟩ : Shape).ReducesTo [1] ⟨1, ![a]⟩) (hu : 0 < (⟨0, ![]⟩ : Shape).numel) (r : Fin a) :
    Host.reduceAdd (F := Ideal) (φ := .f32) x init h' hu (ix1 r) = init (Shape.Idx.first hu) + ∑ q : Fin b, x (ix2 r q) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  show init (Shape.Idx.first hu) + ∑ q : Fin b, x (h.lift (ix1 r) q) = _
  exact congrArg (_ + ·) (Finset.sum_congr rfl fun (q : Fin b) _ => congrArg x (lift_row h r q))

/-- The start value is below the fold of max that starts from it, so the maximum of the two is the fold. -/
theorem max_start_fold {n : ℕ} (s : EReal) (l : Fin n → EReal) :
    max s ((Finset.univ : Finset (Fin n)).fold max s l) = (Finset.univ : Finset (Fin n)).fold max s l :=
  max_eq_right ((Finset.le_fold_max s).mpr (Or.inl le_rfl))

end Rows

/-! ## The logits -/

/-- The logits at node r and class j: the specification's, over the three column blocks of the output weights. -/
theorem refLogits_apply (x1 x2 x3 : FVec Ideal S50000x96 .f32) (wl : FVec Ideal S64x288 .f32) (bl : FVec Ideal S64 .f32)
    (r : Fin 50000) (j : Fin 64) :
    refLogits x1 x2 x3 wl bl (ix2 r j)
      = Cert.Spec.logitAt x1 x2 x3 (Cert.Spec.wBlock 0 (by decide) wl) (Cert.Spec.wBlock 96 (by decide) wl)
          (Cert.Spec.wBlock 192 (by decide) wl) (broadcastInDim S1x64 ![1] bcast_S64_S1x64_1 bl) r j := by
  unfold refLogits Cert.Spec.logitAt
  refine (Cert.LibAffineAt.host_at dot_S50000x288_S288x64_S50000x64_1_0_0_1_n_n rfl bcast_S1x64_S50000x64_0_1 _
      (transpose S288x64 [1, 0] wl transposes_S64x288_S288x64_1_0) (broadcastInDim S1x64 ![1] bcast_S64_S1x64_1 bl) r j).trans ?_
  refine congrArg (fun t => t + (broadcastInDim S1x64 ![1] bcast_S64_S1x64_1 bl : FVec Ideal S1x64 .f32) (ix2 (0 : Fin 1) j)) ?_
  -- each of the 288 products: the joined row's entry times the output weight of class j for that column
  refine (Finset.sum_congr rfl fun (k : Fin 288) _ => congrArg₂ (· * ·)
      (Cert.LibConcat3At.concatenate_cols3_apply (N := 288) rfl x1 x2 x3
        concatenates_S50000x96_S50000x96_S50000x96_S50000x288_d1 r k)
      (transpose_ix2_apply wl transposes_S64x288_S288x64_1_0 k j)).trans ?_
  refine (sum_join3_mul (fun c => x1 (ix2 r c)) (fun c => x2 (ix2 r c)) (fun c => x3 (ix2 r c))
      (fun k => wl (ix2 j k))).trans ?_
  -- the first block's columns are numbered 0 + k in the specification
  refine congrArg₂ (· + ·) (congrArg₂ (· + ·) ?_ rfl) rfl
  exact Finset.sum_congr rfl fun (k : Fin 96) _ => congrArg (fun t => x1 (ix2 r k) * t)
    (congrArg (fun c => wl (ix2 j c)) (Fin.ext (Nat.zero_add k.val).symm))

/-! ## The log-softmax -/

/-- Every logit minus its row's maximum, at (r, j). -/
theorem refShift_apply (l : FVec Ideal S50000x64 .f32) (r : Fin 50000) (j : Fin 64) :
    refShift l (ix2 r j) = l (ix2 r j) - Cert.Spec.rowTop (fun q => l (ix2 r q)) := by
  unfold refShift Cert.Spec.rowTop
  refine (subf_apply _ _ _).trans ?_
  refine congrArg (fun m => l (ix2 r j) - m) ?_
  refine (Cert.LibHostColumn.broadcastInDim_a1_ab_apply _ bcast_S50000x1_S50000x64_0_1 r j).trans ?_
  refine (Cert.LibColumn.broadcastInDim_a_a1_apply _ bcast_S50000_S50000x1_0 r (0 : Fin 1)).trans ?_
  refine (maximumf_apply _ _ _).trans ?_
  refine (congrArg₂ max (scalar_splat_apply bcast_S_S50000 (constant (F := Ideal) S_ .f32 0xFF800000#32) (ix1 r))
    (rowsMax_apply l (constant (F := Ideal) S_ .f32 0xFF800000#32) reducesTo_S50000x64_S50000_d1 h_S_ r)).trans ?_
  exact max_start_fold (Ideal.ofBits .f32 0xFF800000#32) (fun q => l (ix2 r q))

/-- The program's log-softmax at (r, j) is the specification's log-softmax of row r at class j. -/
theorem refLsm_apply (l : FVec Ideal S50000x64 .f32) (r : Fin 50000) (j : Fin 64) :
    refLsm l (ix2 r j) = Cert.Spec.lsmAt (fun q => l (ix2 r q)) j := by
  unfold refLsm Cert.Spec.lsmAt
  refine (subf_apply _ _ _).trans ?_
  refine congrArg₂ (fun u v => u - v) (refShift_apply l r j) ?_
  refine (Cert.LibHostColumn.broadcastInDim_a1_ab_apply _ bcast_S50000x1_S50000x64_0_1 r j).trans ?_
  refine (hostLog_apply _ _).trans ?_
  refine congrArg Ideal.log ?_
  refine (Cert.LibColumn.broadcastInDim_a_a1_apply _ bcast_S50000_S50000x1_0 r (0 : Fin 1)).trans ?_
  refine (rowsSum_apply (Host.exp (refShift l)) (constant (F := Ideal) S_ .f32 0x00000000#32)
    reducesTo_S50000x64_S50000_d1 h_S_ r).trans ?_
  rw [constant_apply, Ideal.ofBits_zero_f32, zero_add]
  exact Finset.sum_congr rfl fun (q : Fin 64) _ =>
    (hostExp_apply (refShift l) (ix2 r q)).trans (congrArg Ideal.exp (refShift_apply l r q))

/-- The reference's last stage is the specification's final stage of the three column blocks of the output weights
    and the bias row. -/
theorem refFinal_eq (x1 x2 x3 : FVec Ideal S50000x96 .f32) (wl : FVec Ideal S64x288 .f32) (bl : FVec Ideal S64 .f32) :
    refLsm (refLogits x1 x2 x3 wl bl)
      = Cert.Spec.finalF x1 x2 x3 (Cert.Spec.wBlock 0 (by decide) wl) (Cert.Spec.wBlock 96 (by decide) wl)
          (Cert.Spec.wBlock 192 (by decide) wl) (broadcastInDim S1x64 ![1] bcast_S64_S1x64_1 bl) := by
  funext i
  obtain ⟨r, j, rfl⟩ : ∃ (r : Fin 50000) (j : Fin 64), i = ix2 r j := ⟨i 0, i 1, eq_ix2 i⟩
  rw [Cert.Spec.finalF_apply]
  refine (refLsm_apply (refLogits x1 x2 x3 wl bl) r j).trans ?_
  exact congrArg (fun f => Cert.Spec.lsmAt f j) (funext fun q => refLogits_apply x1 x2 x3 wl bl r q)

end Cert.ReferenceIdeal.Hand

end
-- ==== Proof.RefResult.lean ====
/-
  The reference's result as a term of its arguments, and that term as the specification's network. Each hidden state is
  one layer (`refLayer`) of the neighbourhood sum of the one before, starting from the input features; the result is
  the log-softmax of the logits of the three hidden states. Layer by layer the reference's stages are the
  specification's, so the result is `net` over the neighbourhood sum, with the weights transposed, each bias broadcast
  into one row, and the output weights' three column blocks transposed.
-/
import proofs.«136992_j74148315398472_1_alg».proof.Proof.RefTerms
import proofs.«136992_j74148315398472_1_alg».proof.Proof.RefSpecLayer
import proofs.«136992_j74148315398472_1_alg».proof.Proof.RefSpecFinal
import proofs.«136992_j74148315398472_1_alg».proof.Proof.Spec

set_option maxRecDepth 16384

noncomputable section

namespace Cert.ReferenceIdeal.Hand

open Cert.ReferenceIdeal Cert.ReferenceIdeal.Gen Idealize.ShloMosaic Idealize.ShloMosaic.TcCoe Idealize.SL.Sem

/-- The first hidden state, of the launch contents of the arguments. -/
def hid1 (m : (ℓ : Loc nD τ sig) → Buf (Elt Ideal) ℓ) (c : Dev nD) : FVec Ideal S50000x96 .f32 :=
  refLayer (aggr (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4))
/-- The second hidden state. -/
def hid2 (m : (ℓ : Loc nD τ sig) → Buf (Elt Ideal) ℓ) (c : Dev nD) : FVec Ideal S50000x96 .f32 :=
  refLayer (aggr (m ((c.tc : Thread nD τ).loc main_arg1)) (hid1 m c)) (hid1 m c) (m ((c.tc : Thread nD τ).loc main_arg5)) (m ((c.tc : Thread nD τ).loc main_arg6)) (m ((c.tc : Thread nD τ).loc main_arg7))
/-- The third hidden state. -/
def hid3 (m : (ℓ : Loc nD τ sig) → Buf (Elt Ideal) ℓ) (c : Dev nD) : FVec Ideal S50000x96 .f32 :=
  refLayer (aggr (m ((c.tc : Thread nD τ).loc main_arg1)) (hid2 m c)) (hid2 m c) (m ((c.tc : Thread nD τ).loc main_arg8)) (m ((c.tc : Thread nD τ).loc main_arg9)) (m ((c.tc : Thread nD τ).loc main_arg10))
/-- The reference's result: the log-softmax of the logits of the three hidden states. -/
def refResult (m : (ℓ : Loc nD τ sig) → Buf (Elt Ideal) ℓ) (c : Dev nD) : FVec Ideal S50000x64 .f32 :=
  refLsm (refLogits (hid1 m c) (hid2 m c) (hid3 m c) (m ((c.tc : Thread nD τ).loc main_arg11)) (m ((c.tc : Thread nD τ).loc main_arg12)))

/-- The reference's result is the network over the neighbourhood sum. -/
theorem ref_net (m : (ℓ : Loc nD τ sig) → Buf (Elt Ideal) ℓ) (c : Dev nD) : refResult m c
    = Cert.Spec.net (aggr (m ((c.tc : Thread nD τ).loc main_arg1))) (m ((c.tc : Thread nD τ).loc main_arg0)) (transpose S96x96 [1, 0] (m ((c.tc : Thread nD τ).loc main_arg2)) transposes_S96x96_S96x96_1_0) (transpose S96x96 [1, 0] (m ((c.tc : Thread nD τ).loc main_arg4)) transposes_S96x96_S96x96_1_0) (broadcastInDim S1x96 ![1] bcast_S96_S1x96_1 (m ((c.tc : Thread nD τ).loc main_arg3))) (transpose S96x96 [1, 0] (m ((c.tc : Thread nD τ).loc main_arg5)) transposes_S96x96_S96x96_1_0) (transpose S96x96 [1, 0] (m ((c.tc : Thread nD τ).loc main_arg7)) transposes_S96x96_S96x96_1_0) (broadcastInDim S1x96 ![1] bcast_S96_S1x96_1 (m ((c.tc : Thread nD τ).loc main_arg6))) (transpose S96x96 [1, 0] (m ((c.tc : Thread nD τ).loc main_arg8)) transposes_S96x96_S96x96_1_0) (transpose S96x96 [1, 0] (m ((c.tc : Thread nD τ).loc main_arg10)) transposes_S96x96_S96x96_1_0) (broadcastInDim S1x96 ![1] bcast_S96_S1x96_1 (m ((c.tc : Thread nD τ).loc main_arg9)))
        (Cert.Spec.wBlock 0 (by decide) (m ((c.tc : Thread nD τ).loc main_arg11))) (Cert.Spec.wBlock 96 (by decide) (m ((c.tc : Thread nD τ).loc main_arg11))) (Cert.Spec.wBlock 192 (by decide) (m ((c.tc : Thread nD τ).loc main_arg11)))
        (broadcastInDim S1x64 ![1] bcast_S64_S1x64_1 (m ((c.tc : Thread nD τ).loc main_arg12))) := by
  unfold refResult
  rw [refFinal_eq]
  unfold hid3 hid2 hid1 Cert.Spec.net
  simp only [refLayer_eq]

end Cert.ReferenceIdeal.Hand

end
-- ==== Proof.Claims.lean ====
/-
  The claims, from the two runs. The idealized kernel's run ends with its result buffer at the last boundary of the fold
  through @main, which is the specification's network over the neighbourhood sum of the launch contents of the arguments
  (the four regions' values and the fold). The reference's run ends with its result at the composed term of its stages,
  which is the same network of its own arguments. The two memories agree on the arguments, and the neighbourhood sum,
  the transposes and the broadcasts are spelt with the same operations in both programs: the two results are equal,
  entry by entry, on the extended reals. No hypothesis on the inputs is used: every law between the two sides is a
  regrouping of finite sums (commutativity and associativity of addition) or an identity of layout.

  The frames: the kernel's two are the generated frame certificates; the reference's is its run with the result dropped.
  The kernel's idealization rewrote nothing, so there is nothing to preserve.
-/
import proofs.«136992_j74148315398472_1_alg».proof.Defs
import proofs.«136992_j74148315398472_1_alg».proof.Proof.KernelFrame
import proofs.«136992_j74148315398472_1_alg».proof.Proof.KernelIdealFrame
import proofs.«136992_j74148315398472_1_alg».proof.Proof.KIRun
import proofs.«136992_j74148315398472_1_alg».proof.Proof.KINet
import proofs.«136992_j74148315398472_1_alg».proof.Proof.KILayer0
import proofs.«136992_j74148315398472_1_alg».proof.Proof.KILayer1
import proofs.«136992_j74148315398472_1_alg».proof.Proof.KILayer2
import proofs.«136992_j74148315398472_1_alg».proof.Proof.KIFinal
import proofs.«136992_j74148315398472_1_alg».proof.Proof.RefResult
import proofs.«136992_j74148315398472_1_alg».proof.Proof.Gen.Kernel
import proofs.«136992_j74148315398472_1_alg».proof.Proof.Gen.KernelIdeal
import proofs.«136992_j74148315398472_1_alg».proof.Proof.Gen.ReferenceIdeal
import proofs.«136992_j74148315398472_1_alg».proof.Proof.Gen.Pre_finite_inputs

set_option maxRecDepth 16384

noncomputable section

namespace Cert.Proof.Claims

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem preserves : Cert.preserves_Kernel_KernelIdeal := trivial

section

variable (ref_run : ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v67) = Cert.ReferenceIdeal.Hand.refResult m c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

include ref_run in
/-- The reference's frame: its run, the result dropped. -/
theorem frame_reference : Cert.frame_ReferenceIdeal := fun m ρ _ =>
  (θ_run Cert.ReferenceIdeal.defs _ _).mono (fun _ h c => (h c).2) (ref_run m ρ)

include ref_run in
/-- From memories that agree on the arguments both programs run and end with the same result. -/
theorem algebraic : Cert.algebraic_KernelIdeal_ReferenceIdeal := by
  intro m ρ m' ρ' _ hagree
  refine ⟨fun c => Cert.KernelIdeal.Gen.W8 m ρ c (Proc.devRef .tc Cert.KernelIdeal.main_v53),
    Cert.KernelIdeal.Hand.run_value (F := Ideal) m ρ, ?_⟩
  refine (θ_run Cert.ReferenceIdeal.defs _ _).mono (fun r h c => ⟨(h c).1.trans ?_, (h c).2⟩) (ref_run m' ρ')
  obtain ⟨e0, e1, e2, e3, e4, e5, e6, e7, e8, e9, e10, e11, e12⟩ := hagree c
  refine (Cert.ReferenceIdeal.Hand.ref_net m' c).trans (Eq.trans ?_
    (Cert.KernelIdeal.Hand.kernel_net m ρ c Cert.ReferenceIdeal.Gen.bcast_S96_S1x96_1 Cert.ReferenceIdeal.Gen.bcast_S64_S1x64_1
      Cert.KernelIdeal.Hand.region0_value Cert.KernelIdeal.Hand.region1_value Cert.KernelIdeal.Hand.region2_value
      Cert.KernelIdeal.Hand.region3_value).symm)
  rw [e0, e1, e2, e3, e4, e5, e6, e7, e8, e9, e10, e11, e12]
  rfl

end

end Cert.Proof.Claims

end
-- ==== Proof.RefStretch.lean ====
/-
  The reference program's line of host operations, read in four stretches over an arbitrary valuation of the buffers.

  Stretch 1 cuts the edge list into its row of source nodes and its row of target nodes and computes the first layer;
  stretches 2 and 3 compute the second and third layers, each from the layer before and the two rows of edge ends;
  stretch 4 joins the three hidden states, applies the output weights and bias, and takes the log-softmax. For each
  stretch two facts are stated, for any contents V of the buffers before it: the buffers that later stretches read hold
  the stage's function (`refLayer`, `refLsm ∘ refLogits`) of what V held at the stretch's operands; and every buffer
  that the stretch does not write holds what V held. The line as a whole is the four stretches one after the other, and
  running a concatenation is running its parts in turn, so the facts chain.

  Some operations of the line are spelt over references that carry the type of their tensor value, each operand and
  result crossing between that type and the buffer's own by a transport along their equation. When the carried type is
  the buffer's own type the transport is the identity, and such a line is the plain line with the same function; the
  stretches are written with the plain lines.
-/
import proofs.«136992_j74148315398472_1_alg».proof.Proof.RefOps
import proofs.«136992_j74148315398472_1_alg».proof.Proof.RefTerms
import Idealize.ShloMosaic.Lib.StableHlo.Run

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

section Typed

variable {Val : EltTy → Type}

/-- A constant line over a typed reference whose carried type is the buffer's own is the plain line. -/
theorem tnullary_eq (y : Ref sig .tc) {y2 : y.space ≠ .host} {y3 : y.isScoped = false} {v : y.ty.Contents Val}
    {hy : y.space ≠ .host ∧ (y : DevRef τ sig).isScoped = false} :
    TRef.nullary (τ := τ) (TRef.of (T := y.ty) y rfl y2 y3) v = StableHlo.nullary y v hy := rfl

/-- A one-operand line over typed references whose carried types are the buffers' own is the plain line. -/
theorem tunary_eq (x y : Ref sig .tc) {x2 : x.space ≠ .host} {x3 : x.isScoped = false}
    {y2 : y.space ≠ .host} {y3 : y.isScoped = false} {f : x.ty.Contents Val → y.ty.Contents Val}
    {hx : x.space ≠ .host ∧ (x : DevRef τ sig).isScoped = false}
    {hy : y.space ≠ .host ∧ (y : DevRef τ sig).isScoped = false} :
    TRef.unary (τ := τ) (TRef.of (T := x.ty) x rfl x2 x3) (TRef.of (T := y.ty) y rfl y2 y3) f
      = StableHlo.unary x y f hx hy := rfl

/-- A two-operand line over typed references whose carried types are the buffers' own is the plain line. -/
theorem tbinary_eq (a b y : Ref sig .tc) {a2 : a.space ≠ .host} {a3 : a.isScoped = false}
    {b2 : b.space ≠ .host} {b3 : b.isScoped = false}
    {y2 : y.space ≠ .host} {y3 : y.isScoped = false} {f : a.ty.Contents Val → b.ty.Contents Val → y.ty.Contents Val}
    {ha : a.space ≠ .host ∧ (a : DevRef τ sig).isScoped = false}
    {hb : b.space ≠ .host ∧ (b : DevRef τ sig).isScoped = false}
    {hy : y.space ≠ .host ∧ (y : DevRef τ sig).isScoped = false} :
    TRef.binary (τ := τ) (TRef.of (T := a.ty) a rfl a2 a3) (TRef.of (T := b.ty) b rfl b2 b3) (TRef.of (T := y.ty) y rfl y2 y3) f
      = StableHlo.binary a b y f ha hb hy := rfl

end Typed

section Stretches

variable {F : FTy → Type} [FloatOps F]

/-- Stretch 1: the two rows of edge ends and the first layer. -/
abbrev s1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst (constant S_ .f32 0x00000000#32),
    unary main_cst main_v11 (broadcastInDim S50000x96 ![] bcast_S_S50000x96 : (⟨S_, .f32⟩ : BufTy).Contents (Elt F) → (⟨S50000x96, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_arg2 main_v14 ((transpose S96x96 [1, 0] · transposes_S96x96_S96x96_1_0) : (⟨S96x96, .f32⟩ : BufTy).Contents (Elt F) → (⟨S96x96, .f32⟩ : BufTy).Contents (Elt F)),
    binary main_v13 main_v14 main_v15 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg3 main_v16 (broadcastInDim S1x96 ![1] bcast_S96_S1x96_1 : (⟨S96, .f32⟩ : BufTy).Contents (Elt F) → (⟨S1x96, .f32⟩ : BufTy).Contents (Elt F)),
    unary main_v16 main_v17 (broadcastInDim S50000x96 ![0, 1] bcast_S1x96_S50000x96_0_1 : (⟨S1x96, .f32⟩ : BufTy).Contents (Elt F) → (⟨S50000x96, .f32⟩ : BufTy).Contents (Elt F)),
    binary main_v15 main_v17 main_v18 (addf : (⟨S50000x96, .f32⟩ : BufTy).Contents (Elt F) → (⟨S50000x96, .f32⟩ : BufTy).Contents (Elt F) → (⟨S50000x96, .f32⟩ : BufTy).Contents (Elt F)),
    unary main_arg4 main_v19 ((transpose S96x96 [1, 0] · transposes_S96x96_S96x96_1_0) : (⟨S96x96, .f32⟩ : BufTy).Contents (Elt F) → (⟨S96x96, .f32⟩ : BufTy).Contents (Elt F)),
    binary main_arg0 main_v19 main_v20 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    binary main_v18 main_v20 main_v21 (addf : (⟨S50000x96, .f32⟩ : BufTy).Contents (Elt F) → (⟨S50000x96, .f32⟩ : BufTy).Contents (Elt F) → (⟨S50000x96, .f32⟩ : BufTy).Contents (Elt F)),
    nullary main_call0_cst ((constant S_ .f32 0x00000000#32) : (⟨S_, .f32⟩ : BufTy).Contents (Elt F)),
    unary main_call0_cst main_call0_v0 ((broadcastInDim S50000x96 ![] bcast_S_S50000x96) : (⟨S_, .f32⟩ : BufTy).Contents (Elt F) → (⟨S50000x96, .f32⟩ : BufTy).Contents (Elt F)),
    binary main_v21 main_call0_v0 main_v22 ((maximumf) : (⟨S50000x96, .f32⟩ : BufTy).Contents (Elt F) → (⟨S50000x96, .f32⟩ : BufTy).Contents (Elt F) → (⟨S50000x96, .f32⟩ : BufTy).Contents (Elt F)) ]

/-- Stretch 2: the second layer. -/
abbrev s2 : List (HloOp τ sig (Elt F)) :=
  [ nullary main_c_1 (constantI S_ 32 0#32),
    unary main_c_1 main_v23 (broadcastInDim S800000 ![] bcast_S_S800000 : (⟨S_, .i32⟩ : BufTy).Contents (Elt F) → (⟨S800000, .i32⟩ : BufTy).Contents (Elt F)),
    binary main_v1 main_v23 main_v24 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v25 (broadcastInDim S800000 ![] bcast_S_S800000 : (⟨S_, .i32⟩ : BufTy).Contents (Elt F) → (⟨S800000, .i32⟩ : BufTy).Contents (Elt F)),
    binary main_v1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst_3 (constant S_ .f32 0x00000000#32),
    unary main_cst_3 main_v30 (broadcastInDim S50000x96 ![] bcast_S_S50000x96 : (⟨S_, .f32⟩ : BufTy).Contents (Elt F) → (⟨S50000x96, .f32⟩ : BufTy).Contents (Elt F)),
    unary main_v3 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_arg5 main_v33 ((transpose S96x96 [1, 0] · transposes_S96x96_S96x96_1_0) : (⟨S96x96, .f32⟩ : BufTy).Contents (Elt F) → (⟨S96x96, .f32⟩ : BufTy).Contents (Elt F)),
    binary main_v32 main_v33 main_v34 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg6 main_v35 (broadcastInDim S1x96 ![1] bcast_S96_S1x96_1 : (⟨S96, .f32⟩ : BufTy).Contents (Elt F) → (⟨S1x96, .f32⟩ : BufTy).Contents (Elt F)),
    unary main_v35 main_v36 (broadcastInDim S50000x96 ![0, 1] bcast_S1x96_S50000x96_0_1 : (⟨S1x96, .f32⟩ : BufTy).Contents (Elt F) → (⟨S50000x96, .f32⟩ : BufTy).Contents (Elt F)),
    binary main_v34 main_v36 main_v37 (addf : (⟨S50000x96, .f32⟩ : BufTy).Contents (Elt F) → (⟨S50000x96, .f32⟩ : BufTy).Contents (Elt F) → (⟨S50000x96, .f32⟩ : BufTy).Contents (Elt F)),
    unary main_arg7 main_v38 ((transpose S96x96 [1, 0] · transposes_S96x96_S96x96_1_0) : (⟨S96x96, .f32⟩ : BufTy).Contents (Elt F) → (⟨S96x96, .f32⟩ : BufTy).Contents (Elt F)),
    binary main_v22 main_v38 main_v39 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    binary main_v37 main_v39 main_v40 (addf : (⟨S50000x96, .f32⟩ : BufTy).Contents (Elt F) → (⟨S50000x96, .f32⟩ : BufTy).Contents (Elt F) → (⟨S50000x96, .f32⟩ : BufTy).Contents (Elt F)),
    nullary main_call1_cst ((constant S_ .f32 0x00000000#32) : (⟨S_, .f32⟩ : BufTy).Contents (Elt F)),
    unary main_call1_cst main_call1_v0 ((broadcastInDim S50000x96 ![] bcast_S_S50000x96) : (⟨S_, .f32⟩ : BufTy).Contents (Elt F) → (⟨S50000x96, .f32⟩ : BufTy).Contents (Elt F)),
    binary main_v40 main_call1_v0 main_v41 ((maximumf) : (⟨S50000x96, .f32⟩ : BufTy).Contents (Elt F) → (⟨S50000x96, .f32⟩ : BufTy).Contents (Elt F) → (⟨S50000x96, .f32⟩ : BufTy).Contents (Elt F)) ]

/-- Stretch 3: the third layer. -/
abbrev s3 : List (HloOp τ sig (Elt F)) :=
  [ nullary main_c_4 (constantI S_ 32 0#32),
    unary main_c_4 main_v42 (broadcastInDim S800000 ![] bcast_S_S800000 : (⟨S_, .i32⟩ : BufTy).Contents (Elt F) → (⟨S800000, .i32⟩ : BufTy).Contents (Elt F)),
    binary main_v1 main_v42 main_v43 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v44 (broadcastInDim S800000 ![] bcast_S_S800000 : (⟨S_, .i32⟩ : BufTy).Contents (Elt F) → (⟨S800000, .i32⟩ : BufTy).Contents (Elt F)),
    binary main_v1 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v1 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst_6 (constant S_ .f32 0x00000000#32),
    unary main_cst_6 main_v49 (broadcastInDim S50000x96 ![] bcast_S_S50000x96 : (⟨S_, .f32⟩ : BufTy).Contents (Elt F) → (⟨S50000x96, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    unary main_arg8 main_v52 ((transpose S96x96 [1, 0] · transposes_S96x96_S96x96_1_0) : (⟨S96x96, .f32⟩ : BufTy).Contents (Elt F) → (⟨S96x96, .f32⟩ : BufTy).Contents (Elt F)),
    binary main_v51 main_v52 main_v53 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg9 main_v54 (broadcastInDim S1x96 ![1] bcast_S96_S1x96_1 : (⟨S96, .f32⟩ : BufTy).Contents (Elt F) → (⟨S1x96, .f32⟩ : BufTy).Contents (Elt F)),
    unary main_v54 main_v55 (broadcastInDim S50000x96 ![0, 1] bcast_S1x96_S50000x96_0_1 : (⟨S1x96, .f32⟩ : BufTy).Contents (Elt F) → (⟨S50000x96, .f32⟩ : BufTy).Contents (Elt F)),
    binary main_v53 main_v55 main_v56 (addf : (⟨S50000x96, .f32⟩ : BufTy).Contents (Elt F) → (⟨S50000x96, .f32⟩ : BufTy).Contents (Elt F) → (⟨S50000x96, .f32⟩ : BufTy).Contents (Elt F)),
    unary main_arg10 main_v57 ((transpose S96x96 [1, 0] · transposes_S96x96_S96x96_1_0) : (⟨S96x96, .f32⟩ : BufTy).Contents (Elt F) → (⟨S96x96, .f32⟩ : BufTy).Contents (Elt F)),
    binary main_v41 main_v57 main_v58 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    binary main_v56 main_v58 main_v59 (addf : (⟨S50000x96, .f32⟩ : BufTy).Contents (Elt F) → (⟨S50000x96, .f32⟩ : BufTy).Contents (Elt F) → (⟨S50000x96, .f32⟩ : BufTy).Contents (Elt F)),
    nullary main_call2_cst ((constant S_ .f32 0x00000000#32) : (⟨S_, .f32⟩ : BufTy).Contents (Elt F)),
    unary main_call2_cst main_call2_v0 ((broadcastInDim S50000x96 ![] bcast_S_S50000x96) : (⟨S_, .f32⟩ : BufTy).Contents (Elt F) → (⟨S50000x96, .f32⟩ : BufTy).Contents (Elt F)),
    binary main_v59 main_call2_v0 main_v60 ((maximumf) : (⟨S50000x96, .f32⟩ : BufTy).Contents (Elt F) → (⟨S50000x96, .f32⟩ : BufTy).Contents (Elt F) → (⟨S50000x96, .f32⟩ : BufTy).Contents (Elt F)) ]

/-- Stretch 4: the three hidden states joined, the output layer and the log-softmax. -/
abbrev s4 : List (HloOp τ sig (Elt F)) :=
  [ nary ![main_v22, main_v41, main_v60] main_v61 (fun u => concatenate S50000x288 1 [⟨S50000x96, u 0⟩, ⟨S50000x96, u 1⟩, ⟨S50000x96, u 2⟩] concatenates_S50000x96_S50000x96_S50000x96_S50000x288_d1),
    unary main_arg11 main_v62 ((transpose S288x64 [1, 0] · transposes_S64x288_S288x64_1_0) : (⟨S64x288, .f32⟩ : BufTy).Contents (Elt F) → (⟨S288x64, .f32⟩ : BufTy).Contents (Elt F)),
    binary main_v61 main_v62 main_v63 ((fun l r => Host.dotGeneral dot_S50000x288_S288x64_S50000x64_1_0_0_1_n_n none l r) : (⟨S50000x288, .f32⟩ : BufTy).Contents (Elt F) → (⟨S288x64, .f32⟩ : BufTy).Contents (Elt F) → (⟨S50000x64, .f32⟩ : BufTy).Contents (Elt F)),
    unary main_arg12 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    nullary main_call3_cst ((constant S_ .f32 0xFF800000#32) : (⟨S_, .f32⟩ : BufTy).Contents (Elt F)),
    binary main_v66 main_call3_cst main_call3_v0 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_call3_cst_0 ((constant S_ .f32 0xFF800000#32) : (⟨S_, .f32⟩ : BufTy).Contents (Elt F)),
    unary main_call3_cst_0 main_call3_v1 ((broadcastInDim S50000 ![] bcast_S_S50000) : (⟨S_, .f32⟩ : BufTy).Contents (Elt F) → (⟨S50000, .f32⟩ : BufTy).Contents (Elt F)),
    binary main_call3_v1 main_call3_v0 main_call3_v2 ((maximumf) : (⟨S50000, .f32⟩ : BufTy).Contents (Elt F) → (⟨S50000, .f32⟩ : BufTy).Contents (Elt F) → (⟨S50000, .f32⟩ : BufTy).Contents (Elt F)),
    unary main_call3_v2 main_call3_v3 ((broadcastInDim S50000x1 ![0] bcast_S50000_S50000x1_0) : (⟨S50000, .f32⟩ : BufTy).Contents (Elt F) → (⟨S50000x1, .f32⟩ : BufTy).Contents (Elt F)),
    unary main_call3_v3 main_call3_v4 ((broadcastInDim S50000x64 ![0, 1] bcast_S50000x1_S50000x64_0_1) : (⟨S50000x1, .f32⟩ : BufTy).Contents (Elt F) → (⟨S50000x64, .f32⟩ : BufTy).Contents (Elt F)),
    binary main_v66 main_call3_v4 main_call3_v5 ((subf) : (⟨S50000x64, .f32⟩ : BufTy).Contents (Elt F) → (⟨S50000x64, .f32⟩ : BufTy).Contents (Elt F) → (⟨S50000x64, .f32⟩ : BufTy).Contents (Elt F)),
    unary main_call3_v5 main_call3_v6 ((Host.exp) : (⟨S50000x64, .f32⟩ : BufTy).Contents (Elt F) → (⟨S50000x64, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_call3_v7 main_call3_v8 ((broadcastInDim S50000x1 ![0] bcast_S50000_S50000x1_0) : (⟨S50000, .f32⟩ : BufTy).Contents (Elt F) → (⟨S50000x1, .f32⟩ : BufTy).Contents (Elt F)),
    unary main_call3_v8 main_call3_v9 ((Host.log) : (⟨S50000x1, .f32⟩ : BufTy).Contents (Elt F) → (⟨S50000x1, .f32⟩ : BufTy).Contents (Elt F)),
    unary main_call3_v9 main_call3_v10 ((broadcastInDim S50000x64 ![0, 1] bcast_S50000x1_S50000x64_0_1) : (⟨S50000x1, .f32⟩ : BufTy).Contents (Elt F) → (⟨S50000x64, .f32⟩ : BufTy).Contents (Elt F)),
    binary main_call3_v5 main_call3_v10 main_v67 ((subf) : (⟨S50000x64, .f32⟩ : BufTy).Contents (Elt F) → (⟨S50000x64, .f32⟩ : BufTy).Contents (Elt F) → (⟨S50000x64, .f32⟩ : BufTy).Contents (Elt F)) ]

set_option maxRecDepth 16384 in
set_option maxHeartbeats 4000000 in
/-- The program's line is the four stretches one after the other: operation by operation the same line, a line over
    typed references being the plain line. -/
theorem ops_split : (ops : List (HloOp τ sig (Elt F))) = s1 ++ (s2 ++ (s3 ++ s4)) := by
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (tnullary_eq main_call0_cst) ?_
  refine congrArg₂ List.cons (tunary_eq main_call0_cst main_call0_v0) ?_
  refine congrArg₂ List.cons (tbinary_eq main_v21 main_call0_v0 main_v22) ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (tnullary_eq main_call1_cst) ?_
  refine congrArg₂ List.cons (tunary_eq main_call1_cst main_call1_v0) ?_
  refine congrArg₂ List.cons (tbinary_eq main_v40 main_call1_v0 main_v41) ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (tnullary_eq main_call2_cst) ?_
  refine congrArg₂ List.cons (tunary_eq main_call2_cst main_call2_v0) ?_
  refine congrArg₂ List.cons (tbinary_eq main_v59 main_call2_v0 main_v60) ?_
  refine congrArg₂ List.cons rfl ?_
  refine congrArg₂ List.cons rfl ?_
  refine congrArg₂ List.cons rfl ?_
  refine congrArg₂ List.cons rfl ?_
  refine congrArg₂ List.cons rfl ?_
  refine congrArg₂ List.cons rfl ?_
  refine congrArg₂ List.cons (tnullary_eq main_call3_cst) ?_
  refine congrArg₂ List.cons (tbinary_eq main_v66 main_call3_cst main_call3_v0) ?_
  refine congrArg₂ List.cons (tnullary_eq main_call3_cst_0) ?_
  refine congrArg₂ List.cons (tunary_eq main_call3_cst_0 main_call3_v1) ?_
  refine congrArg₂ List.cons (tbinary_eq main_call3_v1 main_call3_v0 main_call3_v2) ?_
  refine congrArg₂ List.cons (tunary_eq main_call3_v2 main_call3_v3) ?_
  refine congrArg₂ List.cons (tunary_eq main_call3_v3 main_call3_v4) ?_
  refine congrArg₂ List.cons (tbinary_eq main_v66 main_call3_v4 main_call3_v5) ?_
  refine congrArg₂ List.cons (tunary_eq main_call3_v5 main_call3_v6) ?_
  refine congrArg₂ List.cons (tnullary_eq main_call3_cst_1) ?_
  refine congrArg₂ List.cons (tbinary_eq main_call3_v6 main_call3_cst_1 main_call3_v7) ?_
  refine congrArg₂ List.cons (tunary_eq main_call3_v7 main_call3_v8) ?_
  refine congrArg₂ List.cons (tunary_eq main_call3_v8 main_call3_v9) ?_
  refine congrArg₂ List.cons (tunary_eq main_call3_v9 main_call3_v10) ?_
  refine congrArg₂ List.cons (tbinary_eq main_call3_v5 main_call3_v10 main_v67) ?_
  rfl

end Stretches

/-- Running a concatenation is running its parts in turn. -/
theorem after_append {Val : EltTy → Type} (A B : List (HloOp τ sig Val)) (V : Valuation τ sig Val) :
    after (A ++ B) V = after B (after A V) := by
  induction A generalizing V with
  | nil => rfl
  | cons a A ih => simp only [List.cons_append, after_cons, ih]

/-- The neighbourhood sum over the two rows of edge ends given separately. -/
def aggrRows (src dst : (⟨S800000, .i32⟩ : BufTy).Contents (Elt Ideal)) (x : FVec Ideal S50000x96 .f32) :
    FVec Ideal S50000x96 .f32 :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 dst)
    (Host.gather gather_S50000x96_S800000x1_S800000x96_1_0_n_n_0_1_196 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

/-- The neighbourhood sum over an edge list is the one over its two rows. -/
theorem aggr_eq_rows (ei : (⟨S2x800000, .i32⟩ : BufTy).Contents (Elt Ideal)) (x : FVec Ideal S50000x96 .f32) :
    aggr ei x = aggrRows (srcRow ei) (dstRow ei) x := rfl

/-- A buffer among the listed ones, as a one-element set of device buffers, lies in the list's set. -/
theorem single_sub_of_mem {W : List (Ref sig .tc)} {y : Ref sig .tc} (hy : y ∈ W) :
    ({Proc.devRef (τ := τ) .tc y} : Finset (DevRef τ sig)) ⊆ (W.map (Proc.devRef (τ := τ) .tc)).toFinset := by
  rw [Finset.singleton_subset_iff, List.mem_toFinset]
  exact List.mem_map.mpr ⟨y, hy, rfl⟩

set_option maxRecDepth 16384 in
set_option maxHeartbeats 4000000 in
/-- After stretch 1 the row of source nodes is the edge list's row 0. -/
theorem s1_v1 (V : Valuation τ sig (Elt Ideal)) :
    after (s1 (F := Ideal)) V (Proc.devRef .tc main_v1)
      = srcRow (V (Proc.devRef .tc main_arg1)) := by
  after_results_simp
  unfold srcRow
  rfl

set_option maxRecDepth 16384 in
set_option maxHeartbeats 4000000 in
/-- After stretch 1 the row of target nodes is the edge list's row 1. -/
theorem s1_v3 (V : Valuation τ sig (Elt Ideal)) :
    after (s1 (F := Ideal)) V (Proc.devRef .tc main_v3)
      = dstRow (V (Proc.devRef .tc main_arg1)) := by
  after_results_simp
  unfold dstRow
  rfl

set_option maxRecDepth 16384 in
set_option maxHeartbeats 4000000 in
/-- After stretch 1 the first hidden state is one layer of the neighbourhood sum of the input features. -/
theorem s1_v22 (V : Valuation τ sig (Elt Ideal)) :
    after (s1 (F := Ideal)) V (Proc.devRef .tc main_v22)
      = refLayer (aggr (V (Proc.devRef .tc main_arg1)) (V (Proc.devRef .tc main_arg0))) (V (Proc.devRef .tc main_arg0))
          (V (Proc.devRef .tc main_arg2)) (V (Proc.devRef .tc main_arg3)) (V (Proc.devRef .tc main_arg4)) := by
  after_results_simp
  unfold refLayer aggr srcRow dstRow
  rfl

/-- The buffers stretch 1 writes. -/
def W1 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_call0_cst, main_call0_v0, main_v22]

set_option maxRecDepth 16384 in
set_option maxHeartbeats 4000000 in
/-- Stretch 1 leaves every buffer it does not write as it found it. -/
theorem s1_keep (V : Valuation τ sig (Elt Ideal)) {r : Ref sig .tc} (hr : r ∉ W1) :
    after (s1 (F := Ideal)) V (Proc.devRef .tc r) = V (Proc.devRef .tc r) :=
  after_of_writes_sub (W := W1) _ V (by
    simp only [List.Forall, nullary_writes, unary_writes, binary_writes, ternary_writes, reshape_writes, nary_writes]
    repeat' apply And.intro
    all_goals exact single_sub_of_mem (by decide)) hr

set_option maxRecDepth 16384 in
set_option maxHeartbeats 4000000 in
/-- After stretch 2 the second hidden state is one layer of the neighbourhood sum of the first. -/
theorem s2_v41 (V : Valuation τ sig (Elt Ideal)) :
    after (s2 (F := Ideal)) V (Proc.devRef .tc main_v41)
      = refLayer (aggrRows (V (Proc.devRef .tc main_v1)) (V (Proc.devRef .tc main_v3)) (V (Proc.devRef .tc main_v22))) (V (Proc.devRef .tc main_v22))
          (V (Proc.devRef .tc main_arg5)) (V (Proc.devRef .tc main_arg6)) (V (Proc.devRef .tc main_arg7)) := by
  after_results_simp
  unfold refLayer aggrRows
  rfl

/-- The buffers stretch 2 writes. -/
def W2 : List (Ref sig .tc) :=
  [main_c_1, main_v23, main_v24, main_c_2, main_v25, main_v26, main_v27, main_v28, main_v29, main_cst_3, main_v30, main_v31, main_v32, main_v33, main_v34, main_v35, main_v36, main_v37, main_v38, main_v39, main_v40, main_call1_cst, main_call1_v0, main_v41]

set_option maxRecDepth 16384 in
set_option maxHeartbeats 4000000 in
/-- Stretch 2 leaves every buffer it does not write as it found it. -/
theorem s2_keep (V : Valuation τ sig (Elt Ideal)) {r : Ref sig .tc} (hr : r ∉ W2) :
    after (s2 (F := Ideal)) V (Proc.devRef .tc r) = V (Proc.devRef .tc r) :=
  after_of_writes_sub (W := W2) _ V (by
    simp only [List.Forall, nullary_writes, unary_writes, binary_writes, ternary_writes, reshape_writes, nary_writes]
    repeat' apply And.intro
    all_goals exact single_sub_of_mem (by decide)) hr

set_option maxRecDepth 16384 in
set_option maxHeartbeats 4000000 in
/-- After stretch 3 the third hidden state is one layer of the neighbourhood sum of the second. -/
theorem s3_v60 (V : Valuation τ sig (Elt Ideal)) :
    after (s3 (F := Ideal)) V (Proc.devRef .tc main_v60)
      = refLayer (aggrRows (V (Proc.devRef .tc main_v1)) (V (Proc.devRef .tc main_v3)) (V (Proc.devRef .tc main_v41))) (V (Proc.devRef .tc main_v41))
          (V (Proc.devRef .tc main_arg8)) (V (Proc.devRef .tc main_arg9)) (V (Proc.devRef .tc main_arg10)) := by
  after_results_simp
  unfold refLayer aggrRows
  rfl

/-- The buffers stretch 3 writes. -/
def W3 : List (Ref sig .tc) :=
  [main_c_4, main_v42, main_v43, main_c_5, main_v44, main_v45, main_v46, main_v47, main_v48, main_cst_6, main_v49, main_v50, main_v51, main_v52, main_v53, main_v54, main_v55, main_v56, main_v57, main_v58, main_v59, main_call2_cst, main_call2_v0, main_v60]

set_option maxRecDepth 16384 in
set_option maxHeartbeats 4000000 in
/-- Stretch 3 leaves every buffer it does not write as it found it. -/
theorem s3_keep (V : Valuation τ sig (Elt Ideal)) {r : Ref sig .tc} (hr : r ∉ W3) :
    after (s3 (F := Ideal)) V (Proc.devRef .tc r) = V (Proc.devRef .tc r) :=
  after_of_writes_sub (W := W3) _ V (by
    simp only [List.Forall, nullary_writes, unary_writes, binary_writes, ternary_writes, reshape_writes, nary_writes]
    repeat' apply And.intro
    all_goals exact single_sub_of_mem (by decide)) hr

set_option maxRecDepth 16384 in
set_option maxHeartbeats 4000000 in
/-- After stretch 4 the result is the log-softmax of the logits of the three hidden states. -/
theorem s4_v67 (V : Valuation τ sig (Elt Ideal)) :
    after (s4 (F := Ideal)) V (Proc.devRef .tc main_v67)
      = refLsm (refLogits (V (Proc.devRef .tc main_v22)) (V (Proc.devRef .tc main_v41)) (V (Proc.devRef .tc main_v60))
          (V (Proc.devRef .tc main_arg11)) (V (Proc.devRef .tc main_arg12))) := by
  after_results_simp
  unfold refLsm refShift refLogits
  rfl

/-- The buffers stretch 4 writes. -/
def W4 : List (Ref sig .tc) :=
  [main_v61, main_v62, main_v63, main_v64, main_v65, main_v66, main_call3_cst, main_call3_v0, main_call3_cst_0, main_call3_v1, main_call3_v2, main_call3_v3, main_call3_v4, main_call3_v5, main_call3_v6, main_call3_cst_1, main_call3_v7, main_call3_v8, main_call3_v9, main_call3_v10, main_v67]

set_option maxRecDepth 16384 in
set_option maxHeartbeats 4000000 in
/-- Stretch 4 leaves every buffer it does not write as it found it. -/
theorem s4_keep (V : Valuation τ sig (Elt Ideal)) {r : Ref sig .tc} (hr : r ∉ W4) :
    after (s4 (F := Ideal)) V (Proc.devRef .tc r) = V (Proc.devRef .tc r) :=
  after_of_writes_sub (W := W4) _ V (by
    simp only [List.Forall, nullary_writes, unary_writes, binary_writes, ternary_writes, reshape_writes, nary_writes]
    repeat' apply And.intro
    all_goals exact single_sub_of_mem (by decide)) hr

end Cert.ReferenceIdeal.Hand

end
-- ==== Proof.RefRun.lean ====
/-
  The reference program's run, stated over its named stages.

  Every weakly fair execution of the program terminates with each buffer at the fold of the line's operations over the
  launch contents. The line is four stretches, and running a concatenation is running its parts in turn; so the result
  buffer holds the log-softmax of the logits of three hidden states, where the first hidden state is one layer of the
  neighbourhood sum of the input features and each later one is one layer of the neighbourhood sum of the one before
  (the two rows of edge ends, cut from the edge list in the first stretch, are carried unchanged through the later
  stretches, as are the weights and biases each later stretch reads). No operation writes an argument, so the arguments
  end as they were launched.
-/
import proofs.«136992_j74148315398472_1_alg».proof.Proof.RefStretch
import proofs.«136992_j74148315398472_1_alg».proof.Proof.RefResult
import Idealize.ShloMosaic.Lib.StableHlo.Run

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

/-- The whole line leaves every buffer that no stretch writes as it found it. -/
theorem ops_keep (V : Valuation τ sig (Elt Ideal)) {r : Ref sig .tc}
    (h1 : r ∉ W1) (h2 : r ∉ W2) (h3 : r ∉ W3) (h4 : r ∉ W4) :
    after (ops (F := Ideal)) V (Proc.devRef .tc r) = V (Proc.devRef .tc r) := by
  rw [ops_split, after_append, after_append, after_append, s4_keep _ h4, s3_keep _ h3, s2_keep _ h2, s1_keep _ h1]

set_option maxRecDepth 16384 in
set_option maxHeartbeats 4000000 in
/-- The whole line over any valuation: for hidden states h1, h2, h3 that are, in turn, one layer of the neighbourhood
    sum of the input features, of h1 and of h2, the result buffer ends at the log-softmax of their logits. -/
theorem ops_v67 (V : Valuation τ sig (Elt Ideal)) (h1 h2 h3 : FVec Ideal S50000x96 .f32)
    (e1 : h1 = refLayer (aggr (V (Proc.devRef .tc main_arg1)) (V (Proc.devRef .tc main_arg0))) (V (Proc.devRef .tc main_arg0))
      (V (Proc.devRef .tc main_arg2)) (V (Proc.devRef .tc main_arg3)) (V (Proc.devRef .tc main_arg4)))
    (e2 : h2 = refLayer (aggr (V (Proc.devRef .tc main_arg1)) h1) h1
      (V (Proc.devRef .tc main_arg5)) (V (Proc.devRef .tc main_arg6)) (V (Proc.devRef .tc main_arg7)))
    (e3 : h3 = refLayer (aggr (V (Proc.devRef .tc main_arg1)) h2) h2
      (V (Proc.devRef .tc main_arg8)) (V (Proc.devRef .tc main_arg9)) (V (Proc.devRef .tc main_arg10))) :
    after (ops (F := Ideal)) V (Proc.devRef .tc main_v67)
      = refLsm (refLogits h1 h2 h3 (V (Proc.devRef .tc main_arg11)) (V (Proc.devRef .tc main_arg12))) := by
  rw [ops_split, after_append, after_append, after_append]
  have k1 : after (s1 (F := Ideal)) V (Proc.devRef .tc main_v22) = h1 := (s1_v22 V).trans e1.symm
  have k1s : after (s1 (F := Ideal)) V (Proc.devRef .tc main_v1) = srcRow (V (Proc.devRef .tc main_arg1)) := s1_v1 V
  have k1d : after (s1 (F := Ideal)) V (Proc.devRef .tc main_v3) = dstRow (V (Proc.devRef .tc main_arg1)) := s1_v3 V
  have k2 : after (s2 (F := Ideal)) (after (s1 (F := Ideal)) V) (Proc.devRef .tc main_v41) = h2 := by
    rw [s2_v41, k1, k1s, k1d, ← aggr_eq_rows, s1_keep V (r := main_arg5) (by decide),
      s1_keep V (r := main_arg6) (by decide), s1_keep V (r := main_arg7) (by decide)]
    exact e2.symm
  have k3 : after (s3 (F := Ideal)) (after (s2 (F := Ideal)) (after (s1 (F := Ideal)) V)) (Proc.devRef .tc main_v60) = h3 := by
    rw [s3_v60, k2, s2_keep _ (r := main_v1) (by decide), s2_keep _ (r := main_v3) (by decide), k1s, k1d,
      ← aggr_eq_rows,
      s2_keep _ (r := main_arg8) (by decide), s1_keep V (r := main_arg8) (by decide),
      s2_keep _ (r := main_arg9) (by decide), s1_keep V (r := main_arg9) (by decide),
      s2_keep _ (r := main_arg10) (by decide), s1_keep V (r := main_arg10) (by decide)]
    exact e3.symm
  rw [s4_v67, k3, s3_keep _ (r := main_v41) (by decide), k2,
    s3_keep _ (r := main_v22) (by decide), s2_keep _ (r := main_v22) (by decide), k1,
    s3_keep _ (r := main_arg11) (by decide), s2_keep _ (r := main_arg11) (by decide), s1_keep V (r := main_arg11) (by decide),
    s3_keep _ (r := main_arg12) (by decide), s2_keep _ (r := main_arg12) (by decide), s1_keep V (r := main_arg12) (by decide)]

set_option maxRecDepth 16384 in
set_option maxHeartbeats 4000000 in
/-- On every device, from any memory with zero counters: every weakly fair execution of the reference program
    terminates with the result at the log-softmax of the logits of the three hidden states of the launch contents, and
    the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v67) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v67).trans (ops_v67 (launchContents m c) (hid1 m c) (hid2 m c) (hid3 m c) rfl rfl rfl),
      (h c main_arg0).trans (ops_keep (launchContents m c) (by decide) (by decide) (by decide) (by decide)),
      (h c main_arg1).trans (ops_keep (launchContents m c) (by decide) (by decide) (by decide) (by decide)),
      (h c main_arg2).trans (ops_keep (launchContents m c) (by decide) (by decide) (by decide) (by decide)),
      (h c main_arg3).trans (ops_keep (launchContents m c) (by decide) (by decide) (by decide) (by decide)),
      (h c main_arg4).trans (ops_keep (launchContents m c) (by decide) (by decide) (by decide) (by decide)),
      (h c main_arg5).trans (ops_keep (launchContents m c) (by decide) (by decide) (by decide) (by decide)),
      (h c main_arg6).trans (ops_keep (launchContents m c) (by decide) (by decide) (by decide) (by decide)),
      (h c main_arg7).trans (ops_keep (launchContents m c) (by decide) (by decide) (by decide) (by decide)),
      (h c main_arg8).trans (ops_keep (launchContents m c) (by decide) (by decide) (by decide) (by decide)),
      (h c main_arg9).trans (ops_keep (launchContents m c) (by decide) (by decide) (by decide) (by decide)),
      (h c main_arg10).trans (ops_keep (launchContents m c) (by decide) (by decide) (by decide) (by decide)),
      (h c main_arg11).trans (ops_keep (launchContents m c) (by decide) (by decide) (by decide) (by decide)),
      (h c main_arg12).trans (ops_keep (launchContents m c) (by decide) (by decide) (by decide) (by decide))⟩)
    (run_seq scopedRefs_eq scopedSems_eq defs main (fun _ => ops) main_eq (fun _ => ops_sub) m ρ)

end Cert.ReferenceIdeal.Hand

end
-- ==== Proof.lean ====
/-
  A three-layer graph convolution with a final linear layer and log-softmax over 50000 nodes and 800000 edges: the
  tiled kernel program against its plain reference, equal on the extended reals.

  Both programs compute each layer's neighbourhood sum with the same host operations (rows gathered at the edges'
  source nodes, added into the target nodes' rows). The kernel program then runs, per block of 5000 nodes, two products
  with the transposed 96 × 96 weights into zero accumulators, the bias row, and a maximum with zero; the reference does
  the same on whole arrays: entry (r, j) of both is
      max ( (Σ_k agg(r,k) · W_rel(j,k) + b(j)) + Σ_k x(r,k) · W_root(j,k) , 0 ),
  the sums in the same grouping. The final kernel adds three products of the hidden states with the three column blocks
  of the output weights, where the reference multiplies the three hidden states laid side by side by the whole
  transposed matrix: a sum over 288 = 96 + 96 + 96 positions split in three, which holds for any commutative and
  associative addition. Both then subtract the row maximum (a fold of max from −∞; the reference takes the maximum with
  −∞ once more, which changes nothing) and the logarithm of the row's sum of exponentials. Nothing needs the inputs
  finite.

  The modules: Spec (the network entry by entry), KILayer0–2 and KIFinal (each kernel region's output array as one
  function of the arrays it finds), KIFold and KINet (the fold through the kernel's @main read back to the network),
  KIRun (the kernel's run with its result named), RefTerms, RefSpecLayer, RefSpecFinal, RefResult (the reference's stages
  are the network), RefRun (the reference's run), Claims (the five claims from the two runs).
-/
import proofs.«136992_j74148315398472_1_alg».proof.Defs
import proofs.«136992_j74148315398472_1_alg».proof.Proof.Claims
import proofs.«136992_j74148315398472_1_alg».proof.Proof.RefRun

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_kernel, Cert.Proof.Claims.frame_kernelIdeal,
    Cert.Proof.Claims.frame_reference Cert.ReferenceIdeal.Hand.ref_run, Cert.Proof.Claims.preserves,
    Cert.Proof.Claims.algebraic Cert.ReferenceIdeal.Hand.ref_run⟩

end Cert.Proof

end
